-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x1024x1024 .f32) (main_arg1 : FVec F S8x1024x1024 .f32) (main_arg2 : FVec F S8x1024x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S8x1024x1024 : Shape := ⟨3, ![8, 1024, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S128x1024x64 : Shape := ⟨3, ![128, 1024, 64]⟩
abbrev S128x1024x1024 : Shape := ⟨3, ![128, 1024, 1024]⟩
abbrev S1x1024x64 : Shape := ⟨3, ![1, 1024, 64]⟩
abbrev S1x1024x1024 : Shape := ⟨3, ![1, 1024, 1024]⟩
abbrev S1024x64 : Shape := ⟨2, ![1024, 64]⟩
abbrev S1024x1 : Shape := ⟨2, ![1024, 1]⟩
abbrev S512 : Shape := ⟨1, ![512]⟩
abbrev S512x1 : Shape := ⟨2, ![512, 1]⟩

abbrev nBuf : Space → Nat
  | .hbm => 49
  | .vmem => 38
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S8192x1024, .f32⟩
  | .hbm, ⟨18, _⟩ => ⟨S8192x1024, .bf16⟩
  | .hbm, ⟨19, _⟩ => ⟨S1024x1024, .bf16⟩
  | .hbm, ⟨20, _⟩ => ⟨S1x1024, .f32⟩
  | .hbm, ⟨21, _⟩ => ⟨S8192x1024, .bf16⟩
  | .hbm, ⟨22, _⟩ => ⟨S8x1024x1024, .bf16⟩
  | .hbm, ⟨23, _⟩ => ⟨S8192x1024, .f32⟩
  | .hbm, ⟨24, _⟩ => ⟨S8192x1024, .bf16⟩
  | .hbm, ⟨25, _⟩ => ⟨S1024x1024, .bf16⟩
  | .hbm, ⟨26, _⟩ => ⟨S1x1024, .f32⟩
  | .hbm, ⟨27, _⟩ => ⟨S8192x1024, .bf16⟩
  | .hbm, ⟨28, _⟩ => ⟨S8x1024x1024, .bf16⟩
  | .hbm, ⟨29, _⟩ => ⟨S8192x1024, .f32⟩
  | .hbm, ⟨30, _⟩ => ⟨S8192x1024, .bf16⟩
  | .hbm, ⟨31, _⟩ => ⟨S1024x1024, .bf16⟩
  | .hbm, ⟨32, _⟩ => ⟨S1x1024, .f32⟩
  | .hbm, ⟨33, _⟩ => ⟨S8192x1024, .bf16⟩
  | .hbm, ⟨34, _⟩ => ⟨S8x1024x1024, .bf16⟩
  | .hbm, ⟨35, _⟩ => ⟨S128x1024x64, .bf16⟩
  | .hbm, ⟨36, _⟩ => ⟨S128x1024x64, .bf16⟩
  | .hbm, ⟨37, _⟩ => ⟨S128x1024x64, .bf16⟩
  | .hbm, ⟨38, _⟩ => ⟨S128x1024x64, .bf16⟩
  | .hbm, ⟨39, _⟩ => ⟨S128x1024x1024, .f32⟩
  | .hbm, ⟨40, _⟩ => ⟨S8x1024x1024, .bf16⟩
  | .hbm, ⟨41, _⟩ => ⟨S8192x1024, .bf16⟩
  | .hbm, ⟨42, _⟩ => ⟨S1024x1024, .bf16⟩
  | .hbm, ⟨43, _⟩ => ⟨S1x1024, .f32⟩
  | .hbm, ⟨44, _⟩ => ⟨S8192x1024, .f32⟩
  | .hbm, ⟨45, _⟩ => ⟨S1x1024, .f32⟩
  | .hbm, ⟨46, _⟩ => ⟨S1x1024, .f32⟩
  | .hbm, ⟨47, _⟩ => ⟨S8192x1024, .f32⟩
  | .hbm, ⟨48, _⟩ => ⟨S8x1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024x64, .bf16⟩
  | .local _ .vmem, ⟨19, _⟩ => ⟨S1x1024x64, .bf16⟩
  | .local _ .vmem, ⟨20, _⟩ => ⟨S1x1024x64, .bf16⟩
  | .local _ .vmem, ⟨21, _⟩ => ⟨S1x1024x64, .bf16⟩
  | .local _ .vmem, ⟨22, _⟩ => ⟨S1x1024x64, .bf16⟩
  | .local _ .vmem, ⟨23, _⟩ => ⟨S1x1024x64, .bf16⟩
  | .local _ .vmem, ⟨24, _⟩ => ⟨S1x1024x64, .bf16⟩
  | .local _ .vmem, ⟨25, _⟩ => ⟨S1x1024x64, .bf16⟩
  | .local _ .vmem, ⟨26, _⟩ => ⟨S1x1024x1024, .f32⟩
  | .local _ .vmem, ⟨27, _⟩ => ⟨S1x1024x1024, .f32⟩
  | .local _ .vmem, ⟨28, _⟩ => ⟨S512x1024, .bf16⟩
  | .local _ .vmem, ⟨29, _⟩ => ⟨S512x1024, .bf16⟩
  | .local _ .vmem, ⟨30, _⟩ => ⟨S1024x1024, .bf16⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | .local _ .vmem, ⟨34, _⟩ => ⟨S1x1024, .f32⟩
  | .local _ .vmem, ⟨35, _⟩ => ⟨S1x1024, .f32⟩
  | .local _ .vmem, ⟨36, _⟩ => ⟨S512x1024, .f32⟩
  | .local _ .vmem, ⟨37, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc4_sem4_0 : DmaSem sig := 34
abbrev cc4_sem5_0 : DmaSem sig := 35
abbrev cc4_sem6_0 : DmaSem sig := 36
abbrev cc4_sem6_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![128], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1024x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1024x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1024x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1024x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S512x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  transposes_S1024x1024_S1024x1024_1_0 : S1024x1024.Transposes [1, 0] S1024x1024
  shapeCasts_S8x1024x1024_S8192x1024 : S8x1024x1024.ShapeCasts S8192x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S8x1024x1024 : S8192x1024.ShapeCasts S8x1024x1024
  shapeCasts_S8x1024x1024_S128x1024x64 : S8x1024x1024.ShapeCasts S128x1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S128x1024x64_S8x1024x1024 : S128x1024x64.ShapeCasts S8x1024x1024
  reduces_S512x1024_S512 : S512x1024.Reduces [1] S512
  shapeCasts_S512_S512x1 : S512.ShapeCasts S512x1
  broadcasts_S512x1_S512x1024 : S512x1.Broadcasts S512x1024
  dot_S512x1024_S1024x1024_S512x1024_1_0_0_1_n_n_wf : DotDims.WF S512x1024 S1024x1024 S512x1024 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .bf16 = 32 ∨ (Rect.block (s := S8192x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .bf16 = 32 ∨ (Rect.block (s := S8192x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x64.size a ≤ S128x1024x64.size a
  hwx3_0 : ∀ i : grid3.Coords, EltTy.bits .bf16 = 32 ∨ (Rect.block (s := S128x1024x64) S1x1024x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1024x64.size a ≤ S128x1024x64.size a
  hwx3_1 : ∀ i : grid3.Coords, EltTy.bits .bf16 = 32 ∨ (Rect.block (s := S128x1024x64) S1x1024x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x64.size a ≤ S128x1024x64.size a
  hwx3_2 : ∀ i : grid3.Coords, EltTy.bits .bf16 = 32 ∨ (Rect.block (s := S128x1024x64) S1x1024x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x64.size a ≤ S128x1024x64.size a
  hwx3_3 : ∀ i : grid3.Coords, EltTy.bits .bf16 = 32 ∨ (Rect.block (s := S128x1024x64) S1x1024x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024x1024.size a ≤ S128x1024x1024.size a
  hwx3_4 : ∀ i : grid3.Coords, EltTy.bits .f32 = 32 ∨ (Rect.block (s := S128x1024x1024) S1x1024x1024.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x1024.size a
  hwx4_0 : ∀ i : grid4.Coords, EltTy.bits .bf16 = 32 ∨ (Rect.block (s := S8192x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x1024.size a
  hwx4_3 : ∀ i : grid4.Coords, EltTy.bits .f32 = 32 ∨ (Rect.block (s := S8192x1024) S512x1024.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x1024.size a
  hwx4_4 : ∀ i : grid4.Coords, EltTy.bits .f32 = 32 ∨ (Rect.block (s := S1x1024) S1x1024.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1024.size a ≤ S1x1024.size a
  hwx4_5 : ∀ i : grid4.Coords, EltTy.bits .f32 = 32 ∨ (Rect.block (s := S1x1024) S1x1024.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S512x1024.size a ≤ S8192x1024.size a
  hwx4_6 : ∀ i : grid4.Coords, EltTy.bits .f32 = 32 ∨ (Rect.block (s := S8192x1024) S512x1024.size (cc4_transform_6 i) (hinb4_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v22) S1x1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S1x1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x1024x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v25_0) S1x1024x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v25_1) S1x1024x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v27) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v29) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v30) S512x1024.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v31) S1x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v32) S1x1024.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v33) S512x1024.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S8x1024x1024 : Shape := ⟨3, ![8, 1024, 1024]⟩
abbrev S1024x1024 : Shape := ⟨2, ![1024, 1024]⟩
abbrev S1024 : Shape := ⟨1, ![1024]⟩
abbrev S1x1x1024 : Shape := ⟨3, ![1, 1, 1024]⟩
abbrev S128x1024x64 : Shape := ⟨3, ![128, 1024, 64]⟩
abbrev S128x1024x1024 : Shape := ⟨3, ![128, 1024, 1024]⟩
abbrev S_ : Shape := ⟨0, ![]⟩
abbrev S128x1024 : Shape := ⟨2, ![128, 1024]⟩
abbrev S128x1024x1 : Shape := ⟨3, ![128, 1024, 1]⟩
abbrev S8x1024 : Shape := ⟨2, ![8, 1024]⟩
abbrev S8x1024x1 : Shape := ⟨3, ![8, 1024, 1]⟩

abbrev nBuf : Space → Nat
  | .hbm => 82
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S8x1024x1024, .f32⟩
  | .hbm, ⟨14, _⟩ => ⟨S1x1x1024, .f32⟩
  | .hbm, ⟨15, _⟩ => ⟨S8x1024x1024, .f32⟩
  | .hbm, ⟨16, _⟩ => ⟨S8x1024x1024, .f32⟩
  | .hbm, ⟨17, _⟩ => ⟨S8x1024x1024, .f32⟩
  | .hbm, ⟨18, _⟩ => ⟨S1x1x1024, .f32⟩
  | .hbm, ⟨19, _⟩ => ⟨S8x1024x1024, .f32⟩
  | .hbm, ⟨20, _⟩ => ⟨S8x1024x1024, .f32⟩
  | .hbm, ⟨21, _⟩ => ⟨S8x1024x1024, .f32⟩
  | .hbm, ⟨22, _⟩ => ⟨S1x1x1024, .f32⟩
  | .hbm, ⟨23, _⟩ => ⟨S8x1024x1024, .f32⟩
  | .hbm, ⟨24, _⟩ => ⟨S8x1024x1024, .f32⟩
  | .hbm, ⟨25, _⟩ => ⟨S128x1024x64, .f32⟩
  | .hbm, ⟨26, _⟩ => ⟨S128x1024x64, .f32⟩
  | .hbm, ⟨27, _⟩ => ⟨S128x1024x64, .f32⟩
  | .hbm, ⟨28, _⟩ => ⟨S128x1024x1024, .f32⟩
  | .hbm, ⟨29, _⟩ => ⟨S_, .f32⟩
  | .hbm, ⟨30, _⟩ => ⟨S128x1024x1024, .f32⟩
  | .hbm, ⟨31, _⟩ => ⟨S128x1024x1024, .f32⟩
  | .hbm, ⟨32, _⟩ => ⟨S_, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024x1, .f32⟩
  | .hbm, ⟨38, _⟩ => ⟨S128x1024x1024, .f32⟩
  | .hbm, ⟨39, _⟩ => ⟨S128x1024x1024, .f32⟩
  | .hbm, ⟨40, _⟩ => ⟨S128x1024x1024, .f32⟩
  | .hbm, ⟨41, _⟩ => ⟨S_, .f32⟩
  | .hbm, ⟨42, _⟩ => ⟨S128x1024, .f32⟩
  | .hbm, ⟨43, _⟩ => ⟨S128x1024x1, .f32⟩
  | .hbm, ⟨44, _⟩ => ⟨S128x1024x1024, .f32⟩
  | .hbm, ⟨45, _⟩ => ⟨S128x1024x1024, .f32⟩
  | .hbm, ⟨46, _⟩ => ⟨S128x1024x64, .f32⟩
  | .hbm, ⟨47, _⟩ => ⟨S8x1024x1024, .f32⟩
  | .hbm, ⟨48, _⟩ => ⟨S8x1024x1024, .f32⟩
  | .hbm, ⟨49, _⟩ => ⟨S1x1x1024, .f32⟩
  | .hbm, ⟨50, _⟩ => ⟨S8x1024x1024, .f32⟩
  | .hbm, ⟨51, _⟩ => ⟨S8x1024x1024, .f32⟩
  | .hbm, ⟨52, _⟩ => ⟨S8x1024x1024, .f32⟩
  | .hbm, ⟨53, _⟩ => ⟨S_, .f32⟩
  | .hbm, ⟨54, _⟩ => ⟨S8x1024, .f32⟩
  | .hbm, ⟨55, _⟩ => ⟨S8x1024x1, .f32⟩
  | .hbm, ⟨56, _⟩ => ⟨S_, .f32⟩
  | .hbm, ⟨57, _⟩ => ⟨S8x1024x1, .f32⟩
  | .hbm, ⟨58, _⟩ => ⟨S8x1024x1, .f32⟩
  | .hbm, ⟨59, _⟩ => ⟨S8x1024x1024, .f32⟩
  | .hbm, ⟨60, _⟩ => ⟨S8x1024x1024, .f32⟩
  | .hbm, ⟨61, _⟩ => ⟨S8x1024x1024, .f32⟩
  | .hbm, ⟨62, _⟩ => ⟨S_, .f32⟩
  | .hbm, ⟨63, _⟩ => ⟨S8x1024, .f32⟩
  | .hbm, ⟨64, _⟩ => ⟨S8x1024x1, .f32⟩
  | .hbm, ⟨65, _⟩ => ⟨S_, .f32⟩
  | .hbm, ⟨66, _⟩ => ⟨S8x1024x1, .f32⟩
  | .hbm, ⟨67, _⟩ => ⟨S8x1024x1, .f32⟩
  | .hbm, ⟨68, _⟩ => ⟨S8x1024x1024, .f32⟩
  | .hbm, ⟨69, _⟩ => ⟨S8x1024x1024, .f32⟩
  | .hbm, ⟨70, _⟩ => ⟨S_, .f32⟩
  | .hbm, ⟨71, _⟩ => ⟨S8x1024x1, .f32⟩
  | .hbm, ⟨72, _⟩ => ⟨S8x1024x1, .f32⟩
  | .hbm, ⟨73, _⟩ => ⟨S8x1024x1, .f32⟩
  | .hbm, ⟨74, _⟩ => ⟨S8x1024x1024, .f32⟩
  | .hbm, ⟨75, _⟩ => ⟨S8x1024x1024, .f32⟩
  | .hbm, ⟨76, _⟩ => ⟨S1x1x1024, .f32⟩
  | .hbm, ⟨77, _⟩ => ⟨S8x1024x1024, .f32⟩
  | .hbm, ⟨78, _⟩ => ⟨S8x1024x1024, .f32⟩
  | .hbm, ⟨79, _⟩ => ⟨S1x1x1024, .f32⟩
  | .hbm, ⟨80, _⟩ => ⟨S8x1024x1024, .f32⟩
  | .hbm, ⟨81, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  shapeCasts_S8x1024x1024_S128x1024x64 : S8x1024x1024.ShapeCasts S128x1024x64
  bcast_S_S128x1024x1024 : S_.BroadcastsInDim S128x1024x1024 (![] : Fin 0 → Fin S128x1024x1024.rank)
  reducesTo_S128x1024x1024_S128x1024_d2 : S128x1024x1024.ReducesTo [2] S128x1024
  h_S_ : 0 < S_.numel
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024x1_S128x1024x1024_0_1_2 : S128x1024x1.BroadcastsInDim S128x1024x1024 (![0, 1, 2] : Fin 3 → Fin S128x1024x1024.rank)
  shapeCasts_S128x1024x64_S8x1024x1024 : S128x1024x64.ShapeCasts S8x1024x1024
  reducesTo_S8x1024x1024_S8x1024_d2 : S8x1024x1024.ReducesTo [2] S8x1024
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x1024_0_1_2 : S8x1024x1.BroadcastsInDim S8x1024x1024 (![0, 1, 2] : Fin 3 → Fin S8x1024x1024.rank)
  dot_S8x1024x1024_S1024x1024_S8x1024x1024_2_1_01_0_n_n_wf : DotDims.WF S8x1024x1024 S1024x1024 S8x1024x1024 [2] [1] [0, 1] [0] [] []
  dot_S128x1024x64_S128x1024x64_S128x1024x1024_2_2_1_1_0_0_wf : DotDims.WF S128x1024x64 S128x1024x64 S128x1024x1024 [2] [2] [1] [1] [0] [0]
  dot_S128x1024x1024_S128x1024x64_S128x1024x64_2_1_1_2_0_0_wf : DotDims.WF S128x1024x1024 S128x1024x64 S128x1024x64 [2] [1] [1] [2] [0] [0]

variable [Facts₀]

def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf
def dot_S128x1024x64_S128x1024x64_S128x1024x1024_2_2_1_1_0_0 : DotDims S128x1024x64 S128x1024x64 S128x1024x1024 where
  lhsContracting := [2]
  rhsContracting := [2]
  lhsNonContracting := [1]
  rhsNonContracting := [1]
  lhsBatch := [0]
  rhsBatch := [0]
  wf := dot_S128x1024x64_S128x1024x64_S128x1024x1024_2_2_1_1_0_0_wf
def dot_S128x1024x1024_S128x1024x64_S128x1024x64_2_1_1_2_0_0 : DotDims S128x1024x1024 S128x1024x64 S128x1024x64 where
  lhsContracting := [2]
  rhsContracting := [1]
  lhsNonContracting := [1]
  rhsNonContracting := [2]
  lhsBatch := [0]
  rhsBatch := [0]
  wf := dot_S128x1024x1024_S128x1024x64_S128x1024x64_2_1_1_2_0_0_wf

class Facts : Prop extends Facts₀ where

variable [Facts]
-- ==== Proof.Spec.lean ====
/-
  The mathematics both programs compute, written once over extended reals.

  A linear layer sends a row x to x·w + b.  One attention head with queries q, keys k and values v
  (each 1024 positions of 64 features) scores position s against position t by half the inner
  product of q(s) and k(t), turns each row of scores into weights by the softmax (subtract the
  row's maximum, exponentiate, divide by the row's sum) and returns the weighted sums of the rows
  of v.  The output layer adds a residual row to a linear image of the context row and normalises
  the sum: subtract its mean, multiply by the reciprocal square root of its variance plus a small
  constant, scale by gamma and shift by beta.

  Each is stated first for ONE row (or one head) given as functions of coordinates, then for the
  arrays the programs hold.  No program is imported here.
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Mha

/-! ## Shapes -/

/-- [batch, position, feature] -/
abbrev Tok : Shape := ⟨3, ![8, 1024, 1024]⟩
/-- the same tokens as 8192 rows of 1024 features -/
abbrev Rows : Shape := ⟨2, ![8192, 1024]⟩
abbrev Sq : Shape := ⟨2, ![1024, 1024]⟩
abbrev Feat : Shape := ⟨1, ![1024]⟩
abbrev Row1 : Shape := ⟨2, ![1, 1024]⟩
/-- [head, position, head feature] -/
abbrev Heads : Shape := ⟨3, ![128, 1024, 64]⟩
/-- [head, position, position] -/
abbrev Probs : Shape := ⟨3, ![128, 1024, 1024]⟩

/-! ## Constants, as the words both programs carry -/

def half : EReal := Ideal.ofBits .f32 0x3F000000#32
def ninf : EReal := Ideal.ofBits .f32 0xFF800000#32
def n1024 : EReal := Ideal.ofBits .f32 0x44800000#32
def eps : EReal := Ideal.ofBits .f32 0x3727C5AC#32

/-! ## One row, one head -/

/-- A linear layer on one row: (x·w)(o) + b(o). -/
def linF (x : Fin 1024 → EReal) (w : Fin 1024 → Fin 1024 → EReal) (b : Fin 1024 → EReal) (o : Fin 1024) : EReal :=
  (∑ k : Fin 1024, x k * w k o) + b o

/-- The score of position s against position t: half the inner product. -/
def scoreF (q k : Fin 1024 → Fin 64 → EReal) (s t : Fin 1024) : EReal :=
  (∑ d : Fin 64, q s d * k t d) * half

/-- The largest score in row s. -/
def rowMaxF (q k : Fin 1024 → Fin 64 → EReal) (s : Fin 1024) : EReal :=
  (Finset.univ : Finset (Fin 1024)).fold max ninf (fun t => scoreF q k s t)

def exF (q k : Fin 1024 → Fin 64 → EReal) (s t : Fin 1024) : EReal :=
  Ideal.exp (scoreF q k s t - rowMaxF q k s)

def denF (q k : Fin 1024 → Fin 64 → EReal) (s : Fin 1024) : EReal :=
  ∑ t : Fin 1024, exF q k s t

/-- The softmax weight of position t in row s. -/
def probF (q k : Fin 1024 → Fin 64 → EReal) (s t : Fin 1024) : EReal :=
  Ideal.div (exF q k s t) (denF q k s)

/-- The context: the weighted sum of the values. -/
def ctxF (q k v : Fin 1024 → Fin 64 → EReal) (s : Fin 1024) (d : Fin 64) : EReal :=
  ∑ t : Fin 1024, probF q k s t * v t d

/-- The row that is normalised: residual plus projection plus bias. -/
def preF (c : Fin 1024 → EReal) (w : Fin 1024 → Fin 1024 → EReal) (b res : Fin 1024 → EReal) (o : Fin 1024) : EReal :=
  (res o + ∑ k : Fin 1024, c k * w k o) + b o

def meanF (c : Fin 1024 → EReal) (w : Fin 1024 → Fin 1024 → EReal) (b res : Fin 1024 → EReal) : EReal :=
  Ideal.div (∑ o : Fin 1024, preF c w b res o) n1024

def varF (c : Fin 1024 → EReal) (w : Fin 1024 → Fin 1024 → EReal) (b res : Fin 1024 → EReal) : EReal :=
  Ideal.div (∑ o : Fin 1024, (preF c w b res o - meanF c w b res) * (preF c w b res o - meanF c w b res)) n1024

/-- Layer normalisation of that row, scaled and shifted. -/
def lnF (c : Fin 1024 → EReal) (w : Fin 1024 → Fin 1024 → EReal) (b res g β : Fin 1024 → EReal) (o : Fin 1024) : EReal :=
  ((preF c w b res o - meanF c w b res) * Ideal.rsqrt (varF c w b res + eps)) * g o + β o

/-! ## The arrays -/

/-- The linear layer on 8192 rows; the bias is a [1, 1024] row. -/
def linRows (x : Rows.Idx → EReal) (w : Sq.Idx → EReal) (b : Row1.Idx → EReal) : Rows.Idx → EReal :=
  fun i => linF (fun k => x (ix2 (i 0) k)) (fun k o => w (ix2 k o)) (fun o => b (ix2 (0 : Fin 1) o)) (i 1)

/-- The softmax weights of every head. -/
def prob (q k : Heads.Idx → EReal) : Probs.Idx → EReal :=
  fun i => probF (fun s d => q (ix3 (i 0) s d)) (fun t d => k (ix3 (i 0) t d)) (i 1) (i 2)

/-- The context of every head. -/
def ctx (q k v : Heads.Idx → EReal) : Heads.Idx → EReal :=
  fun i => ctxF (fun s d => q (ix3 (i 0) s d)) (fun t d => k (ix3 (i 0) t d)) (fun t d => v (ix3 (i 0) t d)) (i 1) (i 2)

/-- The output layer on 8192 rows. -/
def lnRows (c : Rows.Idx → EReal) (w : Sq.Idx → EReal) (b : Row1.Idx → EReal) (res : Rows.Idx → EReal)
    (g β : Row1.Idx → EReal) : Rows.Idx → EReal :=
  fun i => lnF (fun k => c (ix2 (i 0) k)) (fun k o => w (ix2 k o)) (fun o => b (ix2 (0 : Fin 1) o))
    (fun o => res (ix2 (i 0) o)) (fun o => g (ix2 (0 : Fin 1) o)) (fun o => β (ix2 (0 : Fin 1) o)) (i 1)

/-! ## The whole computation, from the thirteen arguments

Tokens are regrouped by keeping their row-major order: [8, 1024, 1024] as 8192 rows, and as 128
heads of 1024 positions of 64 features.  A weight matrix is used transposed; a bias, gamma and beta
are laid as one row. -/

theorem castTokRows : Tok.ShapeCasts Rows := by decide
theorem castRowsTok : Rows.ShapeCasts Tok := by decide
theorem castTokHeads : Tok.ShapeCasts Heads := by decide
theorem castHeadsTok : Heads.ShapeCasts Tok := by decide
theorem castFeatRow : Feat.ShapeCasts Row1 := by decide
theorem trSq : Sq.Transposes [1, 0] Sq := by decide

def toRows (x : Tok.Idx → EReal) : Rows.Idx → EReal := shapeCast Rows x castTokRows
def toRow (b : Feat.Idx → EReal) : Row1.Idx → EReal := shapeCast Row1 b castFeatRow
def tr (w : Sq.Idx → EReal) : Sq.Idx → EReal := transpose Sq [1, 0] w trSq
/-- 8192 rows regrouped as heads (through the token shape, as the program does it). -/
def rowsToHeads (y : Rows.Idx → EReal) : Heads.Idx → EReal := shapeCast Heads (shapeCast Tok y castRowsTok) castTokHeads
def headsToRows (y : Heads.Idx → EReal) : Rows.Idx → EReal := shapeCast Rows (shapeCast Tok y castHeadsTok) castTokRows

/-- Projected queries, keys or values of every head. -/
def headsOf (x : Tok.Idx → EReal) (w : Sq.Idx → EReal) (b : Feat.Idx → EReal) : Heads.Idx → EReal :=
  rowsToHeads (linRows (toRows x) (tr w) (toRow b))

/-- The attention weights (second result). -/
def attn (key query : Tok.Idx → EReal) (wq : Sq.Idx → EReal) (bq : Feat.Idx → EReal) (wk : Sq.Idx → EReal) (bk : Feat.Idx → EReal) :
    Probs.Idx → EReal :=
  prob (headsOf query wq bq) (headsOf key wk bk)

/-- The normalised output (first result). -/
def out (key value query : Tok.Idx → EReal) (wq : Sq.Idx → EReal) (bq : Feat.Idx → EReal) (wk : Sq.Idx → EReal) (bk : Feat.Idx → EReal)
    (wv : Sq.Idx → EReal) (bv : Feat.Idx → EReal) (wo : Sq.Idx → EReal) (bo g β : Feat.Idx → EReal) : Tok.Idx → EReal :=
  shapeCast Tok
    (lnRows (headsToRows (ctx (headsOf query wq bq) (headsOf key wk bk) (headsOf value wv bv)))
      (tr wo) (toRow bo) (toRows query) (toRow g) (toRow β))
    castRowsTok

end Mha

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.PayLinear.lean ====
/-
  The linear-layer block read at an index.  The block takes 512 rows x of 1024 features, a 1024 × 1024
  matrix w and a bias row b, and holds x·w + b (the change of float format at the end is the identity on
  extended reals).  Read at (p, o) it is the row-level linear layer of row p at feature o.
-/
import Idealize.ShloMosaic.Lib.ValueLayout
import proofs.«171156_j2327872274493_1_alg».proof.Proof.Spec
import proofs.«171156_j2327872274493_1_alg».proof.Proof.Gen.KernelIdeal.Skeleton
import proofs.«171156_j2327872274493_1_alg».proof.Proof.LibDotRows

noncomputable section

open scoped BigOperators
open Cert.KernelIdeal Cert.KernelIdeal.Gen Idealize.ShloMosaic Idealize.ShloMosaic.ValueIdx

namespace Mha.Pay

/-- The plain product of the block's rows with the matrix, at (p, o): the sum over k of x(p,k)·w(k,o). -/
theorem matmul_lin (a : FVec Ideal S512x1024 .bf16) (w : FVec Ideal S1024x1024 .bf16) (p : Fin 512) (o : Fin 1024) :
    matmul dot_S512x1024_S1024x1024_S512x1024_1_0_0_1_n_n none a w (constant S512x1024 .f32 0x00000000#32) (ix2 p o)
      = ∑ k : Fin 1024, a (ix2 p k) * w (ix2 k o) :=
  matmul_zero_rows (R := 512) (K := 1024) (J := 1024) dot_S512x1024_S1024x1024_S512x1024_1_0_0_1_n_n none rfl rfl
    (fun _ _ => rfl) (fun _ _ => rfl) (fun _ _ => rfl) (fun _ _ => rfl) a w p o

/-- The linear-layer body over blocks, read at (p, o). -/
theorem linBody (x0 : FVec Ideal S512x1024 .bf16) (x1 : FVec Ideal S1024x1024 .bf16) (x2 : FVec Ideal S1x1024 .f32)
    (p : Fin 512) (o : Fin 1024) :
    k0_pay1 (F := Ideal) x0 x1 x2 (ix2 p o)
      = Mha.linF (fun k => x0 (ix2 p k)) (fun k o' => x1 (ix2 k o')) (fun o' => x2 (ix2 (0 : Fin 1) o')) o := by
  unfold k0_pay1 Mha.linF
  rw [shapeCast_self, shapeCast_self, shapeCast_self]
  refine congrArg₂ (· + ·) (matmul_lin x0 x1 p o) ?_
  exact broadcastTo_1b_ab_apply x2 _ p o

theorem lin0 (x0 : Vec Ideal S512x1024 .bf16) (x1 : Vec Ideal S1024x1024 .bf16) (x2 : Vec Ideal S1x1024 .f32)
    (p : Fin 512) (o : Fin 1024) :
    k0_pay1 (F := Ideal) x0 x1 x2 (ix2 p o)
      = Mha.linF (fun k => x0 (ix2 p k)) (fun k o' => x1 (ix2 k o')) (fun o' => x2 (ix2 (0 : Fin 1) o')) o :=
  linBody x0 x1 x2 p o

theorem lin1 (x0 : Vec Ideal S512x1024 .bf16) (x1 : Vec Ideal S1024x1024 .bf16) (x2 : Vec Ideal S1x1024 .f32)
    (p : Fin 512) (o : Fin 1024) :
    k1_pay1 (F := Ideal) x0 x1 x2 (ix2 p o)
      = Mha.linF (fun k => x0 (ix2 p k)) (fun k o' => x1 (ix2 k o')) (fun o' => x2 (ix2 (0 : Fin 1) o')) o :=
  linBody x0 x1 x2 p o

theorem lin2 (x0 : Vec Ideal S512x1024 .bf16) (x1 : Vec Ideal S1024x1024 .bf16) (x2 : Vec Ideal S1x1024 .f32)
    (p : Fin 512) (o : Fin 1024) :
    k2_pay1 (F := Ideal) x0 x1 x2 (ix2 p o)
      = Mha.linF (fun k => x0 (ix2 p k)) (fun k o' => x1 (ix2 k o')) (fun o' => x2 (ix2 (0 : Fin 1) o')) o :=
  linBody x0 x1 x2 p o

end Mha.Pay

end
-- ==== Proof.RegionLin0.lean ====
/-
  Linear layer number 0 of the kernel (the queries) as one array.

  The region runs 16 grid points; point t reads rows t·512 … t·512+511 of the input, the whole weight matrix and
  the whole bias row, and writes rows t·512 … of the result.  Each written block is the block of ONE function of
  the arrays the region finds — a row of the input times the weight plus the bias — and the 16 blocks tile the
  8192 rows, so the result array is that function.
-/
import proofs.«171156_j2327872274493_1_alg».proof.Proof.Gen.KernelIdeal.Frame
import proofs.«171156_j2327872274493_1_alg».proof.Proof.Spec
import proofs.«171156_j2327872274493_1_alg».proof.Proof.PayLinear
import Idealize.ShloMosaic.Lib.Pipeline.Value

set_option maxRecDepth 16384

noncomputable section

open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Whole

variable (V : (c : Dev nD) → (b : Ref sig .tc) → Buf (Elt Ideal) ((c : Thread nD τ).loc b))

theorem zero2_r0 : (![0, 0] : Fin 2 → Nat) = fun _ => 0 := funext fun a => by fin_cases a <;> rfl

/-- Where each window of this linear layer sits at grid point t: the input rows and the output rows are block t
    of 512 rows; the weight and the bias are whole. -/
theorem lin0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block of 512 rows of the layer's result, from blocks that are rows tv·512 … of the input, the whole weight and
    the whole bias. -/
theorem lin0_block (x0 : Vec Ideal S512x1024 .bf16) (x1 : Vec Ideal S1024x1024 .bf16) (x2 : Vec Ideal S1x1024 .f32)
    (A0 : Mha.Rows.Idx → EReal) (A1 : Mha.Sq.Idx → EReal) (A2 : Mha.Row1.Idx → EReal)
    (r : Fin 512 → Fin 8192)
    (h0 : ∀ (p : Fin 512) (k : Fin 1024), x0 (ix2 p k) = A0 (ix2 (r p) k))
    (h1 : ∀ (k o : Fin 1024), x1 (ix2 k o) = A1 (ix2 k o))
    (h2 : ∀ (o : Fin 1024), x2 (ix2 (0 : Fin 1) o) = A2 (ix2 (0 : Fin 1) o)) (p : Fin 512) (o : Fin 1024) :
    k0_pay1 (F := Ideal) x0 x1 x2 (ix2 p o) = Mha.linRows A0 A1 A2 (ix2 (r p) o) := by
  rw [Mha.Pay.lin0]
  show _ = Mha.linF (fun k => A0 (ix2 (r p) k)) (fun k o' => A1 (ix2 k o')) (fun o' => A2 (ix2 (0 : Fin 1) o')) o
  simp only [h0, h1, h2]

theorem lin0_flushed (c : Dev nD) (t : Fin cfg0.N) :
    (dat0 V c).flushed 3 t = ((cfg0.win 3).blk t).view.read (Elt Ideal)
      (Mha.linRows (V c main_v5) (V c main_v6) (V c main_v7)) := by
  show (cfg0.win 3).cut (grid0.coords t) ((dat0 V c).after 3 t) = _
  rw [after0_3]
  unfold out0_3
  rw [View.canon_unit_zero zero2_r0]
  simp only [View.ld_unit_zero (S := S512x1024) zero2_r0, View.ld_unit_zero (S := S1024x1024) zero2_r0, View.ld_unit_zero (S := S1x1024) zero2_r0]
  obtain ⟨e0, e1, e2, e3, e4, e5, e6, e7⟩ := lin0_index t
  have ht : t.val < 16 := t.isLt
  refine funext fun (j : S512x1024.Idx) => ?_
  obtain ⟨p, o, rfl⟩ : ∃ (p : Fin 512) (o : Fin 1024), j = ix2 p o := ⟨j 0, j 1, eq_ix2 j⟩
  show k0_pay1 (F := Ideal) (iblk0 V c 0 t) (iblk0 V c 1 t) (iblk0 V c 2 t) (ix2 p o)
    = Mha.linRows (V c main_v5) (V c main_v6) (V c main_v7) (((cfg0.win 3).blk t).view.emb (ix2 p o))
  have hemb : ((cfg0.win 3).blk t).view.emb (ix2 p o) = ix2 (⟨t.val * 512 + p.val, by omega⟩ : Fin 8192) o := by
    funext a; apply Fin.ext
    match a with
    | ⟨0, _⟩ => show win0_3.index t (0 : Fin 2) * 512 + 1 * p.val = t.val * 512 + p.val; omega
    | ⟨1, _⟩ => show win0_3.index t (1 : Fin 2) * 1024 + 1 * o.val = o.val; omega
  rw [hemb]
  refine lin0_block (iblk0 V c 0 t) (iblk0 V c 1 t) (iblk0 V c 2 t) (V c main_v5) (V c main_v6) (V c main_v7)
    (fun p => (⟨t.val * 512 + p.val, by omega⟩ : Fin 8192)) (fun p k => ?_) (fun k o => ?_) (fun o => ?_) p o
  · show V c main_v5 (((cfg0.win 0).blk t).view.emb (ix2 p k)) = _
    refine congrArg (V c main_v5) ?_
    funext a; apply Fin.ext
    match a with
    | ⟨0, _⟩ => show win0_0.index t (0 : Fin 2) * 512 + 1 * p.val = t.val * 512 + p.val; omega
    | ⟨1, _⟩ => show win0_0.index t (1 : Fin 2) * 1024 + 1 * k.val = k.val; omega
  · show V c main_v6 (((cfg0.win 1).blk t).view.emb (ix2 k o)) = _
    refine congrArg (V c main_v6) ?_
    funext a; apply Fin.ext
    match a with
    | ⟨0, _⟩ => show win0_1.index t (0 : Fin 2) * 1024 + 1 * k.val = k.val; omega
    | ⟨1, _⟩ => show win0_1.index t (1 : Fin 2) * 1024 + 1 * o.val = o.val; omega
  · show V c main_v7 (((cfg0.win 2).blk t).view.emb (ix2 (0 : Fin 1) o)) = _
    refine congrArg (V c main_v7) ?_
    funext a; apply Fin.ext
    match a with
    | ⟨0, _⟩ => show win0_2.index t (0 : Fin 2) * 1 + 1 * 0 = 0; omega
    | ⟨1, _⟩ => show win0_2.index t (1 : Fin 2) * 1024 + 1 * o.val = o.val; omega

/-- An index of the result array is in point t's block iff each coordinate is in the block's range on its axis. -/
theorem lin0_mem (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v8).slice (win0_3.rect t)).set ↔ _
  rw [View.set_slice_whole, Rect.mem_set_unit]
  exact Iff.rfl

/-- Every row of the result is in the block of the grid point that owns it: row r in block r / 512. -/
theorem lin0_cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hq : (i 0).val / 512 < 16 := by omega
  refine ⟨⟨(i 0).val / 512, hq⟩, flush0_3 _, ?_⟩
  rw [lin0_mem]
  obtain ⟨e0, e1, e2, e3, e4, e5, e6, e7⟩ := lin0_index ⟨(i 0).val / 512, hq⟩
  intro a
  match a with
  | ⟨0, _⟩ =>
    show win0_3.index _ (0 : Fin 2) * 512 ≤ (i 0).val ∧ (i 0).val < win0_3.index _ (0 : Fin 2) * 512 + 512
    rw [e6]; show (i 0).val / 512 * 512 ≤ (i 0).val ∧ (i 0).val < (i 0).val / 512 * 512 + 512; omega
  | ⟨1, _⟩ =>
    show win0_3.index _ (1 : Fin 2) * 1024 ≤ (i 1).val ∧ (i 1).val < win0_3.index _ (1 : Fin 2) * 1024 + 1024
    rw [e7]; omega

/-- The layer's result array. -/
theorem lin0_final (c : Dev nD) :
    (dat0 V c).arrAt 3 cfg0.N = Mha.linRows (V c main_v5) (V c main_v6) (V c main_v7) :=
  (dat0 V c).arrAt_eq_of_cover 3 _ (fun t _ => lin0_flushed V c t) lin0_cover

end Cert.KernelIdeal.Whole

end
-- ==== Proof.RegionLin1.lean ====
/-
  Linear layer number 1 of the kernel (the keys) as one array.

  The region runs 16 grid points; point t reads rows t·512 … t·512+511 of the input, the whole weight matrix and
  the whole bias row, and writes rows t·512 … of the result.  Each written block is the block of ONE function of
  the arrays the region finds — a row of the input times the weight plus the bias — and the 16 blocks tile the
  8192 rows, so the result array is that function.
-/
import proofs.«171156_j2327872274493_1_alg».proof.Proof.Gen.KernelIdeal.Frame
import proofs.«171156_j2327872274493_1_alg».proof.Proof.Spec
import proofs.«171156_j2327872274493_1_alg».proof.Proof.PayLinear
import Idealize.ShloMosaic.Lib.Pipeline.Value

set_option maxRecDepth 16384

noncomputable section

open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Whole

variable (V : (c : Dev nD) → (b : Ref sig .tc) → Buf (Elt Ideal) ((c : Thread nD τ).loc b))

theorem zero2_r1 : (![0, 0] : Fin 2 → Nat) = fun _ => 0 := funext fun a => by fin_cases a <;> rfl

/-- Where each window of this linear layer sits at grid point t: the input rows and the output rows are block t
    of 512 rows; the weight and the bias are whole. -/
theorem lin1_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A block of 512 rows of the layer's result, from blocks that are rows tv·512 … of the input, the whole weight and
    the whole bias. -/
theorem lin1_block (x0 : Vec Ideal S512x1024 .bf16) (x1 : Vec Ideal S1024x1024 .bf16) (x2 : Vec Ideal S1x1024 .f32)
    (A0 : Mha.Rows.Idx → EReal) (A1 : Mha.Sq.Idx → EReal) (A2 : Mha.Row1.Idx → EReal)
    (r : Fin 512 → Fin 8192)
    (h0 : ∀ (p : Fin 512) (k : Fin 1024), x0 (ix2 p k) = A0 (ix2 (r p) k))
    (h1 : ∀ (k o : Fin 1024), x1 (ix2 k o) = A1 (ix2 k o))
    (h2 : ∀ (o : Fin 1024), x2 (ix2 (0 : Fin 1) o) = A2 (ix2 (0 : Fin 1) o)) (p : Fin 512) (o : Fin 1024) :
    k1_pay1 (F := Ideal) x0 x1 x2 (ix2 p o) = Mha.linRows A0 A1 A2 (ix2 (r p) o) := by
  rw [Mha.Pay.lin1]
  show _ = Mha.linF (fun k => A0 (ix2 (r p) k)) (fun k o' => A1 (ix2 k o')) (fun o' => A2 (ix2 (0 : Fin 1) o')) o
  simp only [h0, h1, h2]

theorem lin1_flushed (c : Dev nD) (t : Fin cfg1.N) :
    (dat1 V c).flushed 3 t = ((cfg1.win 3).blk t).view.read (Elt Ideal)
      (Mha.linRows (V c main_v11) (V c main_v12) (V c main_v13)) := by
  show (cfg1.win 3).cut (grid1.coords t) ((dat1 V c).after 3 t) = _
  rw [after1_3]
  unfold out1_3
  rw [View.canon_unit_zero zero2_r1]
  simp only [View.ld_unit_zero (S := S512x1024) zero2_r1, View.ld_unit_zero (S := S1024x1024) zero2_r1, View.ld_unit_zero (S := S1x1024) zero2_r1]
  obtain ⟨e0, e1, e2, e3, e4, e5, e6, e7⟩ := lin1_index t
  have ht : t.val < 16 := t.isLt
  refine funext fun (j : S512x1024.Idx) => ?_
  obtain ⟨p, o, rfl⟩ : ∃ (p : Fin 512) (o : Fin 1024), j = ix2 p o := ⟨j 0, j 1, eq_ix2 j⟩
  show k1_pay1 (F := Ideal) (iblk1 V c 0 t) (iblk1 V c 1 t) (iblk1 V c 2 t) (ix2 p o)
    = Mha.linRows (V c main_v11) (V c main_v12) (V c main_v13) (((cfg1.win 3).blk t).view.emb (ix2 p o))
  have hemb : ((cfg1.win 3).blk t).view.emb (ix2 p o) = ix2 (⟨t.val * 512 + p.val, by omega⟩ : Fin 8192) o := by
    funext a; apply Fin.ext
    match a with
    | ⟨0, _⟩ => show win1_3.index t (0 : Fin 2) * 512 + 1 * p.val = t.val * 512 + p.val; omega
    | ⟨1, _⟩ => show win1_3.index t (1 : Fin 2) * 1024 + 1 * o.val = o.val; omega
  rw [hemb]
  refine lin1_block (iblk1 V c 0 t) (iblk1 V c 1 t) (iblk1 V c 2 t) (V c main_v11) (V c main_v12) (V c main_v13)
    (fun p => (⟨t.val * 512 + p.val, by omega⟩ : Fin 8192)) (fun p k => ?_) (fun k o => ?_) (fun o => ?_) p o
  · show V c main_v11 (((cfg1.win 0).blk t).view.emb (ix2 p k)) = _
    refine congrArg (V c main_v11) ?_
    funext a; apply Fin.ext
    match a with
    | ⟨0, _⟩ => show win1_0.index t (0 : Fin 2) * 512 + 1 * p.val = t.val * 512 + p.val; omega
    | ⟨1, _⟩ => show win1_0.index t (1 : Fin 2) * 1024 + 1 * k.val = k.val; omega
  · show V c main_v12 (((cfg1.win 1).blk t).view.emb (ix2 k o)) = _
    refine congrArg (V c main_v12) ?_
    funext a; apply Fin.ext
    match a with
    | ⟨0, _⟩ => show win1_1.index t (0 : Fin 2) * 1024 + 1 * k.val = k.val; omega
    | ⟨1, _⟩ => show win1_1.index t (1 : Fin 2) * 1024 + 1 * o.val = o.val; omega
  · show V c main_v13 (((cfg1.win 2).blk t).view.emb (ix2 (0 : Fin 1) o)) = _
    refine congrArg (V c main_v13) ?_
    funext a; apply Fin.ext
    match a with
    | ⟨0, _⟩ => show win1_2.index t (0 : Fin 2) * 1 + 1 * 0 = 0; omega
    | ⟨1, _⟩ => show win1_2.index t (1 : Fin 2) * 1024 + 1 * o.val = o.val; omega

/-- An index of the result array is in point t's block iff each coordinate is in the block's range on its axis. -/
theorem lin1_mem (t : Fin cfg1.N) (i : S8192x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v14).slice (win1_3.rect t)).set ↔ _
  rw [View.set_slice_whole, Rect.mem_set_unit]
  exact Iff.rfl

/-- Every row of the result is in the block of the grid point that owns it: row r in block r / 512. -/
theorem lin1_cover (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hq : (i 0).val / 512 < 16 := by omega
  refine ⟨⟨(i 0).val / 512, hq⟩, flush1_3 _, ?_⟩
  rw [lin1_mem]
  obtain ⟨e0, e1, e2, e3, e4, e5, e6, e7⟩ := lin1_index ⟨(i 0).val / 512, hq⟩
  intro a
  match a with
  | ⟨0, _⟩ =>
    show win1_3.index _ (0 : Fin 2) * 512 ≤ (i 0).val ∧ (i 0).val < win1_3.index _ (0 : Fin 2) * 512 + 512
    rw [e6]; show (i 0).val / 512 * 512 ≤ (i 0).val ∧ (i 0).val < (i 0).val / 512 * 512 + 512; omega
  | ⟨1, _⟩ =>
    show win1_3.index _ (1 : Fin 2) * 1024 ≤ (i 1).val ∧ (i 1).val < win1_3.index _ (1 : Fin 2) * 1024 + 1024
    rw [e7]; omega

/-- The layer's result array. -/
theorem lin1_final (c : Dev nD) :
    (dat1 V c).arrAt 3 cfg1.N = Mha.linRows (V c main_v11) (V c main_v12) (V c main_v13) :=
  (dat1 V c).arrAt_eq_of_cover 3 _ (fun t _ => lin1_flushed V c t) lin1_cover

end Cert.KernelIdeal.Whole

end
-- ==== Proof.WalkA.lean ====
/-
  The buffers of the idealized kernel at the first boundaries of its run, as functions of the arguments.

  The run's boundaries are numbered 0 (launch) to 11 (return); an odd boundary follows a stretch of host operations, an even
  one a pipelined region.  A host operation's result is its function of its operands' contents at the boundary before
  (a transpose, a regrouping of the tokens that keeps their row-major order, a change of float format, which is the identity
  on extended reals); a region's result array is the closed form of its region; every other buffer keeps its contents.
  This module covers boundaries 0 to 4: the launch, the query layer's operands and result, the key layer's operands and result.
-/
import proofs.«171156_j2327872274493_1_alg».proof.Proof.Gen.KernelIdeal.Frame
import proofs.«171156_j2327872274493_1_alg».proof.Proof.Spec
import proofs.«171156_j2327872274493_1_alg».proof.Proof.RegionLin0
import proofs.«171156_j2327872274493_1_alg».proof.Proof.RegionLin1
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem at0_arg2 : W0 m ρ c (Proc.devRef .tc main_arg2) = (m ((c : Thread nD τ).loc main_arg2)) := rfl

theorem at1_v5 : W1 m ρ c (Proc.devRef .tc main_v5) = (Mha.toRows (m ((c : Thread nD τ).loc main_arg2))) := by
  show StableHlo.after hostOps0 (W0 m ρ c) (Proc.devRef .tc main_v5) = _
  after_results
  rw [at0_arg2 m ρ c]
  rfl

theorem at0_arg3 : W0 m ρ c (Proc.devRef .tc main_arg3) = (m ((c : Thread nD τ).loc main_arg3)) := rfl

theorem at1_v6 : W1 m ρ c (Proc.devRef .tc main_v6) = (Mha.tr (m ((c : Thread nD τ).loc main_arg3))) := by
  show StableHlo.after hostOps0 (W0 m ρ c) (Proc.devRef .tc main_v6) = _
  after_results
  rw [at0_arg3 m ρ c]
  rfl

theorem at0_arg4 : W0 m ρ c (Proc.devRef .tc main_arg4) = (m ((c : Thread nD τ).loc main_arg4)) := rfl

theorem at1_v7 : W1 m ρ c (Proc.devRef .tc main_v7) = (Mha.toRow (m ((c : Thread nD τ).loc main_arg4))) := by
  show StableHlo.after hostOps0 (W0 m ρ c) (Proc.devRef .tc main_v7) = _
  after_results
  rw [at0_arg4 m ρ c]
  rfl

theorem at2_v8 : W2 m ρ c (Proc.devRef .tc main_v8) = (Mha.linRows (Mha.toRows (m ((c : Thread nD τ).loc main_arg2))) (Mha.tr (m ((c : Thread nD τ).loc main_arg3))) (Mha.toRow (m ((c : Thread nD τ).loc main_arg4)))) := by
  refine (W2_arr m ρ c 3).trans ((lin0_final (V1 m ρ) c).trans ?_)
  show Mha.linRows (W1 m ρ c (Proc.devRef .tc main_v5)) (W1 m ρ c (Proc.devRef .tc main_v6)) (W1 m ρ c (Proc.devRef .tc main_v7)) = _
  rw [at1_v5 m ρ c, at1_v6 m ρ c, at1_v7 m ρ c]

theorem at3_v9 : W3 m ρ c (Proc.devRef .tc main_v9) = (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) := by
  show StableHlo.after hostOps1 (W2 m ρ c) (Proc.devRef .tc main_v9) = _
  after_results
  rw [at2_v8 m ρ c]
  rfl

theorem at4_v9 : W4 m ρ c (Proc.devRef .tc main_v9) = (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) := (W4_of_ne m ρ c main_v9 (by decide)).trans (at3_v9 m ρ c)

theorem at0_arg0 : W0 m ρ c (Proc.devRef .tc main_arg0) = (m ((c : Thread nD τ).loc main_arg0)) := rfl

theorem at1_arg0 : W1 m ρ c (Proc.devRef .tc main_arg0) = (m ((c : Thread nD τ).loc main_arg0)) := by
  show StableHlo.after hostOps0 (W0 m ρ c) (Proc.devRef .tc main_arg0) = _
  after_results
  all_goals exact at0_arg0 m ρ c

theorem at2_arg0 : W2 m ρ c (Proc.devRef .tc main_arg0) = (m ((c : Thread nD τ).loc main_arg0)) := (W2_of_ne m ρ c main_arg0 (by decide)).trans (at1_arg0 m ρ c)

theorem at3_v11 : W3 m ρ c (Proc.devRef .tc main_v11) = (Mha.toRows (m ((c : Thread nD τ).loc main_arg0))) := by
  show StableHlo.after hostOps1 (W2 m ρ c) (Proc.devRef .tc main_v11) = _
  after_results
  rw [at2_arg0 m ρ c]
  rfl

theorem at0_arg5 : W0 m ρ c (Proc.devRef .tc main_arg5) = (m ((c : Thread nD τ).loc main_arg5)) := rfl

theorem at1_v1 : W1 m ρ c (Proc.devRef .tc main_v1) = (Mha.tr (m ((c : Thread nD τ).loc main_arg5))) := by
  show StableHlo.after hostOps0 (W0 m ρ c) (Proc.devRef .tc main_v1) = _
  after_results
  rw [at0_arg5 m ρ c]
  rfl

theorem at2_v1 : W2 m ρ c (Proc.devRef .tc main_v1) = (Mha.tr (m ((c : Thread nD τ).loc main_arg5))) := (W2_of_ne m ρ c main_v1 (by decide)).trans (at1_v1 m ρ c)

theorem at3_v12 : W3 m ρ c (Proc.devRef .tc main_v12) = (Mha.tr (m ((c : Thread nD τ).loc main_arg5))) := by
  show StableHlo.after hostOps1 (W2 m ρ c) (Proc.devRef .tc main_v12) = _
  after_results
  rw [at2_v1 m ρ c]
  rfl

theorem at0_arg6 : W0 m ρ c (Proc.devRef .tc main_arg6) = (m ((c : Thread nD τ).loc main_arg6)) := rfl

theorem at1_arg6 : W1 m ρ c (Proc.devRef .tc main_arg6) = (m ((c : Thread nD τ).loc main_arg6)) := by
  show StableHlo.after hostOps0 (W0 m ρ c) (Proc.devRef .tc main_arg6) = _
  after_results
  all_goals exact at0_arg6 m ρ c

theorem at2_arg6 : W2 m ρ c (Proc.devRef .tc main_arg6) = (m ((c : Thread nD τ).loc main_arg6)) := (W2_of_ne m ρ c main_arg6 (by decide)).trans (at1_arg6 m ρ c)

theorem at3_v13 : W3 m ρ c (Proc.devRef .tc main_v13) = (Mha.toRow (m ((c : Thread nD τ).loc main_arg6))) := by
  show StableHlo.after hostOps1 (W2 m ρ c) (Proc.devRef .tc main_v13) = _
  after_results
  rw [at2_arg6 m ρ c]
  rfl

theorem at4_v14 : W4 m ρ c (Proc.devRef .tc main_v14) = (Mha.linRows (Mha.toRows (m ((c : Thread nD τ).loc main_arg0))) (Mha.tr (m ((c : Thread nD τ).loc main_arg5))) (Mha.toRow (m ((c : Thread nD τ).loc main_arg6)))) := by
  refine (W4_arr m ρ c 3).trans ((lin1_final (V3 m ρ) c).trans ?_)
  show Mha.linRows (W3 m ρ c (Proc.devRef .tc main_v11)) (W3 m ρ c (Proc.devRef .tc main_v12)) (W3 m ρ c (Proc.devRef .tc main_v13)) = _
  rw [at3_v11 m ρ c, at3_v12 m ρ c, at3_v13 m ρ c]

theorem at0_arg1 : W0 m ρ c (Proc.devRef .tc main_arg1) = (m ((c : Thread nD τ).loc main_arg1)) := rfl

theorem at1_arg1 : W1 m ρ c (Proc.devRef .tc main_arg1) = (m ((c : Thread nD τ).loc main_arg1)) := by
  show StableHlo.after hostOps0 (W0 m ρ c) (Proc.devRef .tc main_arg1) = _
  after_results
  all_goals exact at0_arg1 m ρ c

theorem at2_arg1 : W2 m ρ c (Proc.devRef .tc main_arg1) = (m ((c : Thread nD τ).loc main_arg1)) := (W2_of_ne m ρ c main_arg1 (by decide)).trans (at1_arg1 m ρ c)

theorem at3_arg1 : W3 m ρ c (Proc.devRef .tc main_arg1) = (m ((c : Thread nD τ).loc main_arg1)) := by
  show StableHlo.after hostOps1 (W2 m ρ c) (Proc.devRef .tc main_arg1) = _
  after_results
  all_goals exact at2_arg1 m ρ c

theorem at4_arg1 : W4 m ρ c (Proc.devRef .tc main_arg1) = (m ((c : Thread nD τ).loc main_arg1)) := (W4_of_ne m ρ c main_arg1 (by decide)).trans (at3_arg1 m ρ c)

theorem at0_arg7 : W0 m ρ c (Proc.devRef .tc main_arg7) = (m ((c : Thread nD τ).loc main_arg7)) := rfl

theorem at1_v2 : W1 m ρ c (Proc.devRef .tc main_v2) = (Mha.tr (m ((c : Thread nD τ).loc main_arg7))) := by
  show StableHlo.after hostOps0 (W0 m ρ c) (Proc.devRef .tc main_v2) = _
  after_results
  rw [at0_arg7 m ρ c]
  rfl

theorem at2_v2 : W2 m ρ c (Proc.devRef .tc main_v2) = (Mha.tr (m ((c : Thread nD τ).loc main_arg7))) := (W2_of_ne m ρ c main_v2 (by decide)).trans (at1_v2 m ρ c)

theorem at3_v2 : W3 m ρ c (Proc.devRef .tc main_v2) = (Mha.tr (m ((c : Thread nD τ).loc main_arg7))) := by
  show StableHlo.after hostOps1 (W2 m ρ c) (Proc.devRef .tc main_v2) = _
  after_results
  all_goals exact at2_v2 m ρ c

theorem at4_v2 : W4 m ρ c (Proc.devRef .tc main_v2) = (Mha.tr (m ((c : Thread nD τ).loc main_arg7))) := (W4_of_ne m ρ c main_v2 (by decide)).trans (at3_v2 m ρ c)

theorem at0_arg8 : W0 m ρ c (Proc.devRef .tc main_arg8) = (m ((c : Thread nD τ).loc main_arg8)) := rfl

theorem at1_arg8 : W1 m ρ c (Proc.devRef .tc main_arg8) = (m ((c : Thread nD τ).loc main_arg8)) := by
  show StableHlo.after hostOps0 (W0 m ρ c) (Proc.devRef .tc main_arg8) = _
  after_results
  all_goals exact at0_arg8 m ρ c

theorem at2_arg8 : W2 m ρ c (Proc.devRef .tc main_arg8) = (m ((c : Thread nD τ).loc main_arg8)) := (W2_of_ne m ρ c main_arg8 (by decide)).trans (at1_arg8 m ρ c)

theorem at3_arg8 : W3 m ρ c (Proc.devRef .tc main_arg8) = (m ((c : Thread nD τ).loc main_arg8)) := by
  show StableHlo.after hostOps1 (W2 m ρ c) (Proc.devRef .tc main_arg8) = _
  after_results
  all_goals exact at2_arg8 m ρ c

theorem at4_arg8 : W4 m ρ c (Proc.devRef .tc main_arg8) = (m ((c : Thread nD τ).loc main_arg8)) := (W4_of_ne m ρ c main_arg8 (by decide)).trans (at3_arg8 m ρ c)

theorem at0_arg9 : W0 m ρ c (Proc.devRef .tc main_arg9) = (m ((c : Thread nD τ).loc main_arg9)) := rfl

theorem at1_v3 : W1 m ρ c (Proc.devRef .tc main_v3) = (Mha.tr (m ((c : Thread nD τ).loc main_arg9))) := by
  show StableHlo.after hostOps0 (W0 m ρ c) (Proc.devRef .tc main_v3) = _
  after_results
  rw [at0_arg9 m ρ c]
  rfl

theorem at2_v3 : W2 m ρ c (Proc.devRef .tc main_v3) = (Mha.tr (m ((c : Thread nD τ).loc main_arg9))) := (W2_of_ne m ρ c main_v3 (by decide)).trans (at1_v3 m ρ c)

theorem at3_v3 : W3 m ρ c (Proc.devRef .tc main_v3) = (Mha.tr (m ((c : Thread nD τ).loc main_arg9))) := by
  show StableHlo.after hostOps1 (W2 m ρ c) (Proc.devRef .tc main_v3) = _
  after_results
  all_goals exact at2_v3 m ρ c

theorem at4_v3 : W4 m ρ c (Proc.devRef .tc main_v3) = (Mha.tr (m ((c : Thread nD τ).loc main_arg9))) := (W4_of_ne m ρ c main_v3 (by decide)).trans (at3_v3 m ρ c)

theorem at0_arg10 : W0 m ρ c (Proc.devRef .tc main_arg10) = (m ((c : Thread nD τ).loc main_arg10)) := rfl

theorem at1_arg10 : W1 m ρ c (Proc.devRef .tc main_arg10) = (m ((c : Thread nD τ).loc main_arg10)) := by
  show StableHlo.after hostOps0 (W0 m ρ c) (Proc.devRef .tc main_arg10) = _
  after_results
  all_goals exact at0_arg10 m ρ c

theorem at2_arg10 : W2 m ρ c (Proc.devRef .tc main_arg10) = (m ((c : Thread nD τ).loc main_arg10)) := (W2_of_ne m ρ c main_arg10 (by decide)).trans (at1_arg10 m ρ c)

theorem at3_arg10 : W3 m ρ c (Proc.devRef .tc main_arg10) = (m ((c : Thread nD τ).loc main_arg10)) := by
  show StableHlo.after hostOps1 (W2 m ρ c) (Proc.devRef .tc main_arg10) = _
  after_results
  all_goals exact at2_arg10 m ρ c

theorem at4_arg10 : W4 m ρ c (Proc.devRef .tc main_arg10) = (m ((c : Thread nD τ).loc main_arg10)) := (W4_of_ne m ρ c main_arg10 (by decide)).trans (at3_arg10 m ρ c)

theorem at1_arg2 : W1 m ρ c (Proc.devRef .tc main_arg2) = (m ((c : Thread nD τ).loc main_arg2)) := by
  show StableHlo.after hostOps0 (W0 m ρ c) (Proc.devRef .tc main_arg2) = _
  after_results
  all_goals exact at0_arg2 m ρ c

theorem at2_arg2 : W2 m ρ c (Proc.devRef .tc main_arg2) = (m ((c : Thread nD τ).loc main_arg2)) := (W2_of_ne m ρ c main_arg2 (by decide)).trans (at1_arg2 m ρ c)

theorem at3_arg2 : W3 m ρ c (Proc.devRef .tc main_arg2) = (m ((c : Thread nD τ).loc main_arg2)) := by
  show StableHlo.after hostOps1 (W2 m ρ c) (Proc.devRef .tc main_arg2) = _
  after_results
  all_goals exact at2_arg2 m ρ c

theorem at4_arg2 : W4 m ρ c (Proc.devRef .tc main_arg2) = (m ((c : Thread nD τ).loc main_arg2)) := (W4_of_ne m ρ c main_arg2 (by decide)).trans (at3_arg2 m ρ c)

theorem at0_arg11 : W0 m ρ c (Proc.devRef .tc main_arg11) = (m ((c : Thread nD τ).loc main_arg11)) := rfl

theorem at1_arg11 : W1 m ρ c (Proc.devRef .tc main_arg11) = (m ((c : Thread nD τ).loc main_arg11)) := by
  show StableHlo.after hostOps0 (W0 m ρ c) (Proc.devRef .tc main_arg11) = _
  after_results
  all_goals exact at0_arg11 m ρ c

theorem at2_arg11 : W2 m ρ c (Proc.devRef .tc main_arg11) = (m ((c : Thread nD τ).loc main_arg11)) := (W2_of_ne m ρ c main_arg11 (by decide)).trans (at1_arg11 m ρ c)

theorem at3_arg11 : W3 m ρ c (Proc.devRef .tc main_arg11) = (m ((c : Thread nD τ).loc main_arg11)) := by
  show StableHlo.after hostOps1 (W2 m ρ c) (Proc.devRef .tc main_arg11) = _
  after_results
  all_goals exact at2_arg11 m ρ c

theorem at4_arg11 : W4 m ρ c (Proc.devRef .tc main_arg11) = (m ((c : Thread nD τ).loc main_arg11)) := (W4_of_ne m ρ c main_arg11 (by decide)).trans (at3_arg11 m ρ c)

theorem at0_arg12 : W0 m ρ c (Proc.devRef .tc main_arg12) = (m ((c : Thread nD τ).loc main_arg12)) := rfl

theorem at1_arg12 : W1 m ρ c (Proc.devRef .tc main_arg12) = (m ((c : Thread nD τ).loc main_arg12)) := by
  show StableHlo.after hostOps0 (W0 m ρ c) (Proc.devRef .tc main_arg12) = _
  after_results
  all_goals exact at0_arg12 m ρ c

theorem at2_arg12 : W2 m ρ c (Proc.devRef .tc main_arg12) = (m ((c : Thread nD τ).loc main_arg12)) := (W2_of_ne m ρ c main_arg12 (by decide)).trans (at1_arg12 m ρ c)

theorem at3_arg12 : W3 m ρ c (Proc.devRef .tc main_arg12) = (m ((c : Thread nD τ).loc main_arg12)) := by
  show StableHlo.after hostOps1 (W2 m ρ c) (Proc.devRef .tc main_arg12) = _
  after_results
  all_goals exact at2_arg12 m ρ c

theorem at4_arg12 : W4 m ρ c (Proc.devRef .tc main_arg12) = (m ((c : Thread nD τ).loc main_arg12)) := (W4_of_ne m ρ c main_arg12 (by decide)).trans (at3_arg12 m ρ c)

end Cert.KernelIdeal.Whole

end
-- ==== Proof.RegionLin2.lean ====
/-
  Linear layer number 2 of the kernel (the values) as one array.

  The region runs 16 grid points; point t reads rows t·512 … t·512+511 of the input, the whole weight matrix and
  the whole bias row, and writes rows t·512 … of the result.  Each written block is the block of ONE function of
  the arrays the region finds — a row of the input times the weight plus the bias — and the 16 blocks tile the
  8192 rows, so the result array is that function.
-/
import proofs.«171156_j2327872274493_1_alg».proof.Proof.Gen.KernelIdeal.Frame
import proofs.«171156_j2327872274493_1_alg».proof.Proof.Spec
import proofs.«171156_j2327872274493_1_alg».proof.Proof.PayLinear
import Idealize.ShloMosaic.Lib.Pipeline.Value

set_option maxRecDepth 16384

noncomputable section

open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Whole

variable (V : (c : Dev nD) → (b : Ref sig .tc) → Buf (Elt Ideal) ((c : Thread nD τ).loc b))

theorem zero2_r2 : (![0, 0] : Fin 2 → Nat) = fun _ => 0 := funext fun a => by fin_cases a <;> rfl

/-- Where each window of this linear layer sits at grid point t: the input rows and the output rows are block t
    of 512 rows; the weight and the bias are whole. -/
theorem lin2_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A block of 512 rows of the layer's result, from blocks that are rows tv·512 … of the input, the whole weight and
    the whole bias. -/
theorem lin2_block (x0 : Vec Ideal S512x1024 .bf16) (x1 : Vec Ideal S1024x1024 .bf16) (x2 : Vec Ideal S1x1024 .f32)
    (A0 : Mha.Rows.Idx → EReal) (A1 : Mha.Sq.Idx → EReal) (A2 : Mha.Row1.Idx → EReal)
    (r : Fin 512 → Fin 8192)
    (h0 : ∀ (p : Fin 512) (k : Fin 1024), x0 (ix2 p k) = A0 (ix2 (r p) k))
    (h1 : ∀ (k o : Fin 1024), x1 (ix2 k o) = A1 (ix2 k o))
    (h2 : ∀ (o : Fin 1024), x2 (ix2 (0 : Fin 1) o) = A2 (ix2 (0 : Fin 1) o)) (p : Fin 512) (o : Fin 1024) :
    k2_pay1 (F := Ideal) x0 x1 x2 (ix2 p o) = Mha.linRows A0 A1 A2 (ix2 (r p) o) := by
  rw [Mha.Pay.lin2]
  show _ = Mha.linF (fun k => A0 (ix2 (r p) k)) (fun k o' => A1 (ix2 k o')) (fun o' => A2 (ix2 (0 : Fin 1) o')) o
  simp only [h0, h1, h2]

theorem lin2_flushed (c : Dev nD) (t : Fin cfg2.N) :
    (dat2 V c).flushed 3 t = ((cfg2.win 3).blk t).view.read (Elt Ideal)
      (Mha.linRows (V c main_v17) (V c main_v18) (V c main_v19)) := by
  show (cfg2.win 3).cut (grid2.coords t) ((dat2 V c).after 3 t) = _
  rw [after2_3]
  unfold out2_3
  rw [View.canon_unit_zero zero2_r2]
  simp only [View.ld_unit_zero (S := S512x1024) zero2_r2, View.ld_unit_zero (S := S1024x1024) zero2_r2, View.ld_unit_zero (S := S1x1024) zero2_r2]
  obtain ⟨e0, e1, e2, e3, e4, e5, e6, e7⟩ := lin2_index t
  have ht : t.val < 16 := t.isLt
  refine funext fun (j : S512x1024.Idx) => ?_
  obtain ⟨p, o, rfl⟩ : ∃ (p : Fin 512) (o : Fin 1024), j = ix2 p o := ⟨j 0, j 1, eq_ix2 j⟩
  show k2_pay1 (F := Ideal) (iblk2 V c 0 t) (iblk2 V c 1 t) (iblk2 V c 2 t) (ix2 p o)
    = Mha.linRows (V c main_v17) (V c main_v18) (V c main_v19) (((cfg2.win 3).blk t).view.emb (ix2 p o))
  have hemb : ((cfg2.win 3).blk t).view.emb (ix2 p o) = ix2 (⟨t.val * 512 + p.val, by omega⟩ : Fin 8192) o := by
    funext a; apply Fin.ext
    match a with
    | ⟨0, _⟩ => show win2_3.index t (0 : Fin 2) * 512 + 1 * p.val = t.val * 512 + p.val; omega
    | ⟨1, _⟩ => show win2_3.index t (1 : Fin 2) * 1024 + 1 * o.val = o.val; omega
  rw [hemb]
  refine lin2_block (iblk2 V c 0 t) (iblk2 V c 1 t) (iblk2 V c 2 t) (V c main_v17) (V c main_v18) (V c main_v19)
    (fun p => (⟨t.val * 512 + p.val, by omega⟩ : Fin 8192)) (fun p k => ?_) (fun k o => ?_) (fun o => ?_) p o
  · show V c main_v17 (((cfg2.win 0).blk t).view.emb (ix2 p k)) = _
    refine congrArg (V c main_v17) ?_
    funext a; apply Fin.ext
    match a with
    | ⟨0, _⟩ => show win2_0.index t (0 : Fin 2) * 512 + 1 * p.val = t.val * 512 + p.val; omega
    | ⟨1, _⟩ => show win2_0.index t (1 : Fin 2) * 1024 + 1 * k.val = k.val; omega
  · show V c main_v18 (((cfg2.win 1).blk t).view.emb (ix2 k o)) = _
    refine congrArg (V c main_v18) ?_
    funext a; apply Fin.ext
    match a with
    | ⟨0, _⟩ => show win2_1.index t (0 : Fin 2) * 1024 + 1 * k.val = k.val; omega
    | ⟨1, _⟩ => show win2_1.index t (1 : Fin 2) * 1024 + 1 * o.val = o.val; omega
  · show V c main_v19 (((cfg2.win 2).blk t).view.emb (ix2 (0 : Fin 1) o)) = _
    refine congrArg (V c main_v19) ?_
    funext a; apply Fin.ext
    match a with
    | ⟨0, _⟩ => show win2_2.index t (0 : Fin 2) * 1 + 1 * 0 = 0; omega
    | ⟨1, _⟩ => show win2_2.index t (1 : Fin 2) * 1024 + 1 * o.val = o.val; omega

/-- An index of the result array is in point t's block iff each coordinate is in the block's range on its axis. -/
theorem lin2_mem (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v20).slice (win2_3.rect t)).set ↔ _
  rw [View.set_slice_whole, Rect.mem_set_unit]
  exact Iff.rfl

/-- Every row of the result is in the block of the grid point that owns it: row r in block r / 512. -/
theorem lin2_cover (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hq : (i 0).val / 512 < 16 := by omega
  refine ⟨⟨(i 0).val / 512, hq⟩, flush2_3 _, ?_⟩
  rw [lin2_mem]
  obtain ⟨e0, e1, e2, e3, e4, e5, e6, e7⟩ := lin2_index ⟨(i 0).val / 512, hq⟩
  intro a
  match a with
  | ⟨0, _⟩ =>
    show win2_3.index _ (0 : Fin 2) * 512 ≤ (i 0).val ∧ (i 0).val < win2_3.index _ (0 : Fin 2) * 512 + 512
    rw [e6]; show (i 0).val / 512 * 512 ≤ (i 0).val ∧ (i 0).val < (i 0).val / 512 * 512 + 512; omega
  | ⟨1, _⟩ =>
    show win2_3.index _ (1 : Fin 2) * 1024 ≤ (i 1).val ∧ (i 1).val < win2_3.index _ (1 : Fin 2) * 1024 + 1024
    rw [e7]; omega

/-- The layer's result array. -/
theorem lin2_final (c : Dev nD) :
    (dat2 V c).arrAt 3 cfg2.N = Mha.linRows (V c main_v17) (V c main_v18) (V c main_v19) :=
  (dat2 V c).arrAt_eq_of_cover 3 _ (fun t _ => lin2_flushed V c t) lin2_cover

end Cert.KernelIdeal.Whole

end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibLayout3.lean ====
/-
  Layout operations at rank 3 read at an index written by coordinates, for any element type and any extents:
  a shape cast that appends a unit axis ([a,b] → [a,b,1]); a broadcast along a trailing unit axis
  ([a,b,1] → [a,b,c]) and along a leading unit axis ([1,b,c] → [a,b,c]); and, for a reduction over ONE axis,
  the index that a reduced index and a coordinate on the dropped axis name — the middle axis of a rank-3 array,
  the last axis of a rank-2 array.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Dropping the MIDDLE axis of `[a, b, c]`: the index over `(i, k)` whose middle coordinate is `d` is `(i, d, k)`. -/
theorem lift_mid_ix2 {a b c : ℕ} (h : (⟨3, ![a, b, c]⟩ : Shape).Reduces [1] (⟨2, ![a, c]⟩ : Shape)) (i : Fin a) (k : Fin c)
    (d : Fin ((⟨3, ![a, b, c]⟩ : Shape).size 1)) :
    h.lift (ix2 i k) d = ix3 i (⟨d.val, d.isLt⟩ : Fin b) k := by
  funext ax; apply Fin.ext
  fin_cases ax <;> rfl

/-- Dropping the LAST axis of `[a, b]`: the index over `i` whose last coordinate is `k` is `(i, k)`. -/
theorem lift_last_ix1 {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

end Idealize.ShloMosaic.ValueIdx
-- ==== Proof.PayAttn.lean ====
/-
  One attention head read at an index.  The head takes the queries q, keys k and values v of 1024
  positions (64 features each).  The scores are half the inner products of the rows of q with the rows
  of k; each row of scores is turned into weights by the softmax (subtract the row's maximum,
  exponentiate, divide by the row's sum); the context is the product of the weights with v.  Read at an
  index, the weights are the row-level softmax weights and the context is the row-level weighted sum.
-/
import Idealize.ShloMosaic.Lib.ValueLayout
import proofs.«171156_j2327872274493_1_alg».proof.Proof.Spec
import proofs.«171156_j2327872274493_1_alg».proof.Proof.Gen.KernelIdeal.Skeleton
import proofs.«171156_j2327872274493_1_alg».proof.Proof.LibDotRows
import proofs.«171156_j2327872274493_1_alg».proof.Proof.LibDotRowsT
import proofs.«171156_j2327872274493_1_alg».proof.Proof.LibLayout
import proofs.«171156_j2327872274493_1_alg».proof.Proof.LibLayout3

noncomputable section

open scoped BigOperators
open Cert.KernelIdeal Cert.KernelIdeal.Gen Idealize.ShloMosaic Idealize.ShloMosaic.ValueIdx

namespace Mha.Pay

/-! ## Layout facts at the head's shapes -/

/-- A head's [1, 1024, 64] block read as a 1024 × 64 matrix. -/
theorem headCast (x : FVec Ideal S1x1024x64 .bf16) (s : Fin 1024) (d : Fin 64) :
    shapeCast S1024x64 x shapeCasts_S1x1024x64_S1024x64 (ix2 s d) = x (ix3 (0 : Fin 1) s d) :=
  shapeCast_1ab_ab_apply x _ s d

/-- The product of q with the transpose of k, at (s, t): the inner product of row s of q and row t of k. -/
theorem matmul_qk (a b : FVec Ideal S1024x64 .bf16) (s t : Fin 1024) :
    matmul dot_S1024x64_S1024x64_S1024x1024_1_1_0_0_n_n none a b (constant S1024x1024 .f32 0x00000000#32) (ix2 s t)
      = ∑ d : Fin 64, a (ix2 s d) * b (ix2 t d) :=
  matmul_zero_rowsT (R := 1024) (K := 64) (J := 1024) dot_S1024x64_S1024x64_S1024x1024_1_1_0_0_n_n none rfl rfl
    (fun _ _ => rfl) (fun _ _ => rfl) (fun _ _ => rfl) (fun _ _ => rfl) a b s t

/-- The product of the weights with v, at (s, d). -/
theorem matmul_pv (a : FVec Ideal S1024x1024 .bf16) (b : FVec Ideal S1024x64 .bf16) (s : Fin 1024) (d : Fin 64) :
    matmul dot_S1024x1024_S1024x64_S1024x64_1_0_0_1_n_n none a b (constant S1024x64 .f32 0x00000000#32) (ix2 s d)
      = ∑ t : Fin 1024, a (ix2 s t) * b (ix2 t d) :=
  matmul_zero_rows (R := 1024) (K := 1024) (J := 64) dot_S1024x1024_S1024x64_S1024x64_1_0_0_1_n_n none rfl rfl
    (fun _ _ => rfl) (fun _ _ => rfl) (fun _ _ => rfl) (fun _ _ => rfl) a b s d

/-- The sum of row s of a 1024 × 1024 array. -/
theorem rowSum1024 (v : FVec Ideal S1024x1024 .f32) (hφ : FKind.Formats FTy.f32)
    (hacc : (0x00000000#32 : BitVec FTy.f32.bits) = FKind.add.neutral .f32 hφ) (s : Fin 1024) :
    multiReduction (F := Ideal) .add [1] S1024 v 0x00000000#32 reduces_S1024x1024_S1024 hφ hacc (ix1 s)
      = ∑ t : Fin 1024, v (ix2 s t) := by
  refine (Ideal.multiReduction_add_single v _ reduces_S1024x1024_S1024 hφ hacc (ix1 s)).trans ?_
  exact Finset.sum_congr rfl fun t _ => congrArg v (lift_last_ix1 reduces_S1024x1024_S1024 s t)

/-- The maximum of row s of a 1024 × 1024 array, as a fold of max from the word for −∞. -/
theorem rowMax1024 (v : FVec Ideal S1024x1024 .f32) (hφ : FKind.Formats FTy.f32)
    (hacc : (0xFF800000#32 : BitVec FTy.f32.bits) = FKind.maximumf.neutral .f32 hφ) (s : Fin 1024) :
    multiReduction (F := Ideal) .maximumf [1] S1024 v 0xFF800000#32 reduces_S1024x1024_S1024 hφ hacc (ix1 s)
      = (Finset.univ : Finset (Fin 1024)).fold max Mha.ninf (fun t => v (ix2 s t)) := by
  refine (Ideal.multiReduction_maximumf_single v _ reduces_S1024x1024_S1024 hφ hacc (ix1 s)).trans ?_
  have hf : (v ∘ reduces_S1024x1024_S1024.lift (ix1 s)) = fun t : Fin 1024 => v (ix2 s t) :=
    funext fun t => congrArg v (lift_last_ix1 reduces_S1024x1024_S1024 s t)
  exact congrArg (fun f => Finset.fold max Mha.ninf f (Finset.univ : Finset (Fin 1024))) hf

/-- A column of 1024 entries spread along the rows reads, at (s, t), entry s. -/
theorem colSpread1024 (w : FVec Ideal S1024x1 .f32) (s t : Fin 1024) :
    broadcastTo S1024x1024 w broadcasts_S1024x1_S1024x1024 (ix2 s t) = w (ix2 s (0 : Fin 1)) :=
  broadcastTo_a1_ab_apply w _ s t

/-- A vector of 1024 entries laid as a column reads, at (s, 0), entry s. -/
theorem colCast1024 (w : FVec Ideal S1024 .f32) (s : Fin 1024) (u : Fin 1) :
    shapeCast S1024x1 w shapeCasts_S1024_S1024x1 (ix2 s u) = w (ix1 s) :=
  shapeCast_a_a1_apply w _ s u

/-! ## The stages of the head, over arbitrary arrays -/

/-- Half the inner products of the rows of a with the rows of b. -/
def scoreBlock (a b : FVec Ideal S1024x64 .bf16) : FVec Ideal S1024x1024 .f32 :=
  mulf (matmul dot_S1024x64_S1024x64_S1024x1024_1_1_0_0_n_n none a b (constant S1024x1024 .f32 0x00000000#32))
    (broadcast S1024x1024 (Scalar.ofBits .f32 0x3F000000#32))

/-- Each entry minus its row's maximum, exponentiated. -/
def expBlock (v : FVec Ideal S1024x1024 .f32) : FVec Ideal S1024x1024 .f32 :=
  exp (subf v
    (broadcastTo S1024x1024
      (shapeCast S1024x1 (multiReduction .maximumf [1] S1024 v 0xFF800000#32 reduces_S1024x1024_S1024 (.inl rfl) rfl)
        shapeCasts_S1024_S1024x1)
      broadcasts_S1024x1_S1024x1024))

/-- Each row's sum, spread along the row. -/
def sumBlock (e : FVec Ideal S1024x1024 .f32) : FVec Ideal S1024x1024 .f32 :=
  broadcastTo S1024x1024
    (shapeCast S1024x1 (multiReduction .add [1] S1024 e 0x00000000#32 reduces_S1024x1024_S1024 (.inl rfl) rfl)
      shapeCasts_S1024_S1024x1)
    broadcasts_S1024x1_S1024x1024

theorem scoreBlock_apply (a b : FVec Ideal S1024x64 .bf16) (s t : Fin 1024) :
    scoreBlock a b (ix2 s t) = (∑ d : Fin 64, a (ix2 s d) * b (ix2 t d)) * Mha.half := by
  unfold scoreBlock
  exact congrArg (· * Mha.half) (matmul_qk a b s t)

theorem expBlock_apply (v : FVec Ideal S1024x1024 .f32) (s t : Fin 1024) :
    expBlock v (ix2 s t)
      = Ideal.exp (v (ix2 s t) - (Finset.univ : Finset (Fin 1024)).fold max Mha.ninf (fun t' => v (ix2 s t'))) := by
  unfold expBlock
  exact congrArg (fun m => Ideal.exp (v (ix2 s t) - m))
    ((colSpread1024 _ s t).trans ((colCast1024 _ s 0).trans (rowMax1024 v _ _ s)))

theorem sumBlock_apply (e : FVec Ideal S1024x1024 .f32) (s t : Fin 1024) :
    sumBlock e (ix2 s t) = ∑ t' : Fin 1024, e (ix2 s t') := by
  unfold sumBlock
  exact (colSpread1024 _ s t).trans ((colCast1024 _ s 0).trans (rowSum1024 e _ _ s))

/-! ## The weights and the context -/

/-- The head's weights as a 1024 × 1024 array, at (s, t). -/
theorem weights (x0 x1 : FVec Ideal S1x1024x64 .bf16) (s t : Fin 1024) :
    k3_pay1 (F := Ideal) x0 x1 (ix2 s t)
      = Mha.probF (fun s' d => x0 (ix3 (0 : Fin 1) s' d)) (fun t' d => x1 (ix3 (0 : Fin 1) t' d)) s t := by
  have hscore : ∀ t', scoreBlock (shapeCast S1024x64 x0 shapeCasts_S1x1024x64_S1024x64)
        (shapeCast S1024x64 x1 shapeCasts_S1x1024x64_S1024x64) (ix2 s t')
      = Mha.scoreF (fun s' d => x0 (ix3 (0 : Fin 1) s' d)) (fun t' d => x1 (ix3 (0 : Fin 1) t' d)) s t' := fun t' =>
    (scoreBlock_apply _ _ s t').trans
      (congrArg (· * Mha.half) (Finset.sum_congr rfl fun d _ => congrArg₂ (· * ·) (headCast x0 s d) (headCast x1 t' d)))
  have hex : ∀ t', expBlock (scoreBlock (shapeCast S1024x64 x0 shapeCasts_S1x1024x64_S1024x64)
        (shapeCast S1024x64 x1 shapeCasts_S1x1024x64_S1024x64)) (ix2 s t')
      = Mha.exF (fun s' d => x0 (ix3 (0 : Fin 1) s' d)) (fun t' d => x1 (ix3 (0 : Fin 1) t' d)) s t' := fun t' =>
    (expBlock_apply _ s t').trans
      (congrArg Ideal.exp (congrArg₂ (· - ·) (hscore t')
        (congrArg (fun f => Finset.fold max Mha.ninf f (Finset.univ : Finset (Fin 1024))) (funext hscore))))
  have hden : sumBlock (expBlock (scoreBlock (shapeCast S1024x64 x0 shapeCasts_S1x1024x64_S1024x64)
        (shapeCast S1024x64 x1 shapeCasts_S1x1024x64_S1024x64))) (ix2 s t)
      = Mha.denF (fun s' d => x0 (ix3 (0 : Fin 1) s' d)) (fun t' d => x1 (ix3 (0 : Fin 1) t' d)) s :=
    (sumBlock_apply _ s t).trans (Finset.sum_congr rfl fun t' _ => hex t')
  unfold k3_pay1 Mha.probF
  exact congrArg₂ Ideal.div (hex t) hden

theorem probs (x0 x1 : Vec Ideal S1x1024x64 .bf16) (u : Fin 1) (s t : Fin 1024) :
    k3_pay2 (F := Ideal) x0 x1 (ix3 u s t)
      = Mha.probF (fun s' d => x0 (ix3 (0 : Fin 1) s' d)) (fun t' d => x1 (ix3 (0 : Fin 1) t' d)) s t := by
  unfold k3_pay2
  exact (shapeCast_ab_1ab_apply _ _ u s t).trans (weights x0 x1 s t)

theorem context (x0 x1 x2 : Vec Ideal S1x1024x64 .bf16) (u : Fin 1) (s : Fin 1024) (d : Fin 64) :
    k3_pay3 (F := Ideal) x0 x1 x2 (ix3 u s d)
      = Mha.ctxF (fun s' d' => x0 (ix3 (0 : Fin 1) s' d')) (fun t' d' => x1 (ix3 (0 : Fin 1) t' d'))
          (fun t' d' => x2 (ix3 (0 : Fin 1) t' d')) s d := by
  unfold k3_pay3 Mha.ctxF
  refine (shapeCast_ab_1ab_apply _ _ u s d).trans ?_
  refine (matmul_pv (truncf .bf16 (k3_pay1 (F := Ideal) x0 x1) bitsLt_bf16_f32)
    (shapeCast S1024x64 x2 shapeCasts_S1x1024x64_S1024x64) s d).trans ?_
  exact Finset.sum_congr rfl fun t _ => congrArg₂ (· * ·) (weights x0 x1 s t) (headCast x2 t d)

end Mha.Pay

end
-- ==== Proof.RegionAttn.lean ====
/-
  The attention region of the kernel as two arrays.

  The region runs 128 grid points, one per head; point h reads head h of the query, key and value arrays and writes
  head h of the context array and of the weights array.  What it writes depends on that head alone, so each block is the
  block of ONE function of the arrays the region finds, and the 128 blocks tile each result.
-/
import proofs.«171156_j2327872274493_1_alg».proof.Proof.Gen.KernelIdeal.Frame
import proofs.«171156_j2327872274493_1_alg».proof.Proof.Spec
import proofs.«171156_j2327872274493_1_alg».proof.Proof.PayAttn
import Idealize.ShloMosaic.Lib.Pipeline.Value

set_option maxRecDepth 16384

noncomputable section

open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Whole

variable (V : (c : Dev nD) → (b : Ref sig .tc) → Buf (Elt Ideal) ((c : Thread nD τ).loc b))

theorem zero3_r3 : (![0, 0, 0] : Fin 3 → Nat) = fun _ => 0 := funext fun a => by fin_cases a <;> rfl

/-- Where each window of the attention region sits at grid point t: head t of the queries, keys, values, contexts and
    weights, whole on the other two axes. -/
theorem att_index : ∀ t : Fin cfg3.N,
    win3_0.index t (0 : Fin 3) = t.val ∧ win3_0.index t (1 : Fin 3) = 0 ∧ win3_0.index t (2 : Fin 3) = 0
    ∧ win3_1.index t (0 : Fin 3) = t.val ∧ win3_1.index t (1 : Fin 3) = 0 ∧ win3_1.index t (2 : Fin 3) = 0
    ∧ win3_2.index t (0 : Fin 3) = t.val ∧ win3_2.index t (1 : Fin 3) = 0 ∧ win3_2.index t (2 : Fin 3) = 0
    ∧ win3_3.index t (0 : Fin 3) = t.val ∧ win3_3.index t (1 : Fin 3) = 0 ∧ win3_3.index t (2 : Fin 3) = 0
    ∧ win3_4.index t (0 : Fin 3) = t.val ∧ win3_4.index t (1 : Fin 3) = 0 ∧ win3_4.index t (2 : Fin 3) = 0 :=
  (by decide +kernel : ∀ t : Fin grid3.N, _)

/-- One head's softmax weights, from blocks that are head h of the query and key arrays. -/
theorem att_probs_block (x0 x1 : Vec Ideal S1x1024x64 .bf16) (A0 A1 : Mha.Heads.Idx → EReal) (h : Fin 128)
    (h0 : ∀ (s : Fin 1024) (d : Fin 64), x0 (ix3 (0 : Fin 1) s d) = A0 (ix3 h s d))
    (h1 : ∀ (s : Fin 1024) (d : Fin 64), x1 (ix3 (0 : Fin 1) s d) = A1 (ix3 h s d))
    (u : Fin 1) (s t : Fin 1024) :
    k3_pay2 (F := Ideal) x0 x1 (ix3 u s t) = Mha.prob A0 A1 (ix3 h s t) := by
  rw [Mha.Pay.probs]
  show _ = Mha.probF (fun s' d => A0 (ix3 h s' d)) (fun t' d => A1 (ix3 h t' d)) s t
  simp only [h0, h1]

/-- One head's context, from blocks that are head h of the query, key and value arrays. -/
theorem att_ctx_block (x0 x1 x2 : Vec Ideal S1x1024x64 .bf16) (A0 A1 A2 : Mha.Heads.Idx → EReal) (h : Fin 128)
    (h0 : ∀ (s : Fin 1024) (d : Fin 64), x0 (ix3 (0 : Fin 1) s d) = A0 (ix3 h s d))
    (h1 : ∀ (s : Fin 1024) (d : Fin 64), x1 (ix3 (0 : Fin 1) s d) = A1 (ix3 h s d))
    (h2 : ∀ (s : Fin 1024) (d : Fin 64), x2 (ix3 (0 : Fin 1) s d) = A2 (ix3 h s d))
    (u : Fin 1) (s : Fin 1024) (d : Fin 64) :
    k3_pay3 (F := Ideal) x0 x1 x2 (ix3 u s d) = Mha.ctx A0 A1 A2 (ix3 h s d) := by
  rw [Mha.Pay.context]
  show _ = Mha.ctxF (fun s' d' => A0 (ix3 h s' d')) (fun t' d' => A1 (ix3 h t' d')) (fun t' d' => A2 (ix3 h t' d')) s d
  simp only [h0, h1, h2]

/-- Input window w's block at point t is head t of its array. -/
theorem att_in0 (c : Dev nD) (t : Fin cfg3.N) (s : Fin 1024) (d : Fin 64) :
    iblk3 V c 0 t (ix3 (0 : Fin 1) s d) = V c main_v22 (ix3 (⟨t.val, t.isLt⟩ : Fin 128) s d) := by
  obtain ⟨e0, e1, e2, -⟩ := att_index t
  show V c main_v22 (((cfg3.win 0).blk t).view.emb (ix3 (0 : Fin 1) s d)) = _
  refine congrArg (V c main_v22) ?_
  funext a; apply Fin.ext
  match a with
  | ⟨0, _⟩ => show win3_0.index t (0 : Fin 3) * 1 + 1 * 0 = t.val; omega
  | ⟨1, _⟩ => show win3_0.index t (1 : Fin 3) * 1024 + 1 * s.val = s.val; omega
  | ⟨2, _⟩ => show win3_0.index t (2 : Fin 3) * 64 + 1 * d.val = d.val; omega

theorem att_in1 (c : Dev nD) (t : Fin cfg3.N) (s : Fin 1024) (d : Fin 64) :
    iblk3 V c 1 t (ix3 (0 : Fin 1) s d) = V c main_v23 (ix3 (⟨t.val, t.isLt⟩ : Fin 128) s d) := by
  obtain ⟨-, -, -, e0, e1, e2, -⟩ := att_index t
  show V c main_v23 (((cfg3.win 1).blk t).view.emb (ix3 (0 : Fin 1) s d)) = _
  refine congrArg (V c main_v23) ?_
  funext a; apply Fin.ext
  match a with
  | ⟨0, _⟩ => show win3_1.index t (0 : Fin 3) * 1 + 1 * 0 = t.val; omega
  | ⟨1, _⟩ => show win3_1.index t (1 : Fin 3) * 1024 + 1 * s.val = s.val; omega
  | ⟨2, _⟩ => show win3_1.index t (2 : Fin 3) * 64 + 1 * d.val = d.val; omega

theorem att_in2 (c : Dev nD) (t : Fin cfg3.N) (s : Fin 1024) (d : Fin 64) :
    iblk3 V c 2 t (ix3 (0 : Fin 1) s d) = V c main_v24 (ix3 (⟨t.val, t.isLt⟩ : Fin 128) s d) := by
  obtain ⟨-, -, -, -, -, -, e0, e1, e2, -⟩ := att_index t
  show V c main_v24 (((cfg3.win 2).blk t).view.emb (ix3 (0 : Fin 1) s d)) = _
  refine congrArg (V c main_v24) ?_
  funext a; apply Fin.ext
  match a with
  | ⟨0, _⟩ => show win3_2.index t (0 : Fin 3) * 1 + 1 * 0 = t.val; omega
  | ⟨1, _⟩ => show win3_2.index t (1 : Fin 3) * 1024 + 1 * s.val = s.val; omega
  | ⟨2, _⟩ => show win3_2.index t (2 : Fin 3) * 64 + 1 * d.val = d.val; omega

/-- What point t writes back to the weights array is head t of the softmax weights of the query and key arrays. -/
theorem att_flushed4 (c : Dev nD) (t : Fin cfg3.N) :
    (dat3 V c).flushed 4 t = ((cfg3.win 4).blk t).view.read (Elt Ideal)
      (Mha.prob (V c main_v22) (V c main_v23)) := by
  show (cfg3.win 4).cut (grid3.coords t) ((dat3 V c).after 4 t) = _
  rw [after3_4]
  unfold out3_4
  rw [View.canon_unit_zero zero3_r3]
  simp only [View.ld_unit_zero (S := S1x1024x64) zero3_r3]
  obtain ⟨-, -, -, -, -, -, -, -, -, -, -, -, e0, e1, e2⟩ := att_index t
  have ht : t.val < 128 := t.isLt
  refine funext fun (j : S1x1024x1024.Idx) => ?_
  obtain ⟨u, s, t', rfl⟩ : ∃ (u : Fin 1) (s t' : Fin 1024), j = ix3 u s t' := ⟨j 0, j 1, j 2, eq_ix3 j⟩
  show k3_pay2 (F := Ideal) (iblk3 V c 0 t) (iblk3 V c 1 t) (ix3 u s t')
    = Mha.prob (V c main_v22) (V c main_v23) (((cfg3.win 4).blk t).view.emb (ix3 u s t'))
  have hemb : ((cfg3.win 4).blk t).view.emb (ix3 u s t') = ix3 (⟨t.val, ht⟩ : Fin 128) s t' := by
    funext a; apply Fin.ext
    have hu : u.val = 0 := by omega
    match a with
    | ⟨0, _⟩ => show win3_4.index t (0 : Fin 3) * 1 + 1 * u.val = t.val; omega
    | ⟨1, _⟩ => show win3_4.index t (1 : Fin 3) * 1024 + 1 * s.val = s.val; omega
    | ⟨2, _⟩ => show win3_4.index t (2 : Fin 3) * 1024 + 1 * t'.val = t'.val; omega
  rw [hemb]
  exact att_probs_block (iblk3 V c 0 t) (iblk3 V c 1 t) (V c main_v22) (V c main_v23) ⟨t.val, ht⟩
    (fun s d => att_in0 V c t s d) (fun s d => att_in1 V c t s d) u s t'

/-- What point t writes back to the context array is head t of the context of the query, key and value arrays. -/
theorem att_flushed3 (c : Dev nD) (t : Fin cfg3.N) :
    (dat3 V c).flushed 3 t = ((cfg3.win 3).blk t).view.read (Elt Ideal)
      (Mha.ctx (V c main_v22) (V c main_v23) (V c main_v24)) := by
  show (cfg3.win 3).cut (grid3.coords t) ((dat3 V c).after 3 t) = _
  rw [after3_3]
  unfold out3_3
  rw [View.canon_unit_zero zero3_r3]
  simp only [View.ld_unit_zero (S := S1x1024x64) zero3_r3]
  obtain ⟨-, -, -, -, -, -, -, -, -, e0, e1, e2, -⟩ := att_index t
  have ht : t.val < 128 := t.isLt
  refine funext fun (j : S1x1024x64.Idx) => ?_
  obtain ⟨u, s, d, rfl⟩ : ∃ (u : Fin 1) (s : Fin 1024) (d : Fin 64), j = ix3 u s d := ⟨j 0, j 1, j 2, eq_ix3 j⟩
  show k3_pay3 (F := Ideal) (iblk3 V c 0 t) (iblk3 V c 1 t) (iblk3 V c 2 t) (ix3 u s d)
    = Mha.ctx (V c main_v22) (V c main_v23) (V c main_v24) (((cfg3.win 3).blk t).view.emb (ix3 u s d))
  have hemb : ((cfg3.win 3).blk t).view.emb (ix3 u s d) = ix3 (⟨t.val, ht⟩ : Fin 128) s d := by
    funext a; apply Fin.ext
    have hu : u.val = 0 := by omega
    match a with
    | ⟨0, _⟩ => show win3_3.index t (0 : Fin 3) * 1 + 1 * u.val = t.val; omega
    | ⟨1, _⟩ => show win3_3.index t (1 : Fin 3) * 1024 + 1 * s.val = s.val; omega
    | ⟨2, _⟩ => show win3_3.index t (2 : Fin 3) * 64 + 1 * d.val = d.val; omega
  rw [hemb]
  exact att_ctx_block (iblk3 V c 0 t) (iblk3 V c 1 t) (iblk3 V c 2 t) (V c main_v22) (V c main_v23) (V c main_v24) ⟨t.val, ht⟩
    (fun s d => att_in0 V c t s d) (fun s d => att_in1 V c t s d) (fun s d => att_in2 V c t s d) u s d

theorem att_mem4 (t : Fin cfg3.N) (i : S128x1024x1024.Idx) :
    i ∈ ((cfg3.win 4).blk t).view.set ↔ ∀ a : Fin 3, win3_4.index t a * S1x1024x1024.size a ≤ (i a).val
      ∧ (i a).val < win3_4.index t a * S1x1024x1024.size a + S1x1024x1024.size a := by
  show i ∈ ((View.whole main_v25_1).slice (win3_4.rect t)).set ↔ _
  rw [View.set_slice_whole, Rect.mem_set_unit]
  exact Iff.rfl

theorem att_mem3 (t : Fin cfg3.N) (i : S128x1024x64.Idx) :
    i ∈ ((cfg3.win 3).blk t).view.set ↔ ∀ a : Fin 3, win3_3.index t a * S1x1024x64.size a ≤ (i a).val
      ∧ (i a).val < win3_3.index t a * S1x1024x64.size a + S1x1024x64.size a := by
  show i ∈ ((View.whole main_v25_0).slice (win3_3.rect t)).set ↔ _
  rw [View.set_slice_whole, Rect.mem_set_unit]
  exact Iff.rfl

/-- Head h of either result is the block of grid point h. -/
theorem att_cover4 (i : S128x1024x1024.Idx) :
    ∃ t : Fin cfg3.N, (cfg3.win 4).flush t = true ∧ i ∈ ((cfg3.win 4).blk t).view.set := by
  have hi0 : (i 0).val < 128 := (i 0).isLt
  have hi1 : (i 1).val < 1024 := (i 1).isLt
  have hi2 : (i 2).val < 1024 := (i 2).isLt
  refine ⟨⟨(i 0).val, hi0⟩, flush3_4 _, ?_⟩
  rw [att_mem4]
  obtain ⟨-, -, -, -, -, -, -, -, -, -, -, -, e0, e1, e2⟩ := att_index ⟨(i 0).val, hi0⟩
  intro a
  match a with
  | ⟨0, _⟩ =>
    show win3_4.index _ (0 : Fin 3) * 1 ≤ (i 0).val ∧ (i 0).val < win3_4.index _ (0 : Fin 3) * 1 + 1
    rw [e0]; show (i 0).val * 1 ≤ (i 0).val ∧ (i 0).val < (i 0).val * 1 + 1; omega
  | ⟨1, _⟩ =>
    show win3_4.index _ (1 : Fin 3) * 1024 ≤ (i 1).val ∧ (i 1).val < win3_4.index _ (1 : Fin 3) * 1024 + 1024
    rw [e1]; omega
  | ⟨2, _⟩ =>
    show win3_4.index _ (2 : Fin 3) * 1024 ≤ (i 2).val ∧ (i 2).val < win3_4.index _ (2 : Fin 3) * 1024 + 1024
    rw [e2]; omega

theorem att_cover3 (i : S128x1024x64.Idx) :
    ∃ t : Fin cfg3.N, (cfg3.win 3).flush t = true ∧ i ∈ ((cfg3.win 3).blk t).view.set := by
  have hi0 : (i 0).val < 128 := (i 0).isLt
  have hi1 : (i 1).val < 1024 := (i 1).isLt
  have hi2 : (i 2).val < 64 := (i 2).isLt
  refine ⟨⟨(i 0).val, hi0⟩, flush3_3 _, ?_⟩
  rw [att_mem3]
  obtain ⟨-, -, -, -, -, -, -, -, -, e0, e1, e2, -⟩ := att_index ⟨(i 0).val, hi0⟩
  intro a
  match a with
  | ⟨0, _⟩ =>
    show win3_3.index _ (0 : Fin 3) * 1 ≤ (i 0).val ∧ (i 0).val < win3_3.index _ (0 : Fin 3) * 1 + 1
    rw [e0]; show (i 0).val * 1 ≤ (i 0).val ∧ (i 0).val < (i 0).val * 1 + 1; omega
  | ⟨1, _⟩ =>
    show win3_3.index _ (1 : Fin 3) * 1024 ≤ (i 1).val ∧ (i 1).val < win3_3.index _ (1 : Fin 3) * 1024 + 1024
    rw [e1]; omega
  | ⟨2, _⟩ =>
    show win3_3.index _ (2 : Fin 3) * 64 ≤ (i 2).val ∧ (i 2).val < win3_3.index _ (2 : Fin 3) * 64 + 64
    rw [e2]; omega

/-- The attention weights array after the region. -/
theorem att_final4 (c : Dev nD) :
    (dat3 V c).arrAt 4 cfg3.N = Mha.prob (V c main_v22) (V c main_v23) :=
  (dat3 V c).arrAt_eq_of_cover 4 _ (fun t _ => att_flushed4 V c t) att_cover4

/-- The context array after the region. -/
theorem att_final3 (c : Dev nD) :
    (dat3 V c).arrAt 3 cfg3.N = Mha.ctx (V c main_v22) (V c main_v23) (V c main_v24) :=
  (dat3 V c).arrAt_eq_of_cover 3 _ (fun t _ => att_flushed3 V c t) att_cover3

end Cert.KernelIdeal.Whole

end
-- ==== Proof.WalkB.lean ====
/-
  The buffers of the idealized kernel at boundaries 5 to 8 of its run, as functions of the arguments: the value layer's
  operands and result, the three projections regrouped as heads, and the attention region's two results.
-/
import proofs.«171156_j2327872274493_1_alg».proof.Proof.WalkA
import proofs.«171156_j2327872274493_1_alg».proof.Proof.RegionLin2
import proofs.«171156_j2327872274493_1_alg».proof.Proof.RegionAttn
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem at5_v9 : W5 m ρ c (Proc.devRef .tc main_v9) = (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) := by
  show StableHlo.after hostOps2 (W4 m ρ c) (Proc.devRef .tc main_v9) = _
  after_results
  all_goals exact at4_v9 m ρ c

theorem at6_v9 : W6 m ρ c (Proc.devRef .tc main_v9) = (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) := (W6_of_ne m ρ c main_v9 (by decide)).trans (at5_v9 m ρ c)

theorem at7_v22 : W7 m ρ c (Proc.devRef .tc main_v22) = (shapeCast Mha.Heads (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) Mha.castTokHeads) := by
  show StableHlo.after hostOps3 (W6 m ρ c) (Proc.devRef .tc main_v22) = _
  after_results
  rw [at6_v9 m ρ c]
  rfl

theorem at5_v15 : W5 m ρ c (Proc.devRef .tc main_v15) = (shapeCast Mha.Tok (Mha.linRows (Mha.toRows (m ((c : Thread nD τ).loc main_arg0))) (Mha.tr (m ((c : Thread nD τ).loc main_arg5))) (Mha.toRow (m ((c : Thread nD τ).loc main_arg6)))) Mha.castRowsTok) := by
  show StableHlo.after hostOps2 (W4 m ρ c) (Proc.devRef .tc main_v15) = _
  after_results
  rw [at4_v14 m ρ c]
  rfl

theorem at6_v15 : W6 m ρ c (Proc.devRef .tc main_v15) = (shapeCast Mha.Tok (Mha.linRows (Mha.toRows (m ((c : Thread nD τ).loc main_arg0))) (Mha.tr (m ((c : Thread nD τ).loc main_arg5))) (Mha.toRow (m ((c : Thread nD τ).loc main_arg6)))) Mha.castRowsTok) := (W6_of_ne m ρ c main_v15 (by decide)).trans (at5_v15 m ρ c)

theorem at7_v23 : W7 m ρ c (Proc.devRef .tc main_v23) = (shapeCast Mha.Heads (shapeCast Mha.Tok (Mha.linRows (Mha.toRows (m ((c : Thread nD τ).loc main_arg0))) (Mha.tr (m ((c : Thread nD τ).loc main_arg5))) (Mha.toRow (m ((c : Thread nD τ).loc main_arg6)))) Mha.castRowsTok) Mha.castTokHeads) := by
  show StableHlo.after hostOps3 (W6 m ρ c) (Proc.devRef .tc main_v23) = _
  after_results
  rw [at6_v15 m ρ c]
  rfl

theorem at5_v17 : W5 m ρ c (Proc.devRef .tc main_v17) = (Mha.toRows (m ((c : Thread nD τ).loc main_arg1))) := by
  show StableHlo.after hostOps2 (W4 m ρ c) (Proc.devRef .tc main_v17) = _
  after_results
  rw [at4_arg1 m ρ c]
  rfl

theorem at5_v18 : W5 m ρ c (Proc.devRef .tc main_v18) = (Mha.tr (m ((c : Thread nD τ).loc main_arg7))) := by
  show StableHlo.after hostOps2 (W4 m ρ c) (Proc.devRef .tc main_v18) = _
  after_results
  rw [at4_v2 m ρ c]
  rfl

theorem at5_v19 : W5 m ρ c (Proc.devRef .tc main_v19) = (Mha.toRow (m ((c : Thread nD τ).loc main_arg8))) := by
  show StableHlo.after hostOps2 (W4 m ρ c) (Proc.devRef .tc main_v19) = _
  after_results
  rw [at4_arg8 m ρ c]
  rfl

theorem at6_v20 : W6 m ρ c (Proc.devRef .tc main_v20) = (Mha.linRows (Mha.toRows (m ((c : Thread nD τ).loc main_arg1))) (Mha.tr (m ((c : Thread nD τ).loc main_arg7))) (Mha.toRow (m ((c : Thread nD τ).loc main_arg8)))) := by
  refine (W6_arr m ρ c 3).trans ((lin2_final (V5 m ρ) c).trans ?_)
  show Mha.linRows (W5 m ρ c (Proc.devRef .tc main_v17)) (W5 m ρ c (Proc.devRef .tc main_v18)) (W5 m ρ c (Proc.devRef .tc main_v19)) = _
  rw [at5_v17 m ρ c, at5_v18 m ρ c, at5_v19 m ρ c]

theorem at7_v24 : W7 m ρ c (Proc.devRef .tc main_v24) = (shapeCast Mha.Heads (shapeCast Mha.Tok (Mha.linRows (Mha.toRows (m ((c : Thread nD τ).loc main_arg1))) (Mha.tr (m ((c : Thread nD τ).loc main_arg7))) (Mha.toRow (m ((c : Thread nD τ).loc main_arg8)))) Mha.castRowsTok) Mha.castTokHeads) := by
  show StableHlo.after hostOps3 (W6 m ρ c) (Proc.devRef .tc main_v24) = _
  after_results
  rw [at6_v20 m ρ c]
  rfl

theorem at8_v25_0 : W8 m ρ c (Proc.devRef .tc main_v25_0) = (Mha.ctx (shapeCast Mha.Heads (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) Mha.castTokHeads) (shapeCast Mha.Heads (shapeCast Mha.Tok (Mha.linRows (Mha.toRows (m ((c : Thread nD τ).loc main_arg0))) (Mha.tr (m ((c : Thread nD τ).loc main_arg5))) (Mha.toRow (m ((c : Thread nD τ).loc main_arg6)))) Mha.castRowsTok) Mha.castTokHeads) (shapeCast Mha.Heads (shapeCast Mha.Tok (Mha.linRows (Mha.toRows (m ((c : Thread nD τ).loc main_arg1))) (Mha.tr (m ((c : Thread nD τ).loc main_arg7))) (Mha.toRow (m ((c : Thread nD τ).loc main_arg8)))) Mha.castRowsTok) Mha.castTokHeads)) := by
  refine (W8_arr m ρ c 3).trans ((att_final3 (V7 m ρ) c).trans ?_)
  show Mha.ctx (W7 m ρ c (Proc.devRef .tc main_v22)) (W7 m ρ c (Proc.devRef .tc main_v23)) (W7 m ρ c (Proc.devRef .tc main_v24)) = _
  rw [at7_v22 m ρ c, at7_v23 m ρ c, at7_v24 m ρ c]

theorem at5_v3 : W5 m ρ c (Proc.devRef .tc main_v3) = (Mha.tr (m ((c : Thread nD τ).loc main_arg9))) := by
  show StableHlo.after hostOps2 (W4 m ρ c) (Proc.devRef .tc main_v3) = _
  after_results
  all_goals exact at4_v3 m ρ c

theorem at6_v3 : W6 m ρ c (Proc.devRef .tc main_v3) = (Mha.tr (m ((c : Thread nD τ).loc main_arg9))) := (W6_of_ne m ρ c main_v3 (by decide)).trans (at5_v3 m ρ c)

theorem at7_v3 : W7 m ρ c (Proc.devRef .tc main_v3) = (Mha.tr (m ((c : Thread nD τ).loc main_arg9))) := by
  show StableHlo.after hostOps3 (W6 m ρ c) (Proc.devRef .tc main_v3) = _
  after_results
  all_goals exact at6_v3 m ρ c

theorem at8_v3 : W8 m ρ c (Proc.devRef .tc main_v3) = (Mha.tr (m ((c : Thread nD τ).loc main_arg9))) := (W8_of_ne m ρ c main_v3 (by decide)).trans (at7_v3 m ρ c)

theorem at5_arg10 : W5 m ρ c (Proc.devRef .tc main_arg10) = (m ((c : Thread nD τ).loc main_arg10)) := by
  show StableHlo.after hostOps2 (W4 m ρ c) (Proc.devRef .tc main_arg10) = _
  after_results
  all_goals exact at4_arg10 m ρ c

theorem at6_arg10 : W6 m ρ c (Proc.devRef .tc main_arg10) = (m ((c : Thread nD τ).loc main_arg10)) := (W6_of_ne m ρ c main_arg10 (by decide)).trans (at5_arg10 m ρ c)

theorem at7_arg10 : W7 m ρ c (Proc.devRef .tc main_arg10) = (m ((c : Thread nD τ).loc main_arg10)) := by
  show StableHlo.after hostOps3 (W6 m ρ c) (Proc.devRef .tc main_arg10) = _
  after_results
  all_goals exact at6_arg10 m ρ c

theorem at8_arg10 : W8 m ρ c (Proc.devRef .tc main_arg10) = (m ((c : Thread nD τ).loc main_arg10)) := (W8_of_ne m ρ c main_arg10 (by decide)).trans (at7_arg10 m ρ c)

theorem at5_arg2 : W5 m ρ c (Proc.devRef .tc main_arg2) = (m ((c : Thread nD τ).loc main_arg2)) := by
  show StableHlo.after hostOps2 (W4 m ρ c) (Proc.devRef .tc main_arg2) = _
  after_results
  all_goals exact at4_arg2 m ρ c

theorem at6_arg2 : W6 m ρ c (Proc.devRef .tc main_arg2) = (m ((c : Thread nD τ).loc main_arg2)) := (W6_of_ne m ρ c main_arg2 (by decide)).trans (at5_arg2 m ρ c)

theorem at7_arg2 : W7 m ρ c (Proc.devRef .tc main_arg2) = (m ((c : Thread nD τ).loc main_arg2)) := by
  show StableHlo.after hostOps3 (W6 m ρ c) (Proc.devRef .tc main_arg2) = _
  after_results
  all_goals exact at6_arg2 m ρ c

theorem at8_arg2 : W8 m ρ c (Proc.devRef .tc main_arg2) = (m ((c : Thread nD τ).loc main_arg2)) := (W8_of_ne m ρ c main_arg2 (by decide)).trans (at7_arg2 m ρ c)

theorem at5_arg11 : W5 m ρ c (Proc.devRef .tc main_arg11) = (m ((c : Thread nD τ).loc main_arg11)) := by
  show StableHlo.after hostOps2 (W4 m ρ c) (Proc.devRef .tc main_arg11) = _
  after_results
  all_goals exact at4_arg11 m ρ c

theorem at6_arg11 : W6 m ρ c (Proc.devRef .tc main_arg11) = (m ((c : Thread nD τ).loc main_arg11)) := (W6_of_ne m ρ c main_arg11 (by decide)).trans (at5_arg11 m ρ c)

theorem at7_arg11 : W7 m ρ c (Proc.devRef .tc main_arg11) = (m ((c : Thread nD τ).loc main_arg11)) := by
  show StableHlo.after hostOps3 (W6 m ρ c) (Proc.devRef .tc main_arg11) = _
  after_results
  all_goals exact at6_arg11 m ρ c

theorem at8_arg11 : W8 m ρ c (Proc.devRef .tc main_arg11) = (m ((c : Thread nD τ).loc main_arg11)) := (W8_of_ne m ρ c main_arg11 (by decide)).trans (at7_arg11 m ρ c)

theorem at5_arg12 : W5 m ρ c (Proc.devRef .tc main_arg12) = (m ((c : Thread nD τ).loc main_arg12)) := by
  show StableHlo.after hostOps2 (W4 m ρ c) (Proc.devRef .tc main_arg12) = _
  after_results
  all_goals exact at4_arg12 m ρ c

theorem at6_arg12 : W6 m ρ c (Proc.devRef .tc main_arg12) = (m ((c : Thread nD τ).loc main_arg12)) := (W6_of_ne m ρ c main_arg12 (by decide)).trans (at5_arg12 m ρ c)

theorem at7_arg12 : W7 m ρ c (Proc.devRef .tc main_arg12) = (m ((c : Thread nD τ).loc main_arg12)) := by
  show StableHlo.after hostOps3 (W6 m ρ c) (Proc.devRef .tc main_arg12) = _
  after_results
  all_goals exact at6_arg12 m ρ c

theorem at8_arg12 : W8 m ρ c (Proc.devRef .tc main_arg12) = (m ((c : Thread nD τ).loc main_arg12)) := (W8_of_ne m ρ c main_arg12 (by decide)).trans (at7_arg12 m ρ c)

theorem at8_v25_1 : W8 m ρ c (Proc.devRef .tc main_v25_1) = (Mha.prob (shapeCast Mha.Heads (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) Mha.castTokHeads) (shapeCast Mha.Heads (shapeCast Mha.Tok (Mha.linRows (Mha.toRows (m ((c : Thread nD τ).loc main_arg0))) (Mha.tr (m ((c : Thread nD τ).loc main_arg5))) (Mha.toRow (m ((c : Thread nD τ).loc main_arg6)))) Mha.castRowsTok) Mha.castTokHeads)) := by
  refine (W8_arr m ρ c 4).trans ((att_final4 (V7 m ρ) c).trans ?_)
  show Mha.prob (W7 m ρ c (Proc.devRef .tc main_v22)) (W7 m ρ c (Proc.devRef .tc main_v23)) = _
  rw [at7_v22 m ρ c, at7_v23 m ρ c]

end Cert.KernelIdeal.Whole

end
-- ==== Proof.PayNorm.lean ====
/-
  The output block read at an index.  The block adds the residual rows to the product of the context
  rows with the output matrix and to the bias row; each row is then normalised: its mean (the row's sum
  divided by 1024) is subtracted, the difference is multiplied by the reciprocal square root of the
  variance (the mean of the squared differences) plus a small constant, scaled by gamma and shifted by
  beta.  Read at (p, o) it is the row-level layer normalisation of row p at feature o.
-/
import Idealize.ShloMosaic.Lib.ValueLayout
import proofs.«171156_j2327872274493_1_alg».proof.Proof.Spec
import proofs.«171156_j2327872274493_1_alg».proof.Proof.Gen.KernelIdeal.Skeleton
import proofs.«171156_j2327872274493_1_alg».proof.Proof.LibDotRows
import proofs.«171156_j2327872274493_1_alg».proof.Proof.LibLayout
import proofs.«171156_j2327872274493_1_alg».proof.Proof.LibLayout3
import proofs.«171156_j2327872274493_1_alg».proof.Proof.PayLinear

noncomputable section

open scoped BigOperators
open Cert.KernelIdeal Cert.KernelIdeal.Gen Idealize.ShloMosaic Idealize.ShloMosaic.ValueIdx

namespace Mha.Pay

/-! ## Three layout facts at the block's shapes -/

/-- The sum of row p of a 512 × 1024 block. -/
theorem rowSum512 (v : FVec Ideal S512x1024 .f32) (hφ : FKind.Formats FTy.f32)
    (hacc : (0x00000000#32 : BitVec FTy.f32.bits) = FKind.add.neutral .f32 hφ) (p : Fin 512) :
    multiReduction (F := Ideal) .add [1] S512 v 0x00000000#32 reduces_S512x1024_S512 hφ hacc (ix1 p)
      = ∑ o : Fin 1024, v (ix2 p o) := by
  refine (Ideal.multiReduction_add_single v _ reduces_S512x1024_S512 hφ hacc (ix1 p)).trans ?_
  exact Finset.sum_congr rfl fun o _ => congrArg v (lift_last_ix1 reduces_S512x1024_S512 p o)

/-- A column of 512 entries spread along the rows reads, at (p, o), entry p. -/
theorem colSpread512 (w : FVec Ideal S512x1 .f32) (p : Fin 512) (o : Fin 1024) :
    broadcastTo S512x1024 w broadcasts_S512x1_S512x1024 (ix2 p o) = w (ix2 p (0 : Fin 1)) :=
  broadcastTo_a1_ab_apply w _ p o

/-- A vector of 512 entries laid as a column reads, at (p, 0), entry p. -/
theorem colCast512 (w : FVec Ideal S512 .f32) (p : Fin 512) (u : Fin 1) :
    shapeCast S512x1 w shapeCasts_S512_S512x1 (ix2 p u) = w (ix1 p) :=
  shapeCast_a_a1_apply w _ p u

/-! ## The stages of the block, over an arbitrary 512 × 1024 array -/

/-- Residual plus product plus bias, as the block forms it. -/
def preBlock (x0 : FVec Ideal S512x1024 .bf16) (x1 : FVec Ideal S1024x1024 .bf16) (x3 : FVec Ideal S512x1024 .f32)
    (x2 : FVec Ideal S1x1024 .f32) : FVec Ideal S512x1024 .f32 :=
  addf
    (addf (shapeCast S512x1024 x3 shapeCasts_S512x1024_S512x1024)
      (matmul dot_S512x1024_S1024x1024_S512x1024_1_0_0_1_n_n none
        (shapeCast S512x1024 x0 shapeCasts_S512x1024_S512x1024)
        (shapeCast S1024x1024 x1 shapeCasts_S1024x1024_S1024x1024)
        (constant S512x1024 .f32 0x00000000#32)))
    (broadcastTo S512x1024 (shapeCast S1x1024 x2 shapeCasts_S1x1024_S1x1024) broadcasts_S1x1024_S512x1024)

/-- Each row's sum divided by the word for 1024, spread along the row. -/
def meanBlock (v : FVec Ideal S512x1024 .f32) : FVec Ideal S512x1024 .f32 :=
  broadcastTo S512x1024
    (divf
      (shapeCast S512x1 (multiReduction .add [1] S512 v 0x00000000#32 reduces_S512x1024_S512 (.inl rfl) rfl)
        shapeCasts_S512_S512x1)
      (broadcast S512x1 (Scalar.ofBits .f32 0x44800000#32)))
    broadcasts_S512x1_S512x1024

/-- The reciprocal square root of (each row's mean square plus the small constant), spread along the row. -/
def rsBlock (w : FVec Ideal S512x1024 .f32) : FVec Ideal S512x1024 .f32 :=
  broadcastTo S512x1024
    (rsqrt
      (addf
        (divf
          (shapeCast S512x1 (multiReduction .add [1] S512 (mulf w w) 0x00000000#32 reduces_S512x1024_S512 (.inl rfl) rfl)
            shapeCasts_S512_S512x1)
          (broadcast S512x1 (Scalar.ofBits .f32 0x44800000#32)))
        (broadcast S512x1 (Scalar.ofBits .f32 0x3727C5AC#32))))
    broadcasts_S512x1_S512x1024

theorem preBlock_apply (x0 : FVec Ideal S512x1024 .bf16) (x1 : FVec Ideal S1024x1024 .bf16) (x3 : FVec Ideal S512x1024 .f32)
    (x2 : FVec Ideal S1x1024 .f32) (p : Fin 512) (o : Fin 1024) :
    preBlock x0 x1 x3 x2 (ix2 p o)
      = Mha.preF (fun k => x0 (ix2 p k)) (fun k o' => x1 (ix2 k o')) (fun o' => x2 (ix2 (0 : Fin 1) o'))
          (fun o' => x3 (ix2 p o')) o := by
  unfold preBlock Mha.preF
  rw [shapeCast_self, shapeCast_self, shapeCast_self, shapeCast_self]
  exact congrArg₂ (· + ·) (congrArg (x3 (ix2 p o) + ·) (matmul_lin x0 x1 p o)) (broadcastTo_1b_ab_apply x2 _ p o)

theorem meanBlock_apply (v : FVec Ideal S512x1024 .f32) (p : Fin 512) (o : Fin 1024) :
    meanBlock v (ix2 p o) = Ideal.div (∑ o' : Fin 1024, v (ix2 p o')) Mha.n1024 := by
  unfold meanBlock
  refine (colSpread512 _ p o).trans ?_
  exact congrArg (Ideal.div · Mha.n1024) ((colCast512 _ p 0).trans (rowSum512 v _ _ p))

theorem rsBlock_apply (w : FVec Ideal S512x1024 .f32) (p : Fin 512) (o : Fin 1024) :
    rsBlock w (ix2 p o)
      = Ideal.rsqrt (Ideal.div (∑ o' : Fin 1024, w (ix2 p o') * w (ix2 p o')) Mha.n1024 + Mha.eps) := by
  unfold rsBlock
  refine (colSpread512 _ p o).trans ?_
  exact congrArg (fun s => Ideal.rsqrt (Ideal.div s Mha.n1024 + Mha.eps)) ((colCast512 _ p 0).trans (rowSum512 (mulf w w) _ _ p))

/-! ## The block -/

theorem norm (x0 : Vec Ideal S512x1024 .bf16) (x1 : Vec Ideal S1024x1024 .bf16) (x3 : Vec Ideal S512x1024 .f32)
    (x2 x4 x5 : Vec Ideal S1x1024 .f32) (p : Fin 512) (o : Fin 1024) :
    k4_pay1 (F := Ideal) x0 x1 x3 x2 x4 x5 (ix2 p o)
      = Mha.lnF (fun k => x0 (ix2 p k)) (fun k o' => x1 (ix2 k o')) (fun o' => x2 (ix2 (0 : Fin 1) o'))
          (fun o' => x3 (ix2 p o')) (fun o' => x4 (ix2 (0 : Fin 1) o')) (fun o' => x5 (ix2 (0 : Fin 1) o')) o := by
  have hpre := preBlock_apply x0 x1 x3 x2 p
  have hmean : ∀ o', meanBlock (preBlock x0 x1 x3 x2) (ix2 p o')
      = Mha.meanF (fun k => x0 (ix2 p k)) (fun k o' => x1 (ix2 k o')) (fun o' => x2 (ix2 (0 : Fin 1) o'))
          (fun o' => x3 (ix2 p o')) := fun o' =>
    (meanBlock_apply _ p o').trans (congrArg (Ideal.div · Mha.n1024) (Finset.sum_congr rfl fun o'' _ => hpre o''))
  have hsub : ∀ o', subf (preBlock x0 x1 x3 x2) (meanBlock (preBlock x0 x1 x3 x2)) (ix2 p o')
      = Mha.preF (fun k => x0 (ix2 p k)) (fun k o' => x1 (ix2 k o')) (fun o' => x2 (ix2 (0 : Fin 1) o'))
          (fun o' => x3 (ix2 p o')) o'
        - Mha.meanF (fun k => x0 (ix2 p k)) (fun k o' => x1 (ix2 k o')) (fun o' => x2 (ix2 (0 : Fin 1) o'))
          (fun o' => x3 (ix2 p o')) := fun o' => congrArg₂ (· - ·) (hpre o') (hmean o')
  have hrs : rsBlock (subf (preBlock x0 x1 x3 x2) (meanBlock (preBlock x0 x1 x3 x2))) (ix2 p o)
      = Ideal.rsqrt (Mha.varF (fun k => x0 (ix2 p k)) (fun k o' => x1 (ix2 k o')) (fun o' => x2 (ix2 (0 : Fin 1) o'))
          (fun o' => x3 (ix2 p o')) + Mha.eps) :=
    (rsBlock_apply _ p o).trans
      (congrArg (fun s => Ideal.rsqrt (Ideal.div s Mha.n1024 + Mha.eps))
        (Finset.sum_congr rfl fun o' _ => congrArg₂ (· * ·) (hsub o') (hsub o')))
  have hg : broadcastTo S512x1024 (shapeCast S1x1024 x4 shapeCasts_S1x1024_S1x1024) broadcasts_S1x1024_S512x1024 (ix2 p o)
      = x4 (ix2 (0 : Fin 1) o) := by
    rw [shapeCast_self]; exact broadcastTo_1b_ab_apply x4 _ p o
  have hb : broadcastTo S512x1024 (shapeCast S1x1024 x5 shapeCasts_S1x1024_S1x1024) broadcasts_S1x1024_S512x1024 (ix2 p o)
      = x5 (ix2 (0 : Fin 1) o) := by
    rw [shapeCast_self]; exact broadcastTo_1b_ab_apply x5 _ p o
  unfold k4_pay1 Mha.lnF
  exact congrArg₂ (· + ·) (congrArg₂ (· * ·) (congrArg₂ (· * ·) (hsub o) hrs) hg) hb

end Mha.Pay

end
-- ==== Proof.RegionNorm.lean ====
/-
  The output layer of the kernel as one array.

  The region runs 16 grid points; point t reads rows t·512 … t·512+511 of the context array and of the residual
  array, the whole output weight, and the bias, gamma and beta rows, and writes rows t·512 … of the result.  A written
  row depends only on the same row of the context and of the residual, so each block is the block of ONE function of
  the arrays the region finds, and the 16 blocks tile the 8192 rows.
-/
import proofs.«171156_j2327872274493_1_alg».proof.Proof.Gen.KernelIdeal.Frame
import proofs.«171156_j2327872274493_1_alg».proof.Proof.Spec
import proofs.«171156_j2327872274493_1_alg».proof.Proof.PayNorm
import Idealize.ShloMosaic.Lib.Pipeline.Value

set_option maxRecDepth 16384

noncomputable section

open Cert.KernelIdeal Cert.KernelIdeal.Gen
open Idealize.ShloMosaic Idealize.ShloMosaic.TcCoe Idealize.ShloMosaic.ValueIdx Idealize.SL.Sem
open Idealize.ShloMosaic.Pipeline (Dat)

namespace Cert.KernelIdeal.Whole

variable (V : (c : Dev nD) → (b : Ref sig .tc) → Buf (Elt Ideal) ((c : Thread nD τ).loc b))

theorem zero2_r4 : (![0, 0] : Fin 2 → Nat) = fun _ => 0 := funext fun a => by fin_cases a <;> rfl

/-- Where each window of the output layer sits at grid point t: the context rows, the residual rows and the result
    rows are block t of 512 rows; the weight, the bias, gamma and beta are whole. -/
theorem ln_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- A block of 512 rows of the output layer's result, from blocks that are rows r(p) of the context and residual
    arrays and the whole weight, bias, gamma and beta. -/
theorem ln_block (x0 : Vec Ideal S512x1024 .bf16) (x1 : Vec Ideal S1024x1024 .bf16) (x2 : Vec Ideal S1x1024 .f32)
    (x3 : Vec Ideal S512x1024 .f32) (x4 x5 : Vec Ideal S1x1024 .f32)
    (A0 : Mha.Rows.Idx → EReal) (A1 : Mha.Sq.Idx → EReal) (A2 : Mha.Row1.Idx → EReal) (A3 : Mha.Rows.Idx → EReal)
    (A4 A5 : Mha.Row1.Idx → EReal) (r : Fin 512 → Fin 8192)
    (h0 : ∀ (p : Fin 512) (k : Fin 1024), x0 (ix2 p k) = A0 (ix2 (r p) k))
    (h1 : ∀ (k o : Fin 1024), x1 (ix2 k o) = A1 (ix2 k o))
    (h2 : ∀ (o : Fin 1024), x2 (ix2 (0 : Fin 1) o) = A2 (ix2 (0 : Fin 1) o))
    (h3 : ∀ (p : Fin 512) (k : Fin 1024), x3 (ix2 p k) = A3 (ix2 (r p) k))
    (h4 : ∀ (o : Fin 1024), x4 (ix2 (0 : Fin 1) o) = A4 (ix2 (0 : Fin 1) o))
    (h5 : ∀ (o : Fin 1024), x5 (ix2 (0 : Fin 1) o) = A5 (ix2 (0 : Fin 1) o)) (p : Fin 512) (o : Fin 1024) :
    k4_pay1 (F := Ideal) x0 x1 x3 x2 x4 x5 (ix2 p o) = Mha.lnRows A0 A1 A2 A3 A4 A5 (ix2 (r p) o) := by
  rw [Mha.Pay.norm]
  show _ = Mha.lnF (fun k => A0 (ix2 (r p) k)) (fun k o' => A1 (ix2 k o')) (fun o' => A2 (ix2 (0 : Fin 1) o'))
    (fun o' => A3 (ix2 (r p) o')) (fun o' => A4 (ix2 (0 : Fin 1) o')) (fun o' => A5 (ix2 (0 : Fin 1) o')) o
  simp only [h0, h1, h2, h3, h4, h5]

/-- What point t writes back is block t of the output layer applied to the arrays the region finds. -/
theorem ln_flushed (c : Dev nD) (t : Fin cfg4.N) :
    (dat4 V c).flushed 6 t = ((cfg4.win 6).blk t).view.read (Elt Ideal)
      (Mha.lnRows (V c main_v27) (V c main_v28) (V c main_v29) (V c main_v30) (V c main_v31) (V c main_v32)) := by
  show (cfg4.win 6).cut (grid4.coords t) ((dat4 V c).after 6 t) = _
  rw [after4_6]
  unfold out4_6
  rw [View.canon_unit_zero zero2_r4]
  simp only [View.ld_unit_zero (S := S512x1024) zero2_r4, View.ld_unit_zero (S := S1024x1024) zero2_r4, View.ld_unit_zero (S := S1x1024) zero2_r4]
  obtain ⟨e0, e1, e2, e3, e4, e5, e6, e7, e8, e9, e10, e11, e12, e13⟩ := ln_index t
  have ht : t.val < 16 := t.isLt
  refine funext fun (j : S512x1024.Idx) => ?_
  obtain ⟨p, o, rfl⟩ : ∃ (p : Fin 512) (o : Fin 1024), j = ix2 p o := ⟨j 0, j 1, eq_ix2 j⟩
  show k4_pay1 (F := Ideal) (iblk4 V c 0 t) (iblk4 V c 1 t) (iblk4 V c 3 t) (iblk4 V c 2 t) (iblk4 V c 4 t) (iblk4 V c 5 t) (ix2 p o)
    = Mha.lnRows (V c main_v27) (V c main_v28) (V c main_v29) (V c main_v30) (V c main_v31) (V c main_v32)
        (((cfg4.win 6).blk t).view.emb (ix2 p o))
  have hemb : ((cfg4.win 6).blk t).view.emb (ix2 p o) = ix2 (⟨t.val * 512 + p.val, by omega⟩ : Fin 8192) o := by
    funext a; apply Fin.ext
    match a with
    | ⟨0, _⟩ => show win4_6.index t (0 : Fin 2) * 512 + 1 * p.val = t.val * 512 + p.val; omega
    | ⟨1, _⟩ => show win4_6.index t (1 : Fin 2) * 1024 + 1 * o.val = o.val; omega
  rw [hemb]
  refine ln_block (iblk4 V c 0 t) (iblk4 V c 1 t) (iblk4 V c 2 t) (iblk4 V c 3 t) (iblk4 V c 4 t) (iblk4 V c 5 t)
    (V c main_v27) (V c main_v28) (V c main_v29) (V c main_v30) (V c main_v31) (V c main_v32)
    (fun p => (⟨t.val * 512 + p.val, by omega⟩ : Fin 8192))
    (fun p k => ?_) (fun k o => ?_) (fun o => ?_) (fun p k => ?_) (fun o => ?_) (fun o => ?_) p o
  · show V c main_v27 (((cfg4.win 0).blk t).view.emb (ix2 p k)) = _
    refine congrArg (V c main_v27) ?_
    funext a; apply Fin.ext
    match a with
    | ⟨0, _⟩ => show win4_0.index t (0 : Fin 2) * 512 + 1 * p.val = t.val * 512 + p.val; omega
    | ⟨1, _⟩ => show win4_0.index t (1 : Fin 2) * 1024 + 1 * k.val = k.val; omega
  · show V c main_v28 (((cfg4.win 1).blk t).view.emb (ix2 k o)) = _
    refine congrArg (V c main_v28) ?_
    funext a; apply Fin.ext
    match a with
    | ⟨0, _⟩ => show win4_1.index t (0 : Fin 2) * 1024 + 1 * k.val = k.val; omega
    | ⟨1, _⟩ => show win4_1.index t (1 : Fin 2) * 1024 + 1 * o.val = o.val; omega
  · show V c main_v29 (((cfg4.win 2).blk t).view.emb (ix2 (0 : Fin 1) o)) = _
    refine congrArg (V c main_v29) ?_
    funext a; apply Fin.ext
    match a with
    | ⟨0, _⟩ => show win4_2.index t (0 : Fin 2) * 1 + 1 * 0 = 0; omega
    | ⟨1, _⟩ => show win4_2.index t (1 : Fin 2) * 1024 + 1 * o.val = o.val; omega
  · show V c main_v30 (((cfg4.win 3).blk t).view.emb (ix2 p k)) = _
    refine congrArg (V c main_v30) ?_
    funext a; apply Fin.ext
    match a with
    | ⟨0, _⟩ => show win4_3.index t (0 : Fin 2) * 512 + 1 * p.val = t.val * 512 + p.val; omega
    | ⟨1, _⟩ => show win4_3.index t (1 : Fin 2) * 1024 + 1 * k.val = k.val; omega
  · show V c main_v31 (((cfg4.win 4).blk t).view.emb (ix2 (0 : Fin 1) o)) = _
    refine congrArg (V c main_v31) ?_
    funext a; apply Fin.ext
    match a with
    | ⟨0, _⟩ => show win4_4.index t (0 : Fin 2) * 1 + 1 * 0 = 0; omega
    | ⟨1, _⟩ => show win4_4.index t (1 : Fin 2) * 1024 + 1 * o.val = o.val; omega
  · show V c main_v32 (((cfg4.win 5).blk t).view.emb (ix2 (0 : Fin 1) o)) = _
    refine congrArg (V c main_v32) ?_
    funext a; apply Fin.ext
    match a with
    | ⟨0, _⟩ => show win4_5.index t (0 : Fin 2) * 1 + 1 * 0 = 0; omega
    | ⟨1, _⟩ => show win4_5.index t (1 : Fin 2) * 1024 + 1 * o.val = o.val; omega

theorem ln_mem (t : Fin cfg4.N) (i : S8192x1024.Idx) :
    i ∈ ((cfg4.win 6).blk t).view.set ↔ ∀ a : Fin 2, win4_6.index t a * S512x1024.size a ≤ (i a).val
      ∧ (i a).val < win4_6.index t a * S512x1024.size a + S512x1024.size a := by
  show i ∈ ((View.whole main_v33).slice (win4_6.rect t)).set ↔ _
  rw [View.set_slice_whole, Rect.mem_set_unit]
  exact Iff.rfl

/-- Row r of the result is in the block of grid point r / 512. -/
theorem ln_cover (i : S8192x1024.Idx) :
    ∃ t : Fin cfg4.N, (cfg4.win 6).flush t = true ∧ i ∈ ((cfg4.win 6).blk t).view.set := by
  have hi0 : (i 0).val < 8192 := (i 0).isLt
  have hi1 : (i 1).val < 1024 := (i 1).isLt
  have hq : (i 0).val / 512 < 16 := by omega
  refine ⟨⟨(i 0).val / 512, hq⟩, flush4_6 _, ?_⟩
  rw [ln_mem]
  obtain ⟨-, -, -, -, -, -, -, -, -, -, -, -, e6, e7⟩ := ln_index ⟨(i 0).val / 512, hq⟩
  intro a
  match a with
  | ⟨0, _⟩ =>
    show win4_6.index _ (0 : Fin 2) * 512 ≤ (i 0).val ∧ (i 0).val < win4_6.index _ (0 : Fin 2) * 512 + 512
    rw [e6]; show (i 0).val / 512 * 512 ≤ (i 0).val ∧ (i 0).val < (i 0).val / 512 * 512 + 512; omega
  | ⟨1, _⟩ =>
    show win4_6.index _ (1 : Fin 2) * 1024 ≤ (i 1).val ∧ (i 1).val < win4_6.index _ (1 : Fin 2) * 1024 + 1024
    rw [e7]; omega

/-- The output layer's result array. -/
theorem ln_final (c : Dev nD) :
    (dat4 V c).arrAt 6 cfg4.N
      = Mha.lnRows (V c main_v27) (V c main_v28) (V c main_v29) (V c main_v30) (V c main_v31) (V c main_v32) :=
  (dat4 V c).arrAt_eq_of_cover 6 _ (fun t _ => ln_flushed V c t) ln_cover

end Cert.KernelIdeal.Whole

end
-- ==== Proof.KernelRun.lean ====
/-
  The idealized kernel's run with every buffer the TensorCore holds at its last contents named.

  The program is eleven segments: six stretches of host operations and five pipelined regions between
  them.  The contents of the buffers at each boundary are a fold from the launch memory (the frame
  module's `W0 … W11`).  The run below is the same launch over the same segments as the frame's, read
  against the final state at EVERY unscoped buffer instead of at the arguments only: each ends at `W11`.
-/
import proofs.«171156_j2327872274493_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer outside a scope ends at the last
    boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.Whole

end
-- ==== Proof.WalkC.lean ====
/-
  The buffers of the idealized kernel at boundaries 9 to 11 of its run, as functions of the arguments: the output layer's
  operands and result, and the two arrays the program returns.  Unfolding the specification's names, these are the
  specification's `out` and `attn` of the thirteen arguments, and the run ends with exactly them.
-/
import proofs.«171156_j2327872274493_1_alg».proof.Proof.WalkB
import proofs.«171156_j2327872274493_1_alg».proof.Proof.RegionNorm
import proofs.«171156_j2327872274493_1_alg».proof.Proof.KernelRun
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem at9_v27 : W9 m ρ c (Proc.devRef .tc main_v27) = (Mha.toRows (shapeCast Mha.Tok (Mha.ctx (shapeCast Mha.Heads (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) Mha.castTokHeads) (shapeCast Mha.Heads (shapeCast Mha.Tok (Mha.linRows (Mha.toRows (m ((c : Thread nD τ).loc main_arg0))) (Mha.tr (m ((c : Thread nD τ).loc main_arg5))) (Mha.toRow (m ((c : Thread nD τ).loc main_arg6)))) Mha.castRowsTok) Mha.castTokHeads) (shapeCast Mha.Heads (shapeCast Mha.Tok (Mha.linRows (Mha.toRows (m ((c : Thread nD τ).loc main_arg1))) (Mha.tr (m ((c : Thread nD τ).loc main_arg7))) (Mha.toRow (m ((c : Thread nD τ).loc main_arg8)))) Mha.castRowsTok) Mha.castTokHeads)) Mha.castHeadsTok)) := by
  show StableHlo.after hostOps4 (W8 m ρ c) (Proc.devRef .tc main_v27) = _
  after_results
  rw [at8_v25_0 m ρ c]
  rfl

theorem at9_v28 : W9 m ρ c (Proc.devRef .tc main_v28) = (Mha.tr (m ((c : Thread nD τ).loc main_arg9))) := by
  show StableHlo.after hostOps4 (W8 m ρ c) (Proc.devRef .tc main_v28) = _
  after_results
  rw [at8_v3 m ρ c]
  rfl

theorem at9_v29 : W9 m ρ c (Proc.devRef .tc main_v29) = (Mha.toRow (m ((c : Thread nD τ).loc main_arg10))) := by
  show StableHlo.after hostOps4 (W8 m ρ c) (Proc.devRef .tc main_v29) = _
  after_results
  rw [at8_arg10 m ρ c]
  rfl

theorem at9_v30 : W9 m ρ c (Proc.devRef .tc main_v30) = (Mha.toRows (m ((c : Thread nD τ).loc main_arg2))) := by
  show StableHlo.after hostOps4 (W8 m ρ c) (Proc.devRef .tc main_v30) = _
  after_results
  rw [at8_arg2 m ρ c]
  rfl

theorem at9_v31 : W9 m ρ c (Proc.devRef .tc main_v31) = (Mha.toRow (m ((c : Thread nD τ).loc main_arg11))) := by
  show StableHlo.after hostOps4 (W8 m ρ c) (Proc.devRef .tc main_v31) = _
  after_results
  rw [at8_arg11 m ρ c]
  rfl

theorem at9_v32 : W9 m ρ c (Proc.devRef .tc main_v32) = (Mha.toRow (m ((c : Thread nD τ).loc main_arg12))) := by
  show StableHlo.after hostOps4 (W8 m ρ c) (Proc.devRef .tc main_v32) = _
  after_results
  rw [at8_arg12 m ρ c]
  rfl

theorem at10_v33 : W10 m ρ c (Proc.devRef .tc main_v33) = (Mha.lnRows (Mha.toRows (shapeCast Mha.Tok (Mha.ctx (shapeCast Mha.Heads (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) Mha.castTokHeads) (shapeCast Mha.Heads (shapeCast Mha.Tok (Mha.linRows (Mha.toRows (m ((c : Thread nD τ).loc main_arg0))) (Mha.tr (m ((c : Thread nD τ).loc main_arg5))) (Mha.toRow (m ((c : Thread nD τ).loc main_arg6)))) Mha.castRowsTok) Mha.castTokHeads) (shapeCast Mha.Heads (shapeCast Mha.Tok (Mha.linRows (Mha.toRows (m ((c : Thread nD τ).loc main_arg1))) (Mha.tr (m ((c : Thread nD τ).loc main_arg7))) (Mha.toRow (m ((c : Thread nD τ).loc main_arg8)))) Mha.castRowsTok) Mha.castTokHeads)) Mha.castHeadsTok)) (Mha.tr (m ((c : Thread nD τ).loc main_arg9))) (Mha.toRow (m ((c : Thread nD τ).loc main_arg10))) (Mha.toRows (m ((c : Thread nD τ).loc main_arg2))) (Mha.toRow (m ((c : Thread nD τ).loc main_arg11))) (Mha.toRow (m ((c : Thread nD τ).loc main_arg12)))) := by
  refine (W10_arr m ρ c 6).trans ((ln_final (V9 m ρ) c).trans ?_)
  show Mha.lnRows (W9 m ρ c (Proc.devRef .tc main_v27)) (W9 m ρ c (Proc.devRef .tc main_v28)) (W9 m ρ c (Proc.devRef .tc main_v29)) (W9 m ρ c (Proc.devRef .tc main_v30)) (W9 m ρ c (Proc.devRef .tc main_v31)) (W9 m ρ c (Proc.devRef .tc main_v32)) = _
  rw [at9_v27 m ρ c, at9_v28 m ρ c, at9_v29 m ρ c, at9_v30 m ρ c, at9_v31 m ρ c, at9_v32 m ρ c]

theorem at11_v34 : W11 m ρ c (Proc.devRef .tc main_v34) = (shapeCast Mha.Tok (Mha.lnRows (Mha.toRows (shapeCast Mha.Tok (Mha.ctx (shapeCast Mha.Heads (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) Mha.castTokHeads) (shapeCast Mha.Heads (shapeCast Mha.Tok (Mha.linRows (Mha.toRows (m ((c : Thread nD τ).loc main_arg0))) (Mha.tr (m ((c : Thread nD τ).loc main_arg5))) (Mha.toRow (m ((c : Thread nD τ).loc main_arg6)))) Mha.castRowsTok) Mha.castTokHeads) (shapeCast Mha.Heads (shapeCast Mha.Tok (Mha.linRows (Mha.toRows (m ((c : Thread nD τ).loc main_arg1))) (Mha.tr (m ((c : Thread nD τ).loc main_arg7))) (Mha.toRow (m ((c : Thread nD τ).loc main_arg8)))) Mha.castRowsTok) Mha.castTokHeads)) Mha.castHeadsTok)) (Mha.tr (m ((c : Thread nD τ).loc main_arg9))) (Mha.toRow (m ((c : Thread nD τ).loc main_arg10))) (Mha.toRows (m ((c : Thread nD τ).loc main_arg2))) (Mha.toRow (m ((c : Thread nD τ).loc main_arg11))) (Mha.toRow (m ((c : Thread nD τ).loc main_arg12)))) Mha.castRowsTok) := by
  show StableHlo.after hostOps5 (W10 m ρ c) (Proc.devRef .tc main_v34) = _
  after_results
  rw [at10_v33 m ρ c]
  rfl

theorem at9_v25_1 : W9 m ρ c (Proc.devRef .tc main_v25_1) = (Mha.prob (shapeCast Mha.Heads (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) Mha.castTokHeads) (shapeCast Mha.Heads (shapeCast Mha.Tok (Mha.linRows (Mha.toRows (m ((c : Thread nD τ).loc main_arg0))) (Mha.tr (m ((c : Thread nD τ).loc main_arg5))) (Mha.toRow (m ((c : Thread nD τ).loc main_arg6)))) Mha.castRowsTok) Mha.castTokHeads)) := by
  show StableHlo.after hostOps4 (W8 m ρ c) (Proc.devRef .tc main_v25_1) = _
  after_results
  all_goals exact at8_v25_1 m ρ c

theorem at10_v25_1 : W10 m ρ c (Proc.devRef .tc main_v25_1) = (Mha.prob (shapeCast Mha.Heads (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) Mha.castTokHeads) (shapeCast Mha.Heads (shapeCast Mha.Tok (Mha.linRows (Mha.toRows (m ((c : Thread nD τ).loc main_arg0))) (Mha.tr (m ((c : Thread nD τ).loc main_arg5))) (Mha.toRow (m ((c : Thread nD τ).loc main_arg6)))) Mha.castRowsTok) Mha.castTokHeads)) := (W10_of_ne m ρ c main_v25_1 (by decide)).trans (at9_v25_1 m ρ c)

theorem at11_v25_1 : W11 m ρ c (Proc.devRef .tc main_v25_1) = (Mha.prob (shapeCast Mha.Heads (shapeCast Mha.Tok (Mha.linRows (Mha.toRows (m ((c : Thread nD τ).loc main_arg2))) (Mha.tr (m ((c : Thread nD τ).loc main_arg3))) (Mha.toRow (m ((c : Thread nD τ).loc main_arg4)))) Mha.castRowsTok) Mha.castTokHeads) (shapeCast Mha.Heads (shapeCast Mha.Tok (Mha.linRows (Mha.toRows (m ((c : Thread nD τ).loc main_arg0))) (Mha.tr (m ((c : Thread nD τ).loc main_arg5))) (Mha.toRow (m ((c : Thread nD τ).loc main_arg6)))) Mha.castRowsTok) Mha.castTokHeads)) := by
  show StableHlo.after hostOps5 (W10 m ρ c) (Proc.devRef .tc main_v25_1) = _
  after_results
  all_goals exact at10_v25_1 m ρ c

/-- The first result: the normalised output of the thirteen arguments. -/
theorem out_value : W11 m ρ c (Proc.devRef .tc main_v34) = Mha.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (at11_v34 m ρ c).trans rfl

/-- The second result: the attention weights of the key, the query and their two layers. -/
theorem attn_value : W11 m ρ c (Proc.devRef .tc main_v25_1) = Mha.attn (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) :=
  (at11_v25_1 m ρ c).trans rfl

/-- Every weakly fair execution of the idealized kernel terminates, nothing faulting, with the two results at the
    specification's functions of the arguments and the arguments unchanged. -/
theorem value_run : θ_run defs (onTc (τ := τ) (main (F := Ideal))) ⟨m, fun _ => 0, ρ⟩ (fun r => ∀ c : Dev nD,
      r.2.mem ((c.tc : Thread nD τ).loc main_v34) = Mha.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_v25_1) = Mha.attn (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v34 (by decide))).trans (out_value m ρ c),
     (h c _ (mem_uc main_v25_1 (by decide))).trans (attn_value m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c)⟩)
    (run m ρ)

end Cert.KernelIdeal.Whole

end
-- ==== Proof.LibMergeRows.lean ====
/-
  Reshapes that merge or split the two LEADING axes of a rank-3 array, read at an index written by coordinates,
  for any element type and any extents.  A `[p, q, m]` array and the `[P, m]` array with the same row-major order
  (`P = p * q`) hold the same element at `(b, s, k)` and at `(b * q + s, k)`.  Each is the library's
  read-at-an-index lemma for a shape cast with the row-major arithmetic done.
-/
import Idealize.ShloMosaic.Lib.Pipeline.Value
import Idealize.ShloMosaic.Lib.ValueIdx

namespace Idealize.ShloMosaic.ValueIdx

open Idealize.ShloMosaic

variable {α : Type}

/-- A `[p, q, m]` array cast to `[P, m]` reads, at `(r, k)` with `r = b * q + s`, the operand at `(b, s, k)`. -/
theorem shapeCast_mergeRows_apply {p q P m : ℕ} (x : (⟨3, ![p, q, m]⟩ : Shape).Idx → α)
    (hc : (⟨3, ![p, q, m]⟩ : Shape).ShapeCasts ⟨2, ![P, m]⟩)
    (b : Fin p) (s : Fin q) (r : Fin P) (k : Fin m) (hr : r.val = b.val * q + s.val) :
    shapeCast ⟨2, ![P, m]⟩ x hc (ix2 r k) = x (ix3 b s k) :=
  shapeCast_apply x hc _ _ (by
    rw [Shape.rowMajor_val_three, Shape.rowMajor_val_two]
    show (b.val * q + s.val) * m + k.val = r.val * m + k.val
    rw [hr])

/-- A `[P, m]` array cast to `[p, q, m]` reads, at `(b, s, k)`, the operand at `(r, k)` with `r = b * q + s`. -/
theorem shapeCast_splitRows_apply {p q P m : ℕ} (y : (⟨2, ![P, m]⟩ : Shape).Idx → α)
    (hc : (⟨2, ![P, m]⟩ : Shape).ShapeCasts ⟨3, ![p, q, m]⟩)
    (b : Fin p) (s : Fin q) (r : Fin P) (k : Fin m) (hr : r.val = b.val * q + s.val) :
    shapeCast ⟨3, ![p, q, m]⟩ y hc (ix3 b s k) = y (ix2 r k) :=
  shapeCast_apply y hc _ _ (by
    rw [Shape.rowMajor_val_three, Shape.rowMajor_val_two]
    show r.val * m + k.val = (b.val * q + s.val) * m + k.val
    rw [hr])

end Idealize.ShloMosaic.ValueIdx
-- ==== Proof.RefProj.lean ====
/-
  The three input projections of the reference program are the specification's linear layer.

  The reference contracts a [8, 1024, 1024] token array with axis 1 of a weight matrix and adds a bias
  broadcast along the last axis.  The specification regroups the tokens as 8192 rows, multiplies by the
  transposed weight, adds the bias row, and regroups back.  Row r = b * 1024 + s of the row form is
  token (b, s), so both read the same sum at every (b, s, o).
-/
import proofs.«171156_j2327872274493_1_alg».proof.Proof.Gen.ReferenceIdeal.Read
import proofs.«171156_j2327872274493_1_alg».proof.Proof.Spec
import proofs.«171156_j2327872274493_1_alg».proof.Proof.LibMergeRows

noncomputable section

open scoped BigOperators
open Cert.ReferenceIdeal Cert.ReferenceIdeal.Read Idealize.ShloMosaic Idealize.ShloMosaic.ValueIdx

namespace Mha.Ref

/-! ## The specification's layout maps read at an index -/

/-- Row r = b * 1024 + s of the row form of a token array is token (b, s). -/
theorem toRows_apply (x : Mha.Tok.Idx → EReal) (b : Fin 8) (s : Fin 1024) (r : Fin 8192) (k : Fin 1024)
    (hr : r.val = b.val * 1024 + s.val) : Mha.toRows x (ix2 r k) = x (ix3 b s k) :=
  shapeCast_mergeRows_apply x Mha.castTokRows b s r k hr

/-- The transposed matrix at (k, o) is the matrix at (o, k). -/
theorem tr_apply (w : Mha.Sq.Idx → EReal) (k o : Fin 1024) : Mha.tr w (ix2 k o) = w (ix2 o k) :=
  transpose_apply _ w Mha.trSq (ix2 k o) (ix2 o k) (fun b => match b with
    | ⟨0, _⟩ => rfl
    | ⟨1, _⟩ => rfl)

/-- A vector laid as one row, at (0, o), is the vector at o. -/
theorem toRow_apply (b : Mha.Feat.Idx → EReal) (o : Fin 1024) : Mha.toRow b (ix2 (0 : Fin 1) o) = b (ix1 o) :=
  shapeCast_apply b Mha.castFeatRow _ _ (by
    rw [Shape.rowMajor_val_two, Shape.rowMajor_val_one]
    show o.val = 0 * 1024 + o.val
    omega)

/-- The 8192 rows regrouped as tokens, at (b, s, o), is row b * 1024 + s at o. -/
theorem rowsTok_apply (y : Mha.Rows.Idx → EReal) (b : Fin 8) (s : Fin 1024) (o : Fin 1024) :
    shapeCast Mha.Tok y Mha.castRowsTok (ix3 b s o)
      = y (ix2 (⟨b.val * 1024 + s.val, by omega⟩ : Fin 8192) o) :=
  shapeCast_splitRows_apply y Mha.castRowsTok b s _ o rfl

/-- The specification's linear layer, regrouped as tokens, read at (b, s, o). -/
theorem linTok_apply (x : Mha.Tok.Idx → EReal) (w : Mha.Sq.Idx → EReal) (bias : Mha.Feat.Idx → EReal)
    (b : Fin 8) (s : Fin 1024) (o : Fin 1024) :
    shapeCast Mha.Tok (Mha.linRows (Mha.toRows x) (Mha.tr w) (Mha.toRow bias)) Mha.castRowsTok (ix3 b s o)
      = (∑ k : Fin 1024, x (ix3 b s k) * w (ix2 o k)) + bias (ix1 o) := by
  rw [rowsTok_apply]
  show (∑ k : Fin 1024, Mha.toRows x (ix2 (⟨b.val * 1024 + s.val, by omega⟩ : Fin 8192) k) * Mha.tr w (ix2 k o))
      + Mha.toRow bias (ix2 (0 : Fin 1) o) = _
  rw [toRow_apply]
  refine congrArg (· + bias (ix1 o)) (Finset.sum_congr rfl fun k _ => ?_)
  rw [toRows_apply x b s _ k rfl, tr_apply]

/-! ## The reference's projections read at an index -/

theorem lidx_v0_ix3 (b : Fin 8) (s o k : Fin 1024) : lidx_main_v0 (ix3 b s o) k = ix3 b s k := by
  funext a; match a with | ⟨0, _⟩ => rfl | ⟨1, _⟩ => rfl | ⟨2, _⟩ => rfl

theorem ridx_v0_ix3 (b : Fin 8) (s o k : Fin 1024) : ridx_main_v0 (ix3 b s o) k = ix2 o k := by
  funext a; match a with | ⟨0, _⟩ => rfl | ⟨1, _⟩ => rfl

theorem bias_idx_ix3 (b : Fin 8) (s o : Fin 1024) : idx_main_v1 (idx_main_v2 (ix3 b s o)) = ix1 o := by
  funext a; match a with | ⟨0, _⟩ => rfl

/-- The key projection of the reference at (b, s, o). -/
theorem v3_apply (x : (⟨S8x1024x1024, .f32⟩ : BufTy).Contents (Elt Ideal)) (w : (⟨S1024x1024, .f32⟩ : BufTy).Contents (Elt Ideal))
    (bias : (⟨S1024, .f32⟩ : BufTy).Contents (Elt Ideal)) (b : Fin 8) (s : Fin 1024) (o : Fin 1024) :
    val_main_v3 (F := Ideal) x w bias (ix3 b s o) = (∑ k : Fin 1024, x (ix3 b s k) * w (ix2 o k)) + bias (ix1 o) := by
  rw [val_main_v3_apply, val_main_v0_apply, val_main_v2_apply, val_main_v1_apply, bias_idx_ix3, Ideal.addf_def]
  refine congrArg (· + bias (ix1 o)) (Finset.sum_congr rfl fun k _ => ?_)
  rw [lidx_v0_ix3, ridx_v0_ix3]

/-- The three projections are one expression of their three arguments. -/
theorem v7_eq_v3 (x : (⟨S8x1024x1024, .f32⟩ : BufTy).Contents (Elt Ideal)) (w : (⟨S1024x1024, .f32⟩ : BufTy).Contents (Elt Ideal))
    (bias : (⟨S1024, .f32⟩ : BufTy).Contents (Elt Ideal)) :
    val_main_v7 (F := Ideal) x w bias = val_main_v3 (F := Ideal) x w bias := rfl

theorem v11_eq_v3 (x : (⟨S8x1024x1024, .f32⟩ : BufTy).Contents (Elt Ideal)) (w : (⟨S1024x1024, .f32⟩ : BufTy).Contents (Elt Ideal))
    (bias : (⟨S1024, .f32⟩ : BufTy).Contents (Elt Ideal)) :
    val_main_v11 (F := Ideal) x w bias = val_main_v3 (F := Ideal) x w bias := rfl

/-- THE PROJECTION: the specification's linear layer regrouped as tokens is the reference's projection. -/
theorem lin_eq_v3 (x : (⟨S8x1024x1024, .f32⟩ : BufTy).Contents (Elt Ideal)) (w : (⟨S1024x1024, .f32⟩ : BufTy).Contents (Elt Ideal))
    (bias : (⟨S1024, .f32⟩ : BufTy).Contents (Elt Ideal)) :
    shapeCast Mha.Tok (Mha.linRows (Mha.toRows x) (Mha.tr w) (Mha.toRow bias)) Mha.castRowsTok
      = val_main_v3 (F := Ideal) x w bias := by
  funext i
  obtain ⟨b, s, o, rfl⟩ : ∃ (b : Fin 8) (s : Fin 1024) (o : Fin 1024), i = ix3 b s o := ⟨i 0, i 1, i 2, eq_ix3 i⟩
  exact (linTok_apply x w bias b s o).trans (v3_apply x w bias b s o).symm

/-- The projected heads of the specification are the reference's reshaped projections. -/
theorem headsOf_eq_v12 (x : (⟨S8x1024x1024, .f32⟩ : BufTy).Contents (Elt Ideal)) (w : (⟨S1024x1024, .f32⟩ : BufTy).Contents (Elt Ideal))
    (bias : (⟨S1024, .f32⟩ : BufTy).Contents (Elt Ideal)) :
    Mha.headsOf x w bias = val_main_v12 (F := Ideal) x w bias := by
  unfold Mha.headsOf Mha.rowsToHeads val_main_v12
  rw [lin_eq_v3]

theorem headsOf_eq_v13 (x : (⟨S8x1024x1024, .f32⟩ : BufTy).Contents (Elt Ideal)) (w : (⟨S1024x1024, .f32⟩ : BufTy).Contents (Elt Ideal))
    (bias : (⟨S1024, .f32⟩ : BufTy).Contents (Elt Ideal)) :
    Mha.headsOf x w bias = val_main_v13 (F := Ideal) x w bias := by
  unfold Mha.headsOf Mha.rowsToHeads val_main_v13
  rw [lin_eq_v3, v7_eq_v3]

theorem headsOf_eq_v14 (x : (⟨S8x1024x1024, .f32⟩ : BufTy).Contents (Elt Ideal)) (w : (⟨S1024x1024, .f32⟩ : BufTy).Contents (Elt Ideal))
    (bias : (⟨S1024, .f32⟩ : BufTy).Contents (Elt Ideal)) :
    Mha.headsOf x w bias = val_main_v14 (F := Ideal) x w bias := by
  unfold Mha.headsOf Mha.rowsToHeads val_main_v14
  rw [lin_eq_v3, v11_eq_v3]

end Mha.Ref

end
-- ==== Proof.LibRowMax.lean ====
import Idealize.ShloMosaic.Lib.ValueIdx
import Idealize.ShloMosaic.PureOps.Ideal.Laws

/-!
  A ROW MAXIMUM AS A FOLD.

  The host's reduction with a maximum body over the LAST axis of a rank-2 array `x : [N, J]` is, at the ideal
  values and at row `r`, the fold of `max` from the initial value over the row's entries `x (r, c')`, `c' < J`.
  The maximum is commutative and associative, so the order in which the host visits the row does not matter.
  The f32 word `0xFF800000` reads as `-∞`, the least extended real, so a fold of `max` from it is the maximum of
  the entries alone; the f32 word `0x00000000` reads as `0`.
-/

open Idealize.ShloMosaic Idealize.ShloMosaic.ValueIdx

namespace RowMax

variable {N J : Nat}

/-- Dropping the last axis of `[N, J]` leaves `[N]`, a shape with an axis: the host's shape fact gives the
    vector reduction's. -/
theorem reduces_of_reducesTo (h' : (⟨2, ![N, J]⟩ : Shape).ReducesTo [1] (⟨1, ![N]⟩ : Shape)) :
    (⟨2, ![N, J]⟩ : Shape).Reduces [1] (⟨1, ![N]⟩ : Shape) :=
  ⟨h'.1, Nat.one_pos, h'.2⟩

/-- Row `r` with column `k` put back is `(r, k)`. -/
theorem lift_ix2 (h : (⟨2, ![N, J]⟩ : Shape).Reduces [1] (⟨1, ![N]⟩ : Shape)) (r : Fin N)
    (k : Fin ((⟨2, ![N, J]⟩ : Shape).size 1)) :
    h.lift (ix1 r) k = ix2 r (⟨k.val, k.isLt⟩ : Fin J) := by
  funext c; apply Fin.ext
  fin_cases c <;> rfl

/-- THE ROW MAXIMUM AT A ROW: the fold of `max` from the initial value's element over the row's entries. -/
theorem hostReduce_maximumf_rows {φ : FTy} {u : Shape} (x : FVec Ideal ⟨2, ![N, J]⟩ φ) (init : u.Idx → Ideal φ)
    (h' : (⟨2, ![N, J]⟩ : Shape).ReducesTo [1] (⟨1, ![N]⟩ : Shape)) (hu : 0 < u.numel) (r : Fin N) :
    Host.reduce FloatOps.maximumf x init h' hu (ix1 r)
      = (Finset.univ : Finset (Fin J)).fold max (init (Shape.Idx.first hu)) (fun c' => x (ix2 r c')) := by
  have h := reduces_of_reducesTo h'
  rw [Host.reduce_eq_fold_single FloatOps.maximumf x init h' h hu]
  have hf : (x ∘ h.lift (ix1 r)) = fun c' : Fin J => x (ix2 r c') :=
    funext fun k => congrArg x (lift_ix2 h r k)
  exact congrArg (fun f => Finset.fold max (init (Shape.Idx.first hu)) f (Finset.univ : Finset (Fin J))) hf

/-- The same from a constant initial value `v`. -/
theorem hostReduce_maximumf_rows_const {φ : FTy} {u : Shape} (x : FVec Ideal ⟨2, ![N, J]⟩ φ) (v : Ideal φ)
    (h' : (⟨2, ![N, J]⟩ : Shape).ReducesTo [1] (⟨1, ![N]⟩ : Shape)) (hu : 0 < u.numel) (r : Fin N) :
    Host.reduce FloatOps.maximumf x (fun _ : u.Idx => v) h' hu (ix1 r)
      = (Finset.univ : Finset (Fin J)).fold max v (fun c' => x (ix2 r c')) :=
  hostReduce_maximumf_rows x (fun _ : u.Idx => v) h' hu r

/-- The same from a constant array holding the word `b`: the fold starts from what `b` reads as. -/
theorem hostReduce_maximumf_rows_constant {φ : FTy} {u : Shape} (x : FVec Ideal ⟨2, ![N, J]⟩ φ) (b : BitVec φ.bits)
    (h' : (⟨2, ![N, J]⟩ : Shape).ReducesTo [1] (⟨1, ![N]⟩ : Shape)) (hu : 0 < u.numel) (r : Fin N) :
    Host.reduce FloatOps.maximumf x (constant (F := Ideal) u φ b) h' hu (ix1 r)
      = (Finset.univ : Finset (Fin J)).fold max (Ideal.ofBits φ b) (fun c' => x (ix2 r c')) :=
  hostReduce_maximumf_rows x (constant (F := Ideal) u φ b) h' hu r

/-! ## Two f32 words -/

/-- The f32 word `0xFF800000` is `-∞`, the least extended real. -/
theorem ofBits_ninf_f32 : Ideal.ofBits .f32 0xFF800000#32 = ⊥ := by
  simp [Ideal.ofBits, Ideal.ieee]

/-- So the maximum of it with anything is that thing. -/
theorem max_ninf_left (y : EReal) : max (Ideal.ofBits .f32 0xFF800000#32) y = y := by
  rw [ofBits_ninf_f32]; exact max_bot_left y

theorem max_ninf_right (y : EReal) : max y (Ideal.ofBits .f32 0xFF800000#32) = y := by
  rw [ofBits_ninf_f32]; exact max_bot_right y

/-- The f32 word `0x00000000` is `0`. -/
theorem ofBits_zero_f32 : Ideal.ofBits .f32 0x00000000#32 = 0 := Ideal.ofBits_zero_f32

end RowMax
-- ==== Proof.LibRowMax3.lean ====
import Idealize.ShloMosaic.Lib.ValueIdx
import Idealize.ShloMosaic.PureOps.Ideal.Laws

/-!
  A MAXIMUM OVER THE LAST AXIS OF A RANK-3 ARRAY AS A FOLD.

  The host's reduction with a maximum body over the LAST axis of `x : [A, B, J]` is, at the ideal values and
  at `(a, r)`, the fold of `max` from the initial value over the entries `x (a, r, c')`, `c' < J`.  The
  maximum is commutative and associative, so the order in which the host visits the axis does not matter.
-/

open Idealize.ShloMosaic Idealize.ShloMosaic.ValueIdx

namespace RowMax3

variable {A B J : Nat}

/-- Dropping the last axis of `[A, B, J]` leaves `[A, B]`, a shape with an axis: the host's shape fact gives
    the vector reduction's. -/
theorem reduces_of_reducesTo (h' : (⟨3, ![A, B, J]⟩ : Shape).ReducesTo [2] (⟨2, ![A, B]⟩ : Shape)) :
    (⟨3, ![A, B, J]⟩ : Shape).Reduces [2] (⟨2, ![A, B]⟩ : Shape) :=
  ⟨h'.1, Nat.succ_pos 1, h'.2⟩

/-- `(a, r)` with the last coordinate `k` put back is `(a, r, k)`. -/
theorem lift_ix3 (h : (⟨3, ![A, B, J]⟩ : Shape).Reduces [2] (⟨2, ![A, B]⟩ : Shape)) (a : Fin A) (r : Fin B)
    (k : Fin ((⟨3, ![A, B, J]⟩ : Shape).size 2)) :
    h.lift (ix2 a r) k = ix3 a r (⟨k.val, k.isLt⟩ : Fin J) := by
  funext c; apply Fin.ext
  fin_cases c <;> rfl

/-- THE MAXIMUM AT `(a, r)`: the fold of `max` from the initial value's element over the last axis. -/
theorem hostReduce_maximumf_last {φ : FTy} {u : Shape} (x : FVec Ideal ⟨3, ![A, B, J]⟩ φ) (init : u.Idx → Ideal φ)
    (h' : (⟨3, ![A, B, J]⟩ : Shape).ReducesTo [2] (⟨2, ![A, B]⟩ : Shape)) (hu : 0 < u.numel)
    (a : Fin A) (r : Fin B) :
    Host.reduce FloatOps.maximumf x init h' hu (ix2 a r)
      = (Finset.univ : Finset (Fin J)).fold max (init (Shape.Idx.first hu)) (fun c' => x (ix3 a r c')) := by
  have h := reduces_of_reducesTo h'
  rw [Host.reduce_eq_fold_single FloatOps.maximumf x init h' h hu]
  have hf : (x ∘ h.lift (ix2 a r)) = fun c' : Fin J => x (ix3 a r c') :=
    funext fun k => congrArg x (lift_ix3 h a r k)
  exact congrArg (fun f => Finset.fold max (init (Shape.Idx.first hu)) f (Finset.univ : Finset (Fin J))) hf

/-- The same from a constant array holding the word `b`: the fold starts from what `b` reads as. -/
theorem hostReduce_maximumf_last_constant {φ : FTy} {u : Shape} (x : FVec Ideal ⟨3, ![A, B, J]⟩ φ) (b : BitVec φ.bits)
    (h' : (⟨3, ![A, B, J]⟩ : Shape).ReducesTo [2] (⟨2, ![A, B]⟩ : Shape)) (hu : 0 < u.numel)
    (a : Fin A) (r : Fin B) :
    Host.reduce FloatOps.maximumf x (constant (F := Ideal) u φ b) h' hu (ix2 a r)
      = (Finset.univ : Finset (Fin J)).fold max (Ideal.ofBits φ b) (fun c' => x (ix3 a r c')) :=
  hostReduce_maximumf_last x (constant (F := Ideal) u φ b) h' hu a r

end RowMax3
-- ==== Proof.RefAttn.lean ====
/-
  The attention weights of the reference program are the specification's softmax weights.

  With q and k the projected queries and keys regrouped by head, the reference forms, for head h and
  positions s, t: the inner product of q(h, s, ·) and k(h, t, ·) times one half (the score); the
  maximum of row s of the scores, folded from -∞ and then once more joined with -∞; the exponential of
  the score minus that maximum; the sum of row s of the exponentials, from 0; and their quotient.  Each
  is the specification's function of the same name at (s, t) for the head's q and k.
-/
import proofs.«171156_j2327872274493_1_alg».proof.Proof.Gen.ReferenceIdeal.Read
import proofs.«171156_j2327872274493_1_alg».proof.Proof.Spec
import proofs.«171156_j2327872274493_1_alg».proof.Proof.LibRowMax
import proofs.«171156_j2327872274493_1_alg».proof.Proof.LibRowMax3
import proofs.«171156_j2327872274493_1_alg».proof.Proof.RefProj

noncomputable section

open scoped BigOperators
open Cert.ReferenceIdeal Cert.ReferenceIdeal.Gen Cert.ReferenceIdeal.Read Idealize.ShloMosaic Idealize.ShloMosaic.ValueIdx

namespace Mha.Ref

section
variable (x0 x2 : (⟨S8x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))

/-- Head h of the reference's queries, as a function of position and head feature. -/
abbrev qH (x2 : (⟨S8x1024x1024, .f32⟩ : BufTy).Contents (Elt Ideal)) (x3 : (⟨S1024x1024, .f32⟩ : BufTy).Contents (Elt Ideal))
    (x4 : (⟨S1024, .f32⟩ : BufTy).Contents (Elt Ideal)) (h : Fin 128) : Fin 1024 → Fin 64 → EReal :=
  fun s d => val_main_v14 (F := Ideal) x2 x3 x4 (ix3 h s d)

/-- Head h of the reference's keys. -/
abbrev kH (x0 : (⟨S8x1024x1024, .f32⟩ : BufTy).Contents (Elt Ideal)) (x5 : (⟨S1024x1024, .f32⟩ : BufTy).Contents (Elt Ideal))
    (x6 : (⟨S1024, .f32⟩ : BufTy).Contents (Elt Ideal)) (h : Fin 128) : Fin 1024 → Fin 64 → EReal :=
  fun t d => val_main_v12 (F := Ideal) x0 x5 x6 (ix3 h t d)

theorem lidx_v15_ix3 (h : Fin 128) (s t : Fin 1024) (d : Fin 64) : lidx_main_v15 (ix3 h s t) d = ix3 h s d := by
  funext a; match a with | ⟨0, _⟩ => rfl | ⟨1, _⟩ => rfl | ⟨2, _⟩ => rfl

theorem ridx_v15_ix3 (h : Fin 128) (s t : Fin 1024) (d : Fin 64) : ridx_main_v15 (ix3 h s t) d = ix3 h t d := by
  funext a; match a with | ⟨0, _⟩ => rfl | ⟨1, _⟩ => rfl | ⟨2, _⟩ => rfl

/-- The scaled scores. -/
theorem v17_ix3 (h : Fin 128) (s t : Fin 1024) :
    val_main_v17 (F := Ideal) x0 x2 x3 x4 x5 x6 (ix3 h s t) = Mha.scoreF (qH x2 x3 x4 h) (kH x0 x5 x6 h) s t := by
  rw [val_main_v17_apply, val_main_v15_apply, val_main_v16_apply, val_main_cst_apply, Ideal.mulf_def, Ideal.ofBits_def]
  unfold Mha.scoreF Mha.half
  refine congrArg (· * Ideal.ofBits .f32 0x3F000000#32) (Finset.sum_congr rfl fun d _ => ?_)
  rw [lidx_v15_ix3, ridx_v15_ix3]

/-- The row maximum of the scores. -/
theorem v18_ix2 (h : Fin 128) (s : Fin 1024) :
    val_main_v18 (F := Ideal) x0 x2 x3 x4 x5 x6 (ix2 h s) = Mha.rowMaxF (qH x2 x3 x4 h) (kH x0 x5 x6 h) s := by
  unfold val_main_v18
  refine (RowMax3.hostReduce_maximumf_last (val_main_v17 (F := Ideal) x0 x2 x3 x4 x5 x6) (val_main_cst_0 (F := Ideal))
    reducesTo_S128x1024x1024_S128x1024_d2 h_S_ h s).trans ?_
  unfold Mha.rowMaxF Mha.ninf
  rw [val_main_cst_0_apply, Ideal.ofBits_def]
  exact congrArg (fun f => Finset.fold max (Ideal.ofBits .f32 0xFF800000#32) f (Finset.univ : Finset (Fin 1024)))
    (funext fun t => v17_ix3 x0 x2 x3 x4 x5 x6 h s t)

theorem idx_v22_ix3 (h : Fin 128) (s t : Fin 1024) : idx_main_v21 (idx_main_v22 (ix3 h s t)) = ix2 h s := by
  funext a; match a with | ⟨0, _⟩ => rfl | ⟨1, _⟩ => rfl

/-- The row maximum laid along the row. -/
theorem v22_ix3 (h : Fin 128) (s t : Fin 1024) :
    val_main_v22 (F := Ideal) x0 x2 x3 x4 x5 x6 (ix3 h s t) = Mha.rowMaxF (qH x2 x3 x4 h) (kH x0 x5 x6 h) s := by
  rw [val_main_v22_apply, val_main_v21_apply, idx_v22_ix3, val_main_v20_apply, val_main_v19_apply, val_main_cst_1_apply,
    Ideal.maximumf_def, Ideal.ofBits_def, RowMax.max_ninf_left, v18_ix2]

/-- The exponentials. -/
theorem v24_ix3 (h : Fin 128) (s t : Fin 1024) :
    val_main_v24 (F := Ideal) x0 x2 x3 x4 x5 x6 (ix3 h s t) = Mha.exF (qH x2 x3 x4 h) (kH x0 x5 x6 h) s t := by
  rw [val_main_v24_apply, val_main_v23_apply, v17_ix3, v22_ix3, Ideal.subf_def, Ideal.hostUnary_exp_def]
  rfl

theorem idx_v27_ix3 (h : Fin 128) (s t : Fin 1024) : idx_main_v26 (idx_main_v27 (ix3 h s t)) = ix2 h s := by
  funext a; match a with | ⟨0, _⟩ => rfl | ⟨1, _⟩ => rfl

theorem idx_v25_ix2 (h : Fin 128) (s t : Fin 1024) : idx_main_v25 (ix2 h s) t = ix3 h s t := by
  funext a; match a with | ⟨0, _⟩ => rfl | ⟨1, _⟩ => rfl | ⟨2, _⟩ => rfl

/-- The row sums of the exponentials. -/
theorem v25_ix2 (h : Fin 128) (s : Fin 1024) :
    val_main_v25 (F := Ideal) x0 x2 x3 x4 x5 x6 (ix2 h s) = Mha.denF (qH x2 x3 x4 h) (kH x0 x5 x6 h) s := by
  rw [val_main_v25_apply, val_main_cst_2_apply, Ideal.ofBits_def, Ideal.ofBits_zero_f32, zero_add]
  unfold Mha.denF
  refine Finset.sum_congr rfl fun t _ => ?_
  rw [idx_v25_ix2, v24_ix3]

/-- THE WEIGHTS at (h, s, t). -/
theorem v28_ix3 (h : Fin 128) (s t : Fin 1024) :
    val_main_v28 (F := Ideal) x0 x2 x3 x4 x5 x6 (ix3 h s t) = Mha.probF (qH x2 x3 x4 h) (kH x0 x5 x6 h) s t := by
  rw [val_main_v28_apply, val_main_v27_apply, val_main_v26_apply, idx_v27_ix3, v25_ix2, v24_ix3, Ideal.hostDivf_def]
  rfl

/-- The reference's weights are the specification's, of the reference's heads. -/
theorem v28_eq_prob :
    val_main_v28 (F := Ideal) x0 x2 x3 x4 x5 x6
      = Mha.prob (val_main_v14 (F := Ideal) x2 x3 x4) (val_main_v12 (F := Ideal) x0 x5 x6) := by
  funext i
  obtain ⟨h, s, t, rfl⟩ : ∃ (h : Fin 128) (s : Fin 1024) (t : Fin 1024), i = ix3 h s t := ⟨i 0, i 1, i 2, eq_ix3 i⟩
  exact v28_ix3 x0 x2 x3 x4 x5 x6 h s t

end

/-- THE SECOND RESULT: the reference's attention weights are the specification's. -/
theorem attn_eq (x0 x2 : (⟨S8x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    Cert.ReferenceIdeal.Read.val_main_v28 (F := Ideal) x0 x2 x3 x4 x5 x6 = Mha.attn x0 x2 x3 x4 x5 x6 := by
  unfold Mha.attn
  rw [headsOf_eq_v14, headsOf_eq_v12]
  exact v28_eq_prob x0 x2 x3 x4 x5 x6

end Mha.Ref

end
-- ==== Proof.RefCtx.lean ====
/-
  The context rows of the reference program are the specification's.

  For head h the reference multiplies the weights (h, s, ·) into the values (h, ·, d) and then regroups
  the heads as tokens; the specification's context is the same weighted sum, regrouped the same way.
-/
import proofs.«171156_j2327872274493_1_alg».proof.Proof.Gen.ReferenceIdeal.Read
import proofs.«171156_j2327872274493_1_alg».proof.Proof.Spec
import proofs.«171156_j2327872274493_1_alg».proof.Proof.RefProj
import proofs.«171156_j2327872274493_1_alg».proof.Proof.RefAttn

noncomputable section

open scoped BigOperators
open Cert.ReferenceIdeal Cert.ReferenceIdeal.Gen Cert.ReferenceIdeal.Read Idealize.ShloMosaic Idealize.ShloMosaic.ValueIdx

namespace Mha.Ref

section
variable (x0 x1 x2 : (⟨S8x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))

/-- Head h of the reference's values. -/
abbrev vH (x1 : (⟨S8x1024x1024, .f32⟩ : BufTy).Contents (Elt Ideal)) (x7 : (⟨S1024x1024, .f32⟩ : BufTy).Contents (Elt Ideal)) (x8 : (⟨S1024, .f32⟩ : BufTy).Contents (Elt Ideal)) (h : Fin 128) : Fin 1024 → Fin 64 → EReal :=
  fun t d => val_main_v13 (F := Ideal) x1 x7 x8 (ix3 h t d)

theorem lidx_v29_ix3 (h : Fin 128) (s : Fin 1024) (d : Fin 64) (t : Fin 1024) : lidx_main_v29 (ix3 h s d) t = ix3 h s t := by
  funext a; match a with | ⟨0, _⟩ => rfl | ⟨1, _⟩ => rfl | ⟨2, _⟩ => rfl

theorem ridx_v29_ix3 (h : Fin 128) (s : Fin 1024) (d : Fin 64) (t : Fin 1024) : ridx_main_v29 (ix3 h s d) t = ix3 h t d := by
  funext a; match a with | ⟨0, _⟩ => rfl | ⟨1, _⟩ => rfl | ⟨2, _⟩ => rfl

/-- The context at (h, s, d). -/
theorem v29_ix3 (h : Fin 128) (s : Fin 1024) (d : Fin 64) :
    val_main_v29 (F := Ideal) x0 x1 x2 x3 x4 x5 x6 x7 x8 (ix3 h s d)
      = Mha.ctxF (qH x2 x3 x4 h) (kH x0 x5 x6 h) (vH x1 x7 x8 h) s d := by
  rw [val_main_v29_apply]
  unfold Mha.ctxF
  refine Finset.sum_congr rfl fun t _ => ?_
  rw [lidx_v29_ix3, ridx_v29_ix3, v28_ix3]

/-- The reference's context is the specification's, of the reference's heads. -/
theorem v29_eq_ctx :
    val_main_v29 (F := Ideal) x0 x1 x2 x3 x4 x5 x6 x7 x8
      = Mha.ctx (val_main_v14 (F := Ideal) x2 x3 x4) (val_main_v12 (F := Ideal) x0 x5 x6) (val_main_v13 (F := Ideal) x1 x7 x8) := by
  funext i
  obtain ⟨h, s, d, rfl⟩ : ∃ (h : Fin 128) (s : Fin 1024) (d : Fin 64), i = ix3 h s d := ⟨i 0, i 1, i 2, eq_ix3 i⟩
  exact v29_ix3 x0 x1 x2 x3 x4 x5 x6 x7 x8 h s d

/-- The specification's context rows are the reference's context, regrouped as tokens and then as rows. -/
theorem ctxRows_eq_v30 :
    Mha.headsToRows (Mha.ctx (Mha.headsOf x2 x3 x4) (Mha.headsOf x0 x5 x6) (Mha.headsOf x1 x7 x8))
      = Mha.toRows (val_main_v30 (F := Ideal) x0 x1 x2 x3 x4 x5 x6 x7 x8) := by
  unfold Mha.headsToRows Mha.toRows val_main_v30
  rw [headsOf_eq_v14 x2 x3 x4, headsOf_eq_v12 x0 x5 x6, headsOf_eq_v13 x1 x7 x8, v29_eq_ctx]

end

end Mha.Ref

end
-- ==== Proof.RefNorm.lean ====
/-
  The output layer of the reference program is the specification's, row by row.

  For token (b, s) the reference multiplies the context row into the transposed output weight, adds the
  bias and the residual row (as residual + (product + bias); the specification writes (residual + product)
  + bias, the same sum), takes the mean and the variance of the row as sums from 0 divided by the word
  for 1024, and returns (row - mean) * rsqrt(variance + the small constant) * gamma + beta.
-/
import proofs.«171156_j2327872274493_1_alg».proof.Proof.Gen.ReferenceIdeal.Read
import proofs.«171156_j2327872274493_1_alg».proof.Proof.Spec
import proofs.«171156_j2327872274493_1_alg».proof.Proof.RefProj
import proofs.«171156_j2327872274493_1_alg».proof.Proof.RefAttn
import proofs.«171156_j2327872274493_1_alg».proof.Proof.RefCtx

noncomputable section

open scoped BigOperators
open Cert.ReferenceIdeal Cert.ReferenceIdeal.Gen Cert.ReferenceIdeal.Read Idealize.ShloMosaic Idealize.ShloMosaic.ValueIdx

namespace Mha.Ref

/-! ## The specification's output layer, regrouped as tokens, read at (b, s, o) -/

theorem lnTok_apply (c : Mha.Tok.Idx → EReal) (w : Mha.Sq.Idx → EReal) (bias : Mha.Feat.Idx → EReal) (res : Mha.Tok.Idx → EReal)
    (g β : Mha.Feat.Idx → EReal) (b : Fin 8) (s : Fin 1024) (o : Fin 1024) :
    shapeCast Mha.Tok (Mha.lnRows (Mha.toRows c) (Mha.tr w) (Mha.toRow bias) (Mha.toRows res) (Mha.toRow g) (Mha.toRow β))
        Mha.castRowsTok (ix3 b s o)
      = Mha.lnF (fun k => c (ix3 b s k)) (fun k o => w (ix2 o k)) (fun o => bias (ix1 o)) (fun o => res (ix3 b s o))
          (fun o => g (ix1 o)) (fun o => β (ix1 o)) o := by
  rw [rowsTok_apply]
  have h1 : (fun k : Fin 1024 => Mha.toRows c (ix2 (⟨b.val * 1024 + s.val, by omega⟩ : Fin 8192) k)) = fun k => c (ix3 b s k) :=
    funext fun k => toRows_apply c b s _ k rfl
  have h2 : (fun k o : Fin 1024 => Mha.tr w (ix2 k o)) = fun k o => w (ix2 o k) :=
    funext fun k => funext fun o => tr_apply w k o
  have h3 : (fun o : Fin 1024 => Mha.toRow bias (ix2 (0 : Fin 1) o)) = fun o => bias (ix1 o) :=
    funext fun o => toRow_apply bias o
  have h4 : (fun o : Fin 1024 => Mha.toRows res (ix2 (⟨b.val * 1024 + s.val, by omega⟩ : Fin 8192) o)) = fun o => res (ix3 b s o) :=
    funext fun o => toRows_apply res b s _ o rfl
  have h5 : (fun o : Fin 1024 => Mha.toRow g (ix2 (0 : Fin 1) o)) = fun o => g (ix1 o) :=
    funext fun o => toRow_apply g o
  have h6 : (fun o : Fin 1024 => Mha.toRow β (ix2 (0 : Fin 1) o)) = fun o => β (ix1 o) :=
    funext fun o => toRow_apply β o
  show Mha.lnF (fun k : Fin 1024 => Mha.toRows c (ix2 (⟨b.val * 1024 + s.val, by omega⟩ : Fin 8192) k))
      (fun k o : Fin 1024 => Mha.tr w (ix2 k o)) (fun o : Fin 1024 => Mha.toRow bias (ix2 (0 : Fin 1) o))
      (fun o : Fin 1024 => Mha.toRows res (ix2 (⟨b.val * 1024 + s.val, by omega⟩ : Fin 8192) o))
      (fun o : Fin 1024 => Mha.toRow g (ix2 (0 : Fin 1) o)) (fun o : Fin 1024 => Mha.toRow β (ix2 (0 : Fin 1) o)) o = _
  rw [h1, h2, h3, h4, h5, h6]

/-! ## The reference's output layer read at (b, s, o) -/

section
variable (x0 x1 x2 : (⟨S8x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 x11 x12 : (⟨S1024, .f32⟩ : BufTy).Contents (Elt Ideal))

/-- Row (b, s) of the reference's regrouped context. -/
abbrev cR (x0 x1 x2 : (⟨S8x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (b : Fin 8) (s : Fin 1024) : Fin 1024 → EReal :=
  fun k => val_main_v30 (F := Ideal) x0 x1 x2 x3 x4 x5 x6 x7 x8 (ix3 b s k)
/-- The output weight, transposed. -/
abbrev wR (x9 : (⟨S1024x1024, .f32⟩ : BufTy).Contents (Elt Ideal)) : Fin 1024 → Fin 1024 → EReal := fun k o => x9 (ix2 o k)
/-- A feature vector as a function of the feature. -/
abbrev vecR (v : (⟨S1024, .f32⟩ : BufTy).Contents (Elt Ideal)) : Fin 1024 → EReal := fun o => v (ix1 o)
/-- Row (b, s) of the residual. -/
abbrev resR (x2 : (⟨S8x1024x1024, .f32⟩ : BufTy).Contents (Elt Ideal)) (b : Fin 8) (s : Fin 1024) : Fin 1024 → EReal := fun o => x2 (ix3 b s o)

theorem lidx_v31_ix3 (b : Fin 8) (s o k : Fin 1024) : lidx_main_v31 (ix3 b s o) k = ix3 b s k := by
  funext a; match a with | ⟨0, _⟩ => rfl | ⟨1, _⟩ => rfl | ⟨2, _⟩ => rfl

theorem ridx_v31_ix3 (b : Fin 8) (s o k : Fin 1024) : ridx_main_v31 (ix3 b s o) k = ix2 o k := by
  funext a; match a with | ⟨0, _⟩ => rfl | ⟨1, _⟩ => rfl

theorem idx_v33_ix3 (b : Fin 8) (s o : Fin 1024) : idx_main_v32 (idx_main_v33 (ix3 b s o)) = ix1 o := by
  funext a; match a with | ⟨0, _⟩ => rfl

theorem idx_v55_ix3 (b : Fin 8) (s o : Fin 1024) : idx_main_v54 (idx_main_v55 (ix3 b s o)) = ix1 o := by
  funext a; match a with | ⟨0, _⟩ => rfl

theorem idx_v58_ix3 (b : Fin 8) (s o : Fin 1024) : idx_main_v57 (idx_main_v58 (ix3 b s o)) = ix1 o := by
  funext a; match a with | ⟨0, _⟩ => rfl

theorem idx_v36_ix2 (b : Fin 8) (s o : Fin 1024) : idx_main_v36 (ix2 b s) o = ix3 b s o := by
  funext a; match a with | ⟨0, _⟩ => rfl | ⟨1, _⟩ => rfl | ⟨2, _⟩ => rfl

theorem idx_v43_ix2 (b : Fin 8) (s o : Fin 1024) : idx_main_v43 (ix2 b s) o = ix3 b s o := by
  funext a; match a with | ⟨0, _⟩ => rfl | ⟨1, _⟩ => rfl | ⟨2, _⟩ => rfl

theorem idx_v37_ix3 (b : Fin 8) (s : Fin 1024) (u : Fin 1) : idx_main_v37 (ix3 b s u) = ix2 b s := by
  funext a; match a with | ⟨0, _⟩ => rfl | ⟨1, _⟩ => rfl

theorem idx_v44_ix3 (b : Fin 8) (s : Fin 1024) (u : Fin 1) : idx_main_v44 (ix3 b s u) = ix2 b s := by
  funext a; match a with | ⟨0, _⟩ => rfl | ⟨1, _⟩ => rfl

theorem idx_v40_ix3 (b : Fin 8) (s o : Fin 1024) : idx_main_v40 (ix3 b s o) = ix3 b s (0 : Fin 1) := by
  funext a; match a with | ⟨0, _⟩ => rfl | ⟨1, _⟩ => rfl | ⟨2, _⟩ => rfl

theorem idx_v47_ix3 (b : Fin 8) (s o : Fin 1024) : idx_main_v47 (ix3 b s o) = ix3 b s (0 : Fin 1) := by
  funext a; match a with | ⟨0, _⟩ => rfl | ⟨1, _⟩ => rfl | ⟨2, _⟩ => rfl

theorem idx_v52_ix3 (b : Fin 8) (s o : Fin 1024) : idx_main_v52 (ix3 b s o) = ix3 b s (0 : Fin 1) := by
  funext a; match a with | ⟨0, _⟩ => rfl | ⟨1, _⟩ => rfl | ⟨2, _⟩ => rfl

variable (b : Fin 8) (s : Fin 1024)

local notation "PRE" => Mha.preF (cR x0 x1 x2 x3 x4 x5 x6 x7 x8 b s) (wR x9) (vecR x10) (resR x2 b s)
local notation "MEAN" => Mha.meanF (cR x0 x1 x2 x3 x4 x5 x6 x7 x8 b s) (wR x9) (vecR x10) (resR x2 b s)
local notation "VAR" => Mha.varF (cR x0 x1 x2 x3 x4 x5 x6 x7 x8 b s) (wR x9) (vecR x10) (resR x2 b s)

/-- The row that is normalised. -/
theorem v35_ix3 (o : Fin 1024) : val_main_v35 (F := Ideal) x0 x1 x2 x3 x4 x5 x6 x7 x8 x9 x10 (ix3 b s o) = PRE o := by
  rw [val_main_v35_apply, val_main_v34_apply, val_main_v33_apply, val_main_v32_apply, idx_v33_ix3, val_main_v31_apply,
    Ideal.addf_def, Ideal.addf_def]
  unfold Mha.preF
  rw [← add_assoc]
  refine congrArg (fun z => x2 (ix3 b s o) + z + x10 (ix1 o)) (Finset.sum_congr rfl fun k _ => ?_)
  rw [lidx_v31_ix3, ridx_v31_ix3]

/-- Its mean. -/
theorem v39_ix3 (u : Fin 1) : val_main_v39 (F := Ideal) x0 x1 x2 x3 x4 x5 x6 x7 x8 x9 x10 (ix3 b s u) = MEAN := by
  rw [val_main_v39_apply, val_main_v37_apply, idx_v37_ix3, val_main_v38_apply, val_main_cst_4_apply, val_main_v36_apply,
    val_main_cst_3_apply, Ideal.hostDivf_def, Ideal.ofBits_def, Ideal.ofBits_def, Ideal.ofBits_zero_f32, zero_add]
  unfold Mha.meanF Mha.n1024
  refine congrArg (fun z => Ideal.div z (Ideal.ofBits .f32 0x44800000#32)) (Finset.sum_congr rfl fun o _ => ?_)
  rw [idx_v36_ix2, v35_ix3]

/-- The centred row. -/
theorem v41_ix3 (o : Fin 1024) : val_main_v41 (F := Ideal) x0 x1 x2 x3 x4 x5 x6 x7 x8 x9 x10 (ix3 b s o) = PRE o - MEAN := by
  rw [val_main_v41_apply, val_main_v40_apply, idx_v40_ix3, v39_ix3, v35_ix3, Ideal.subf_def]

theorem v48_ix3 (o : Fin 1024) : val_main_v48 (F := Ideal) x0 x1 x2 x3 x4 x5 x6 x7 x8 x9 x10 (ix3 b s o) = PRE o - MEAN := by
  rw [val_main_v48_apply, val_main_v47_apply, idx_v47_ix3, v39_ix3, v35_ix3, Ideal.subf_def]

/-- Its variance. -/
theorem v46_ix3 (u : Fin 1) : val_main_v46 (F := Ideal) x0 x1 x2 x3 x4 x5 x6 x7 x8 x9 x10 (ix3 b s u) = VAR := by
  rw [val_main_v46_apply, val_main_v44_apply, idx_v44_ix3, val_main_v45_apply, val_main_cst_6_apply, val_main_v43_apply,
    val_main_cst_5_apply, Ideal.hostDivf_def, Ideal.ofBits_def, Ideal.ofBits_def, Ideal.ofBits_zero_f32, zero_add]
  unfold Mha.varF Mha.n1024
  refine congrArg (fun z => Ideal.div z (Ideal.ofBits .f32 0x44800000#32)) (Finset.sum_congr rfl fun o _ => ?_)
  rw [idx_v43_ix2, val_main_v42_apply, v41_ix3, Ideal.mulf_def]

/-- The reciprocal square root of the variance plus the small constant, laid along the row. -/
theorem v52_ix3 (o : Fin 1024) :
    val_main_v52 (F := Ideal) x0 x1 x2 x3 x4 x5 x6 x7 x8 x9 x10 (ix3 b s o) = Ideal.rsqrt (VAR + Mha.eps) := by
  rw [val_main_v52_apply, idx_v52_ix3, val_main_v51_apply, val_main_v50_apply, v46_ix3, val_main_v49_apply, val_main_cst_7_apply,
    Ideal.addf_def, Ideal.ofBits_def, Ideal.hostUnary_rsqrt_def]
  rfl

/-- THE FIRST RESULT at (b, s, o). -/
theorem v59_ix3 (o : Fin 1024) :
    val_main_v59 (F := Ideal) x0 x1 x2 x3 x4 x5 x6 x7 x8 x9 x10 x11 x12 (ix3 b s o)
      = Mha.lnF (cR x0 x1 x2 x3 x4 x5 x6 x7 x8 b s) (wR x9) (vecR x10) (resR x2 b s) (vecR x11) (vecR x12) o := by
  rw [val_main_v59_apply, val_main_v58_apply, val_main_v57_apply, idx_v58_ix3, val_main_v56_apply, val_main_v55_apply,
    val_main_v54_apply, idx_v55_ix3, val_main_v53_apply, v48_ix3, v52_ix3, Ideal.addf_def, Ideal.mulf_def, Ideal.mulf_def]
  rfl

end

end Mha.Ref

end
-- ==== Proof.RefBridge.lean ====
/-
  The reference program's two results are the specification's.

  The attention weights: see the module on the weights.  The normalised output: the specification's context
  rows are the reference's regrouped context, and on each token row the reference's output layer is the
  specification's.
-/
import proofs.«171156_j2327872274493_1_alg».proof.Proof.Gen.ReferenceIdeal.Read
import proofs.«171156_j2327872274493_1_alg».proof.Proof.Spec
import proofs.«171156_j2327872274493_1_alg».proof.Proof.RefProj
import proofs.«171156_j2327872274493_1_alg».proof.Proof.RefAttn
import proofs.«171156_j2327872274493_1_alg».proof.Proof.RefCtx
import proofs.«171156_j2327872274493_1_alg».proof.Proof.RefNorm

noncomputable section

open scoped BigOperators
open Cert.ReferenceIdeal Cert.ReferenceIdeal.Gen Cert.ReferenceIdeal.Read Idealize.ShloMosaic Idealize.ShloMosaic.ValueIdx

namespace Mha.Ref

/-- THE FIRST RESULT: the reference's normalised output is the specification's. -/
theorem out_eq (x0 x1 x2 : (⟨S8x1024x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 x11 x12 : (⟨S1024, .f32⟩ : BufTy).Contents (Elt Ideal)) :
    Cert.ReferenceIdeal.Read.val_main_v59 (F := Ideal) x0 x1 x2 x3 x4 x5 x6 x7 x8 x9 x10 x11 x12
      = Mha.out x0 x1 x2 x3 x4 x5 x6 x7 x8 x9 x10 x11 x12 := by
  unfold Mha.out
  rw [ctxRows_eq_v30 x0 x1 x2 x3 x4 x5 x6 x7 x8]
  funext i
  obtain ⟨b, s, o, rfl⟩ : ∃ (b : Fin 8) (s : Fin 1024) (o : Fin 1024), i = ix3 b s o := ⟨i 0, i 1, i 2, eq_ix3 i⟩
  exact (v59_ix3 x0 x1 x2 x3 x4 x5 x6 x7 x8 x9 x10 x11 x12 b s o).trans
    (lnTok_apply (val_main_v30 (F := Ideal) x0 x1 x2 x3 x4 x5 x6 x7 x8) x9 x10 x2 x11 x12 b s o).symm

end Mha.Ref

end
-- ==== Proof.lean ====
/-
  Multi-head attention with a fused output layer, kernel against reference, over extended reals.

  Both programs compute, from a key, a value and a query of 8 × 1024 tokens of 1024 features, four weight matrices,
  four biases and the normalisation's gamma and beta: the three linear projections; their regrouping, in row-major
  order, as 128 heads of 1024 positions of 64 features; per head the softmax of half the query–key inner products
  and the weighted sums of the values; the regrouping of the contexts as tokens; the output projection plus residual
  plus bias; and the layer normalisation of each token.  They return the normalised tokens and the softmax weights.

  The kernel does this in five pipelined regions among reshapes, transposes and changes of float format (which are the
  identity on extended reals); the reference in seventy whole-array operations.  `Mha.out` and `Mha.attn`
  (Proof/Spec.lean) state the two results once.  The kernel's run ends with them (Proof/WalkC.lean `value_run`:
  each region's result array is one function of the arrays it finds because its blocks tile the array and each block
  depends only on the matching blocks of the inputs, Proof/Region*.lean over the payload readings Proof/Pay*.lean);
  the reference's run ends with them (Proof/RefBridge.lean).  The only algebra between the two sides is the
  associativity of addition (residual + (projection + bias) against (residual + projection) + bias) and max(-∞, x) = x;
  no finiteness of the inputs is used.  The idealization rewrote nothing, so `preserves` is trivial.
-/
import proofs.«171156_j2327872274493_1_alg».proof.Defs
import proofs.«171156_j2327872274493_1_alg».proof.Proof.Gen.Kernel
import proofs.«171156_j2327872274493_1_alg».proof.Proof.Gen.Kernel.Skeleton
import proofs.«171156_j2327872274493_1_alg».proof.Proof.Gen.Kernel.Launch
import proofs.«171156_j2327872274493_1_alg».proof.Proof.Gen.Kernel.Points
import proofs.«171156_j2327872274493_1_alg».proof.Proof.Gen.Kernel.Frame
import proofs.«171156_j2327872274493_1_alg».proof.Proof.Gen.KernelIdeal
import proofs.«171156_j2327872274493_1_alg».proof.Proof.Gen.KernelIdeal.Skeleton
import proofs.«171156_j2327872274493_1_alg».proof.Proof.Gen.KernelIdeal.Launch
import proofs.«171156_j2327872274493_1_alg».proof.Proof.Gen.KernelIdeal.Points
import proofs.«171156_j2327872274493_1_alg».proof.Proof.Gen.KernelIdeal.Frame
import proofs.«171156_j2327872274493_1_alg».proof.Proof.Gen.ReferenceIdeal
import proofs.«171156_j2327872274493_1_alg».proof.Proof.Gen.Pre_finite_inputs
import proofs.«171156_j2327872274493_1_alg».proof.Proof.Gen.ReferenceIdeal.Run
import proofs.«171156_j2327872274493_1_alg».proof.Proof.Gen.ReferenceIdeal.Read
import proofs.«171156_j2327872274493_1_alg».proof.Proof.WalkC
import proofs.«171156_j2327872274493_1_alg».proof.Proof.RefBridge
import Idealize.ShloMosaic.Adequacy
import Idealize.ShloMosaic.Init

set_option maxRecDepth 16384

noncomputable section

namespace Cert.Proof

open Idealize.ShloMosaic Idealize.SL.Sem

variable [Cert.Kernel.Facts] [Cert.KernelIdeal.Facts] [Cert.ReferenceIdeal.Facts] [Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end with the specification's two results of arguments that agree. -/
theorem algebraic : Cert.algebraic_KernelIdeal_ReferenceIdeal := by
  intro m ρ m' ρ' _ hagree
  refine ⟨_, _, Cert.KernelIdeal.Whole.value_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v59_eq, Mha.Ref.out_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  · rw [(h c).2.1, Cert.ReferenceIdeal.Read.val_main_v28_eq, Mha.Ref.attn_eq,
      (hagree c).1, (hagree c).2.2.1, (hagree c).2.2.2.1, (hagree c).2.2.2.2.1, (hagree c).2.2.2.2.2.1, (hagree c).2.2.2.2.2.2.1]

end Cert.Proof

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
